-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v48)) (v1 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_v61) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v112) = v0 c
          ∧ r.2.mem ((c.tc : Thread Cert.ReferenceIdeal.nD Cert.ReferenceIdeal.τ).loc Cert.ReferenceIdeal.main_v131) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S400000x128 : Shape := ⟨2, ![400000, 128]⟩
abbrev S1600000 : Shape := ⟨1, ![1600000]⟩
abbrev S4x128x128 : Shape := ⟨3, ![4, 128, 128]⟩
abbrev S4x128 : Shape := ⟨2, ![4, 128]⟩
abbrev S2x256x128 : Shape := ⟨3, ![2, 256, 128]⟩
abbrev S2x128 : Shape := ⟨2, ![2, 128]⟩
abbrev S2x128x128 : Shape := ⟨3, ![2, 128, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S400000x128 : S_.BroadcastsInDim S400000x128 (![] : Fin 0 → Fin S400000x128.rank)
  reducesTo_S400000x128_S_d0_1 : S400000x128.ReducesTo [0, 1] S_
  bcast_S_S4x128x128 : S_.BroadcastsInDim S4x128x128 (![] : Fin 0 → Fin S4x128x128.rank)
  reducesTo_S4x128x128_S_d0_1_2 : S4x128x128.ReducesTo [0, 1, 2] S_
  bcast_S_S4x128 : S_.BroadcastsInDim S4x128 (![] : Fin 0 → Fin S4x128.rank)
  reducesTo_S4x128_S_d0_1 : S4x128.ReducesTo [0, 1] S_
  bcast_S_S2x256x128 : S_.BroadcastsInDim S2x256x128 (![] : Fin 0 → Fin S2x256x128.rank)
  reducesTo_S2x256x128_S_d0_1_2 : S2x256x128.ReducesTo [0, 1, 2] S_
  bcast_S_S2x128 : S_.BroadcastsInDim S2x128 (![] : Fin 0 → Fin S2x128.rank)
  reducesTo_S2x128_S_d0_1 : S2x128.ReducesTo [0, 1] S_
  bcast_S_S2x128x128 : S_.BroadcastsInDim S2x128x128 (![] : Fin 0 → Fin S2x128x128.rank)
  reducesTo_S2x128x128_S_d0_1_2 : S2x128x128.ReducesTo [0, 1, 2] S_

variable [Facts]

def fn_part2 {F : FTy → Type} [FloatOps F] (main_arg11 : FVec F S2x128 .f32) (main_arg12 : FVec F S2x128x128 .f32) (main_arg13 : FVec F S2x128 .f32) (main_v33 : IVec S_ 1) : IVec S_ 1 :=
  let main_v34 : FVec F S2x128 .f32 := Host.absf main_arg11
  let main_cst_12 : FVec F S_ .f32 := constant S_ .f32 0x7F800000#32
  let main_v35 : FVec F S2x128 .f32 := broadcastInDim S2x128 ![] bcast_S_S2x128 main_cst_12
  let main_v36 : IVec S2x128 1 := cmpf .olt main_v34 main_v35
  let main_c_13 : IVec S_ 1 := constantI S_ 1 1#1
  let main_v37 : IVec S_ 1 := (fun x v => Host.reduce IntOp.andi x v reducesTo_S2x128_S_d0_1 h_S_) main_v36 main_c_13
  let main_v38 : IVec S_ 1 := andi main_v33 main_v37
  let main_v39 : FVec F S2x128x128 .f32 := Host.absf main_arg12
  let main_cst_14 : FVec F S_ .f32 := constant S_ .f32 0x7F800000#32
  let main_v40 : FVec F S2x128x128 .f32 := broadcastInDim S2x128x128 ![] bcast_S_S2x128x128 main_cst_14
  let main_v41 : IVec S2x128x128 1 := cmpf .olt main_v39 main_v40
  let main_c_15 : IVec S_ 1 := constantI S_ 1 1#1
  let main_v42 : IVec S_ 1 := (fun x v => Host.reduce IntOp.andi x v reducesTo_S2x128x128_S_d0_1_2 h_S_) main_v41 main_c_15
  let main_v43 : IVec S_ 1 := andi main_v38 main_v42
  let main_v44 : FVec F S2x128 .f32 := Host.absf main_arg13
  let main_cst_16 : FVec F S_ .f32 := constant S_ .f32 0x7F800000#32
  let main_v45 : FVec F S2x128 .f32 := broadcastInDim S2x128 ![] bcast_S_S2x128 main_cst_16
  let main_v46 : IVec S2x128 1 := cmpf .olt main_v44 main_v45
  let main_c_17 : IVec S_ 1 := constantI S_ 1 1#1
  let main_v47 : IVec S_ 1 := (fun x v => Host.reduce IntOp.andi x v reducesTo_S2x128_S_d0_1 h_S_) main_v46 main_c_17
  let main_v48 : IVec S_ 1 := andi main_v43 main_v47
  main_v48

def fn_part1 {F : FTy → Type} [FloatOps F] (main_arg8 : FVec F S4x128x128 .f32) (main_arg9 : FVec F S4x128 .f32) (main_arg10 : FVec F S2x256x128 .f32) (main_arg11 : FVec F S2x128 .f32) (main_arg12 : FVec F S2x128x128 .f32) (main_arg13 : FVec F S2x128 .f32) (main_v13 : IVec S_ 1) (main_v16 : IVec S4x128 1) : IVec S_ 1 :=
  let main_c_5 : IVec S_ 1 := constantI S_ 1 1#1
  let main_v17 : IVec S_ 1 := (fun x v => Host.reduce IntOp.andi x v reducesTo_S4x128_S_d0_1 h_S_) main_v16 main_c_5
  let main_v18 : IVec S_ 1 := andi main_v13 main_v17
  let main_v19 : FVec F S4x128x128 .f32 := Host.absf main_arg8
  let main_cst_6 : FVec F S_ .f32 := constant S_ .f32 0x7F800000#32
  let main_v20 : FVec F S4x128x128 .f32 := broadcastInDim S4x128x128 ![] bcast_S_S4x128x128 main_cst_6
  let main_v21 : IVec S4x128x128 1 := cmpf .olt main_v19 main_v20
  let main_c_7 : IVec S_ 1 := constantI S_ 1 1#1
  let main_v22 : IVec S_ 1 := (fun x v => Host.reduce IntOp.andi x v reducesTo_S4x128x128_S_d0_1_2 h_S_) main_v21 main_c_7
  let main_v23 : IVec S_ 1 := andi main_v18 main_v22
  let main_v24 : FVec F S4x128 .f32 := Host.absf main_arg9
  let main_cst_8 : FVec F S_ .f32 := constant S_ .f32 0x7F800000#32
  let main_v25 : FVec F S4x128 .f32 := broadcastInDim S4x128 ![] bcast_S_S4x128 main_cst_8
  let main_v26 : IVec S4x128 1 := cmpf .olt main_v24 main_v25
  let main_c_9 : IVec S_ 1 := constantI S_ 1 1#1
  let main_v27 : IVec S_ 1 := (fun x v => Host.reduce IntOp.andi x v reducesTo_S4x128_S_d0_1 h_S_) main_v26 main_c_9
  let main_v28 : IVec S_ 1 := andi main_v23 main_v27
  let main_v29 : FVec F S2x256x128 .f32 := Host.absf main_arg10
  let main_cst_10 : FVec F S_ .f32 := constant S_ .f32 0x7F800000#32
  let main_v30 : FVec F S2x256x128 .f32 := broadcastInDim S2x256x128 ![] bcast_S_S2x256x128 main_cst_10
  let main_v31 : IVec S2x256x128 1 := cmpf .olt main_v29 main_v30
  let main_c_11 : IVec S_ 1 := constantI S_ 1 1#1
  let main_v32 : IVec S_ 1 := (fun x v => Host.reduce IntOp.andi x v reducesTo_S2x256x128_S_d0_1_2 h_S_) main_v31 main_c_11
  let main_v33 : IVec S_ 1 := andi main_v28 main_v32
  fn_part2 (F := F) main_arg11 main_arg12 main_arg13 main_v33

def fn {F : FTy → Type} [FloatOps F] (main_arg0 : FVec F S100000x128 .f32) (main_arg1 : FVec F S400000x128 .f32) (main_arg2 : IVec S1600000 32) (main_arg3 : IVec S1600000 32) (main_arg4 : IVec S1600000 32) (main_arg5 : IVec S1600000 32) (main_arg6 : FVec F S4x128x128 .f32) (main_arg7 : FVec F S4x128 .f32) (main_arg8 : FVec F S4x128x128 .f32) (main_arg9 : FVec F S4x128 .f32) (main_arg10 : FVec F S2x256x128 .f32) (main_arg11 : FVec F S2x128 .f32) (main_arg12 : FVec F S2x128x128 .f32) (main_arg13 : FVec F S2x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S400000x128 .f32 := Host.absf main_arg1
  let main_cst_0 : FVec F S_ .f32 := constant S_ .f32 0x7F800000#32
  let main_v5 : FVec F S400000x128 .f32 := broadcastInDim S400000x128 ![] bcast_S_S400000x128 main_cst_0
  let main_v6 : IVec S400000x128 1 := cmpf .olt main_v4 main_v5
  let main_c_1 : IVec S_ 1 := constantI S_ 1 1#1
  let main_v7 : IVec S_ 1 := (fun x v => Host.reduce IntOp.andi x v reducesTo_S400000x128_S_d0_1 h_S_) main_v6 main_c_1
  let main_v8 : IVec S_ 1 := andi main_v3 main_v7
  let main_v9 : FVec F S4x128x128 .f32 := Host.absf main_arg6
  let main_cst_2 : FVec F S_ .f32 := constant S_ .f32 0x7F800000#32
  let main_v10 : FVec F S4x128x128 .f32 := broadcastInDim S4x128x128 ![] bcast_S_S4x128x128 main_cst_2
  let main_v11 : IVec S4x128x128 1 := cmpf .olt main_v9 main_v10
  let main_c_3 : IVec S_ 1 := constantI S_ 1 1#1
  let main_v12 : IVec S_ 1 := (fun x v => Host.reduce IntOp.andi x v reducesTo_S4x128x128_S_d0_1_2 h_S_) main_v11 main_c_3
  let main_v13 : IVec S_ 1 := andi main_v8 main_v12
  let main_v14 : FVec F S4x128 .f32 := Host.absf main_arg7
  let main_cst_4 : FVec F S_ .f32 := constant S_ .f32 0x7F800000#32
  let main_v15 : FVec F S4x128 .f32 := broadcastInDim S4x128 ![] bcast_S_S4x128 main_cst_4
  let main_v16 : IVec S4x128 1 := cmpf .olt main_v14 main_v15
  fn_part1 (F := F) main_arg8 main_arg9 main_arg10 main_arg11 main_arg12 main_arg13 main_v13 main_v16
-- ==== Kernel.lean ====
abbrev S100000x128 : Shape := ⟨2, ![100000, 128]⟩
abbrev S400000x128 : Shape := ⟨2, ![400000, 128]⟩
abbrev S1600000 : Shape := ⟨1, ![1600000]⟩
abbrev S4x128x128 : Shape := ⟨3, ![4, 128, 128]⟩
abbrev S4x128 : Shape := ⟨2, ![4, 128]⟩
abbrev S2x256x128 : Shape := ⟨3, ![2, 256, 128]⟩
abbrev S2x128 : Shape := ⟨2, ![2, 128]⟩
abbrev S2x128x128 : Shape := ⟨3, ![2, 128, 128]⟩
abbrev S2x1x128 : Shape := ⟨3, ![2, 1, 128]⟩
abbrev S800000x128 : Shape := ⟨2, ![800000, 128]⟩
abbrev S10000x128 : Shape := ⟨2, ![10000, 128]⟩
abbrev S1x128x128 : Shape := ⟨3, ![1, 128, 128]⟩
abbrev S1x1x128 : Shape := ⟨3, ![1, 1, 128]⟩
abbrev S128x128 : Shape := ⟨2, ![128, 128]⟩
abbrev S1x128 : Shape := ⟨2, ![1, 128]⟩
abbrev S200000x128 : Shape := ⟨2, ![200000, 128]⟩
abbrev S_ : Shape := ⟨0, ![]⟩
abbrev S1600000x1 : Shape := ⟨2, ![1600000, 1]⟩
abbrev S1600000x128 : Shape := ⟨2, ![1600000, 128]⟩
abbrev S1x256x128 : Shape := ⟨3, ![1, 256, 128]⟩
abbrev S256x128 : Shape := ⟨2, ![256, 128]⟩
abbrev S128 : Shape := ⟨1, ![128]⟩

abbrev nBuf : Space → Nat
  | .hbm => 82
  | .vmem => 46
  | .smem => 0
  | _ => 0

abbrev bufTy : (tb : Table) → Fin (tcTables nBuf tb) → BufTy
  | .hbm, ⟨0, _⟩ => ⟨S100000x128, .f32⟩
  | .hbm, ⟨1, _⟩ => ⟨S400000x128, .f32⟩
  | .hbm, ⟨2, _⟩ => ⟨S1600000, .i32⟩
  | .hbm, ⟨3, _⟩ => ⟨S1600000, .i32⟩
  | .hbm, ⟨4, _⟩ => ⟨S1600000, .i32⟩
  | .hbm, ⟨5, _⟩ => ⟨S1600000, .i32⟩
  | .hbm, ⟨6, _⟩ => ⟨S4x128x128, .f32⟩
  | .hbm, ⟨7, _⟩ => ⟨S4x128, .f32⟩
  | .hbm, ⟨8, _⟩ => ⟨S4x128x128, .f32⟩
  | .hbm, ⟨9, _⟩ => ⟨S4x128, .f32⟩
  | .hbm, ⟨10, _⟩ => ⟨S2x256x128, .f32⟩
  | .hbm, ⟨11, _⟩ => ⟨S2x128, .f32⟩
  | .hbm, ⟨12, _⟩ => ⟨S2x128x128, .f32⟩
  | .hbm, ⟨13, _⟩ => ⟨S2x128, .f32⟩
  | .hbm, ⟨14, _⟩ => ⟨S2x128x128, .f32⟩
  | .hbm, ⟨15, _⟩ => ⟨S2x128, .f32⟩
  | .hbm, ⟨16, _⟩ => ⟨S2x128x128, .f32⟩
  | .hbm, ⟨17, _⟩ => ⟨S2x128, .f32⟩
  | .hbm, ⟨18, _⟩ => ⟨S2x1x128, .f32⟩
  | .hbm, ⟨19, _⟩ => ⟨S2x1x128, .f32⟩
  | .hbm, ⟨20, _⟩ => ⟨S800000x128, .bf16⟩
  | .hbm, ⟨21, _⟩ => ⟨S2x128x128, .f32⟩
  | .hbm, ⟨22, _⟩ => ⟨S2x128, .f32⟩
  | .hbm, ⟨23, _⟩ => ⟨S2x128x128, .f32⟩
  | .hbm, ⟨24, _⟩ => ⟨S2x128, .f32⟩
  | .hbm, ⟨25, _⟩ => ⟨S2x1x128, .f32⟩
  | .hbm, ⟨26, _⟩ => ⟨S2x1x128, .f32⟩
  | .hbm, ⟨27, _⟩ => ⟨S200000x128, .bf16⟩
  | .hbm, ⟨28, _⟩ => ⟨S_, .i32⟩
  | .hbm, ⟨29, _⟩ => ⟨S1600000, .i32⟩
  | .hbm, ⟨30, _⟩ => ⟨S1600000, .i1⟩
  | .hbm, ⟨31, _⟩ => ⟨S_, .i32⟩
  | .hbm, ⟨32, _⟩ => ⟨S1600000, .i32⟩
  | .hbm, ⟨33, _⟩ => ⟨S1600000, .i32⟩
  | .hbm, ⟨34, _⟩ => ⟨S1600000, .i32⟩
  | .hbm, ⟨35, _⟩ => ⟨S1600000x1, .i32⟩
  | .hbm, ⟨36, _⟩ => ⟨S1600000x128, .bf16⟩
  | .hbm, ⟨37, _⟩ => ⟨S1600000x128, .f32⟩
  | .hbm, ⟨38, _⟩ => ⟨S_, .f32⟩
  | .hbm, ⟨39, _⟩ => ⟨S100000x128, .f32⟩
  | .hbm, ⟨40, _⟩ => ⟨S1600000x1, .i32⟩
  | .hbm, ⟨41, _⟩ => ⟨S100000x128, .f32⟩
  | .hbm, ⟨42, _⟩ => ⟨S_, .i32⟩
  | .hbm, ⟨43, _⟩ => ⟨S1600000, .i32⟩
  | .hbm, ⟨44, _⟩ => ⟨S1600000, .i1⟩
  | .hbm, ⟨45, _⟩ => ⟨S_, .i32⟩
  | .hbm, ⟨46, _⟩ => ⟨S1600000, .i32⟩
  | .hbm, ⟨47, _⟩ => ⟨S1600000, .i32⟩
  | .hbm, ⟨48, _⟩ => ⟨S1600000, .i32⟩
  | .hbm, ⟨49, _⟩ => ⟨S1600000x1, .i32⟩
  | .hbm, ⟨50, _⟩ => ⟨S1600000x128, .bf16⟩
  | .hbm, ⟨51, _⟩ => ⟨S1600000x128, .f32⟩
  | .hbm, ⟨52, _⟩ => ⟨S_, .f32⟩
  | .hbm, ⟨53, _⟩ => ⟨S400000x128, .f32⟩
  | .hbm, ⟨54, _⟩ => ⟨S1600000x1, .i32⟩
  | .hbm, ⟨55, _⟩ => ⟨S400000x128, .f32⟩
  | .hbm, ⟨56, _⟩ => ⟨S1x256x128, .f32⟩
  | .hbm, ⟨57, _⟩ => ⟨S256x128, .f32⟩
  | .hbm, ⟨58, _⟩ => ⟨S1x128, .f32⟩
  | .hbm, ⟨59, _⟩ => ⟨S128, .f32⟩
  | .hbm, ⟨60, _⟩ => ⟨S1x128x128, .f32⟩
  | .hbm, ⟨61, _⟩ => ⟨S128x128, .f32⟩
  | .hbm, ⟨62, _⟩ => ⟨S1x128, .f32⟩
  | .hbm, ⟨63, _⟩ => ⟨S128, .f32⟩
  | .hbm, ⟨64, _⟩ => ⟨S128x128, .f32⟩
  | .hbm, ⟨65, _⟩ => ⟨S128x128, .f32⟩
  | .hbm, ⟨66, _⟩ => ⟨S1x128, .f32⟩
  | .hbm, ⟨67, _⟩ => ⟨S1x128, .f32⟩
  | .hbm, ⟨68, _⟩ => ⟨S100000x128, .f32⟩
  | .hbm, ⟨69, _⟩ => ⟨S1x256x128, .f32⟩
  | .hbm, ⟨70, _⟩ => ⟨S256x128, .f32⟩
  | .hbm, ⟨71, _⟩ => ⟨S1x128, .f32⟩
  | .hbm, ⟨72, _⟩ => ⟨S128, .f32⟩
  | .hbm, ⟨73, _⟩ => ⟨S1x128x128, .f32⟩
  | .hbm, ⟨74, _⟩ => ⟨S128x128, .f32⟩
  | .hbm, ⟨75, _⟩ => ⟨S1x128, .f32⟩
  | .hbm, ⟨76, _⟩ => ⟨S128, .f32⟩
  | .hbm, ⟨77, _⟩ => ⟨S128x128, .f32⟩
  | .hbm, ⟨78, _⟩ => ⟨S128x128, .f32⟩
  | .hbm, ⟨79, _⟩ => ⟨S1x128, .f32⟩
  | .hbm, ⟨80, _⟩ => ⟨S1x128, .f32⟩
  | .hbm, ⟨81, _⟩ => ⟨S400000x128, .f32⟩
  | .local _ .vmem, ⟨0, _⟩ => ⟨S10000x128, .f32⟩
  | .local _ .vmem, ⟨1, _⟩ => ⟨S10000x128, .f32⟩
  | .local _ .vmem, ⟨2, _⟩ => ⟨S1x128x128, .f32⟩
  | .local _ .vmem, ⟨3, _⟩ => ⟨S1x128x128, .f32⟩
  | .local _ .vmem, ⟨4, _⟩ => ⟨S1x1x128, .f32⟩
  | .local _ .vmem, ⟨5, _⟩ => ⟨S1x1x128, .f32⟩
  | .local _ .vmem, ⟨6, _⟩ => ⟨S1x128x128, .f32⟩
  | .local _ .vmem, ⟨7, _⟩ => ⟨S1x128x128, .f32⟩
  | .local _ .vmem, ⟨8, _⟩ => ⟨S1x1x128, .f32⟩
  | .local _ .vmem, ⟨9, _⟩ => ⟨S1x1x128, .f32⟩
  | .local _ .vmem, ⟨10, _⟩ => ⟨S10000x128, .bf16⟩
  | .local _ .vmem, ⟨11, _⟩ => ⟨S10000x128, .bf16⟩
  | .local _ .vmem, ⟨12, _⟩ => ⟨S10000x128, .f32⟩
  | .local _ .vmem, ⟨13, _⟩ => ⟨S10000x128, .f32⟩
  | .local _ .vmem, ⟨14, _⟩ => ⟨S1x128x128, .f32⟩
  | .local _ .vmem, ⟨15, _⟩ => ⟨S1x128x128, .f32⟩
  | .local _ .vmem, ⟨16, _⟩ => ⟨S1x1x128, .f32⟩
  | .local _ .vmem, ⟨17, _⟩ => ⟨S1x1x128, .f32⟩
  | .local _ .vmem, ⟨18, _⟩ => ⟨S1x128x128, .f32⟩
  | .local _ .vmem, ⟨19, _⟩ => ⟨S1x128x128, .f32⟩
  | .local _ .vmem, ⟨20, _⟩ => ⟨S1x1x128, .f32⟩
  | .local _ .vmem, ⟨21, _⟩ => ⟨S1x1x128, .f32⟩
  | .local _ .vmem, ⟨22, _⟩ => ⟨S10000x128, .bf16⟩
  | .local _ .vmem, ⟨23, _⟩ => ⟨S10000x128, .bf16⟩
  | .local _ .vmem, ⟨24, _⟩ => ⟨S10000x128, .f32⟩
  | .local _ .vmem, ⟨25, _⟩ => ⟨S10000x128, .f32⟩
  | .local _ .vmem, ⟨26, _⟩ => ⟨S10000x128, .f32⟩
  | .local _ .vmem, ⟨27, _⟩ => ⟨S10000x128, .f32⟩
  | .local _ .vmem, ⟨28, _⟩ => ⟨S128x128, .f32⟩
  | .local _ .vmem, ⟨29, _⟩ => ⟨S128x128, .f32⟩
  | .local _ .vmem, ⟨30, _⟩ => ⟨S1x128, .f32⟩
  | .local _ .vmem, ⟨31, _⟩ => ⟨S128x128, .f32⟩
  | .local _ .vmem, ⟨32, _⟩ => ⟨S1x128, .f32⟩
  | .local _ .vmem, ⟨33, _⟩ => ⟨S10000x128, .f32⟩
  | .local _ .vmem, ⟨34, _⟩ => ⟨S10000x128, .f32⟩
  | .local _ .vmem, ⟨35, _⟩ => ⟨S10000x128, .f32⟩
  | .local _ .vmem, ⟨36, _⟩ => ⟨S10000x128, .f32⟩
  | .local _ .vmem, ⟨37, _⟩ => ⟨S10000x128, .f32⟩
  | .local _ .vmem, ⟨38, _⟩ => ⟨S10000x128, .f32⟩
  | .local _ .vmem, ⟨39, _⟩ => ⟨S128x128, .f32⟩
  | .local _ .vmem, ⟨40, _⟩ => ⟨S128x128, .f32⟩
  | .local _ .vmem, ⟨41, _⟩ => ⟨S1x128, .f32⟩
  | .local _ .vmem, ⟨42, _⟩ => ⟨S128x128, .f32⟩
  | .local _ .vmem, ⟨43, _⟩ => ⟨S1x128, .f32⟩
  | .local _ .vmem, ⟨44, _⟩ => ⟨S10000x128, .f32⟩
  | .local _ .vmem, ⟨45, _⟩ => ⟨S10000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_c : Ref sig .tc := ⟨.hbm, 28, rfl⟩
abbrev main_v14 : Ref sig .tc := ⟨.hbm, 29, rfl⟩
abbrev main_v15 : Ref sig .tc := ⟨.hbm, 30, rfl⟩
abbrev main_c_0 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_c_1 : Ref sig .tc := ⟨.hbm, 42, rfl⟩
abbrev main_v25 : Ref sig .tc := ⟨.hbm, 43, rfl⟩
abbrev main_v26 : Ref sig .tc := ⟨.hbm, 44, rfl⟩
abbrev main_c_2 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_3 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg5_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg3_0 : Ref sig .tc := ⟨.vmem, 29, rfl⟩
abbrev cc2_stg4_0 : Ref sig .tc := ⟨.vmem, 30, rfl⟩
abbrev cc2_stg5_0 : Ref sig .tc := ⟨.vmem, 31, rfl⟩
abbrev cc2_stg6_0 : Ref sig .tc := ⟨.vmem, 32, rfl⟩
abbrev cc2_stg7_0 : Ref sig .tc := ⟨.vmem, 33, rfl⟩
abbrev cc2_stg7_1 : Ref sig .tc := ⟨.vmem, 34, rfl⟩
abbrev cc3_stg0_0 : Ref sig .tc := ⟨.vmem, 35, rfl⟩
abbrev cc3_stg0_1 : Ref sig .tc := ⟨.vmem, 36, rfl⟩
abbrev cc3_stg1_0 : Ref sig .tc := ⟨.vmem, 37, rfl⟩
abbrev cc3_stg1_1 : Ref sig .tc := ⟨.vmem, 38, rfl⟩
abbrev cc3_stg2_0 : Ref sig .tc := ⟨.vmem, 39, rfl⟩
abbrev cc3_stg3_0 : Ref sig .tc := ⟨.vmem, 40, rfl⟩
abbrev cc3_stg4_0 : Ref sig .tc := ⟨.vmem, 41, rfl⟩
abbrev cc3_stg5_0 : Ref sig .tc := ⟨.vmem, 42, rfl⟩
abbrev cc3_stg6_0 : Ref sig .tc := ⟨.vmem, 43, rfl⟩
abbrev cc3_stg7_0 : Ref sig .tc := ⟨.vmem, 44, rfl⟩
abbrev cc3_stg7_1 : Ref sig .tc := ⟨.vmem, 45, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem3_0 : DmaSem sig := 29
abbrev cc2_sem4_0 : DmaSem sig := 30
abbrev cc2_sem5_0 : DmaSem sig := 31
abbrev cc2_sem6_0 : DmaSem sig := 32
abbrev cc2_sem7_0 : DmaSem sig := 33
abbrev cc2_sem7_1 : DmaSem sig := 34
abbrev cc3_sem0_0 : DmaSem sig := 35
abbrev cc3_sem0_1 : DmaSem sig := 36
abbrev cc3_sem1_0 : DmaSem sig := 37
abbrev cc3_sem1_1 : DmaSem sig := 38
abbrev cc3_sem2_0 : DmaSem sig := 39
abbrev cc3_sem3_0 : DmaSem sig := 40
abbrev cc3_sem4_0 : DmaSem sig := 41
abbrev cc3_sem5_0 : DmaSem sig := 42
abbrev cc3_sem6_0 : DmaSem sig := 43
abbrev cc3_sem7_0 : DmaSem sig := 44
abbrev cc3_sem7_1 : DmaSem sig := 45

abbrev nD : Nat := 1
abbrev τ : Topo := Topo.v7x

variable {F : FTy → Type} [FloatOps F]

abbrev grid0 : Pipeline.Grid := ⟨2, ![40, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c40_i32 : BitVec 32 := 40#32
  let v0 : BitVec 32 := Scalar.muli arg1 c40_i32
  let v1 : BitVec 32 := Scalar.addi v0 arg0
  let c0_i32 : BitVec 32 := 0#32
  let c0_i32_0 : BitVec 32 := 0#32
  ![v1.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S10000x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨2, ![10, 2], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg1 c10_i32
  let v1 : BitVec 32 := Scalar.addi v0 arg0
  let c0_i32 : BitVec 32 := 0#32
  let c0_i32_0 : BitVec 32 := 0#32
  ![v1.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x128x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1x1x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1x128x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S1x1x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true]

abbrev stage1_5 : Fin 2 → Memref sig .tc .vmem S10000x128 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S10000x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![40], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S10000x128 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

class Facts₀ : Prop where
  slices_S4x128x128_S2x128x128_0_0_0 : S4x128x128.Slices ![0, 0, 0] S2x128x128
  slices_S4x128_S2x128_0_0 : S4x128.Slices ![0, 0] S2x128
  shapeCasts_S2x128_S2x1x128 : S2x128.ShapeCasts S2x1x128
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  broadcasts_S1x128_S10000x128 : S1x128.Broadcasts S10000x128
  packedbf16_S10000x128_S10000x128_0_0 : (Rect.unit (s := S10000x128) ![0, 0] S10000x128.size inb_S10000x128_S10000x128_0_0).PackedRows (EltTy.packing .bf16)
  slices_S4x128x128_S2x128x128_2_0_0 : S4x128x128.Slices ![2, 0, 0] S2x128x128
  slices_S4x128_S2x128_2_0 : S4x128.Slices ![2, 0] S2x128
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S400000x128 : S_.BroadcastsInDim S400000x128 (![] : Fin 0 → Fin S400000x128.rank)
  slices_S2x256x128_S1x256x128_0_0_0 : S2x256x128.Slices ![0, 0, 0] S1x256x128
  shapeCasts_S1x256x128_S256x128 : S1x256x128.ShapeCasts S256x128
  slices_S2x128_S1x128_0_0 : S2x128.Slices ![0, 0] S1x128
  shapeCasts_S1x128_S128 : S1x128.ShapeCasts S128
  slices_S2x128x128_S1x128x128_0_0_0 : S2x128x128.Slices ![0, 0, 0] S1x128x128
  slices_S256x128_S128x128_0_0 : S256x128.Slices ![0, 0] S128x128
  slices_S256x128_S128x128_128_0 : S256x128.Slices ![128, 0] S128x128
  shapeCasts_S128_S1x128 : S128.ShapeCasts S1x128
  shapeCasts_S10000x128_S10000x128 : S10000x128.ShapeCasts S10000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  slices_S2x256x128_S1x256x128_1_0_0 : S2x256x128.Slices ![1, 0, 0] S1x256x128
  slices_S2x128_S1x128_1_0 : S2x128.Slices ![1, 0] S1x128
  slices_S2x128x128_S1x128x128_1_0_0 : S2x128x128.Slices ![1, 0, 0] S1x128x128
  dot_S10000x128_S128x128_S10000x128_1_0_0_1_n_n_wf : DotDims.WF S10000x128 S128x128 S10000x128 [1] [0] [0] [1] [] []
  gather_S800000x128_S1600000x1_S1600000x128_1_0_n_n_0_1_1128_wf : GatherDims.WF S800000x128 S1600000x1 S1600000x128 [1] [0] [] [0] [] 1 ![1, 128]
  scatter_S100000x128_S1600000x1_S1600000x128_1_0_0_1_wf : ScatterDims.WF S100000x128 S1600000x1 S1600000x128 [1] [0] [0] 1
  gather_S200000x128_S1600000x1_S1600000x128_1_0_n_n_0_1_1128_wf : GatherDims.WF S200000x128 S1600000x1 S1600000x128 [1] [0] [] [0] [] 1 ![1, 128]
  scatter_S400000x128_S1600000x1_S1600000x128_1_0_0_1_wf : ScatterDims.WF S400000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S400000x128.size a
  hwx0_0 : ∀ i : grid0.Coords, EltTy.bits .f32 = 32 ∨ (Rect.block (s := S400000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x128.size a ≤ S2x128x128.size a
  hwx0_1 : ∀ i : grid0.Coords, EltTy.bits .f32 = 32 ∨ (Rect.block (s := S2x128x128) S1x128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x128.size a ≤ S2x1x128.size a
  hwx0_2 : ∀ i : grid0.Coords, EltTy.bits .f32 = 32 ∨ (Rect.block (s := S2x1x128) S1x1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128x128.size a ≤ S2x128x128.size a
  hwx0_3 : ∀ i : grid0.Coords, EltTy.bits .f32 = 32 ∨ (Rect.block (s := S2x128x128) S1x128x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x128.size a ≤ S2x1x128.size a
  hwx0_4 : ∀ i : grid0.Coords, EltTy.bits .f32 = 32 ∨ (Rect.block (s := S2x1x128) S1x1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x128.size a ≤ S800000x128.size a
  hwx0_5 : ∀ i : grid0.Coords, EltTy.bits .bf16 = 32 ∨ (Rect.block (s := S800000x128) S10000x128.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x128x128.size a ≤ S2x128x128.size a
  hwx1_1 : ∀ i : grid1.Coords, EltTy.bits .f32 = 32 ∨ (Rect.block (s := S2x128x128) S1x128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x128.size a ≤ S2x1x128.size a
  hwx1_2 : ∀ i : grid1.Coords, EltTy.bits .f32 = 32 ∨ (Rect.block (s := S2x1x128) S1x1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x128x128.size a ≤ S2x128x128.size a
  hwx1_3 : ∀ i : grid1.Coords, EltTy.bits .f32 = 32 ∨ (Rect.block (s := S2x128x128) S1x128x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1x128.size a ≤ S2x1x128.size a
  hwx1_4 : ∀ i : grid1.Coords, EltTy.bits .f32 = 32 ∨ (Rect.block (s := S2x1x128) S1x1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x128.size a ≤ S200000x128.size a
  hwx1_5 : ∀ i : grid1.Coords, EltTy.bits .bf16 = 32 ∨ (Rect.block (s := S200000x128) S10000x128.size (cc1_transform_5 i) (hinb1_5 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x128.size a ≤ S100000x128.size a
  hwx2_1 : ∀ i : grid2.Coords, EltTy.bits .f32 = 32 ∨ (Rect.block (s := S100000x128) S10000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S10000x128.size a ≤ S100000x128.size a
  hwx2_7 : ∀ i : grid2.Coords, EltTy.bits .f32 = 32 ∨ (Rect.block (s := S100000x128) S10000x128.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S400000x128.size a
  hwx3_0 : ∀ i : grid3.Coords, EltTy.bits .f32 = 32 ∨ (Rect.block (s := S400000x128) S10000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x128.size a ≤ S400000x128.size a
  hwx3_1 : ∀ i : grid3.Coords, EltTy.bits .f32 = 32 ∨ (Rect.block (s := S400000x128) S10000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x128.size a ≤ S128x128.size a
  hwx3_5 : ∀ i : grid3.Coords, EltTy.bits .f32 = 32 ∨ (Rect.block (s := S128x128) S128x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x128.size a ≤ S1x128.size a
  hwx3_6 : ∀ i : grid3.Coords, EltTy.bits .f32 = 32 ∨ (Rect.block (s := S1x128) S1x128.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S10000x128.size a ≤ S400000x128.size a
  hwx3_7 : ∀ i : grid3.Coords, EltTy.bits .f32 = 32 ∨ (Rect.block (s := S400000x128) S10000x128.size (cc3_transform_7 i) (hinb3_7 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S800000x128_S1600000x1_S1600000x128_1_0_n_n_0_1_1128 : GatherDims S800000x128 S1600000x1 S1600000x128 where
  offsetDims := [1]
  collapsedSliceDims := [0]
  operandBatchingDims := []
  startIndicesBatchingDims := []
  startIndexMap := [0]
  indexVectorDim := 1
  sliceSizes := ![1, 128]
  wf := gather_S800000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def gather_S200000x128_S1600000x1_S1600000x128_1_0_n_n_0_1_1128 : GatherDims S200000x128 S1600000x1 S1600000x128 where
  offsetDims := [1]
  collapsedSliceDims := [0]
  operandBatchingDims := []
  startIndicesBatchingDims := []
  startIndexMap := [0]
  indexVectorDim := 1
  sliceSizes := ![1, 128]
  wf := gather_S200000x128_S1600000x1_S1600000x128_1_0_n_n_0_1_1128_wf
def scatter_S400000x128_S1600000x1_S1600000x128_1_0_0_1 : ScatterDims S400000x128 S1600000x1 S1600000x128 where
  updateWindowDims := [1]
  insertedWindowDims := [0]
  scatterDimsToOperandDims := [0]
  indexVectorDim := 1
  wf := scatter_S400000x128_S1600000x1_S1600000x128_1_0_0_1_wf

abbrev win0_0 : Pipeline.Window sig grid0 :=
  Pipeline.Window.ofSpec (Memref.whole main_arg1) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x1x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x128x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x1x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v6) S10000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg0) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S1x128x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S1x1x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v9) S1x128x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v12) S1x1x128.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v13) S10000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_arg0) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v24) S10000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v44) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v45) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v46) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v41) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v47) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v48) S10000x128.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_arg1) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v35) S10000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v57) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v58) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v59) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v54) S128x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v60) S1x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v61) S10000x128.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

class Facts : Prop extends Facts₀ where

variable [Facts]
-- ==== ReferenceIdeal.lean ====
abbrev S100000x128 : Shape := ⟨2, ![100000, 128]⟩
abbrev S400000x128 : Shape := ⟨2, ![400000, 128]⟩
abbrev S1600000 : Shape := ⟨1, ![1600000]⟩
abbrev S4x128x128 : Shape := ⟨3, ![4, 128, 128]⟩
abbrev S4x128 : Shape := ⟨2, ![4, 128]⟩
abbrev S2x256x128 : Shape := ⟨3, ![2, 256, 128]⟩
abbrev S2x128 : Shape := ⟨2, ![2, 128]⟩
abbrev S2x128x128 : Shape := ⟨3, ![2, 128, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S_ : Shape := ⟨0, ![]⟩
abbrev S800000x128 : Shape := ⟨2, ![800000, 128]⟩
abbrev S1600000x1 : Shape := ⟨2, ![1600000, 1]⟩
abbrev S1600000x128 : Shape := ⟨2, ![1600000, 128]⟩
abbrev S200000x128 : Shape := ⟨2, ![200000, 128]⟩
abbrev S100000x256 : Shape := ⟨2, ![100000, 256]⟩
abbrev S1x256x128 : Shape := ⟨3, ![1, 256, 128]⟩
abbrev S256x128 : Shape := ⟨2, ![256, 128]⟩
abbrev S400000x256 : Shape := ⟨2, ![400000, 256]⟩

abbrev nBuf : Space → Nat
  | .hbm => 176
  | .vmem => 0
  | .smem => 0
  | _ => 0

abbrev hbmTy0_0 (i : Nat) : BufTy := match i % 128 with
  | 0 => ⟨S100000x128, .f32⟩
  | 1 => ⟨S400000x128, .f32⟩
  | 2 => ⟨S1600000, .i32⟩
  | 3 => ⟨S1600000, .i32⟩
  | 4 => ⟨S1600000, .i32⟩
  | 5 => ⟨S1600000, .i32⟩
  | 6 => ⟨S4x128x128, .f32⟩
  | 7 => ⟨S4x128, .f32⟩
  | 8 => ⟨S4x128x128, .f32⟩
  | 9 => ⟨S4x128, .f32⟩
  | 10 => ⟨S2x256x128, .f32⟩
  | 11 => ⟨S2x128, .f32⟩
  | 12 => ⟨S2x128x128, .f32⟩
  | 13 => ⟨S2x128, .f32⟩
  | 14 => ⟨S1x128x128, .f32⟩
  | 15 => ⟨S128x128, .f32⟩
  | 16 => ⟨S1x128, .f32⟩
  | 17 => ⟨S128, .f32⟩
  | 18 => ⟨S1x128x128, .f32⟩
  | 19 => ⟨S128x128, .f32⟩
  | 20 => ⟨S1x128, .f32⟩
  | 21 => ⟨S128, .f32⟩
  | 22 => ⟨S400000x128, .f32⟩
  | 23 => ⟨S1x128, .f32⟩
  | 24 => ⟨S400000x128, .f32⟩
  | 25 => ⟨S400000x128, .f32⟩
  | 26 => ⟨S_, .f32⟩
  | 27 => ⟨S400000x128, .f32⟩
  | 28 => ⟨S400000x128, .f32⟩
  | 29 => ⟨S400000x128, .f32⟩
  | 30 => ⟨S1x128, .f32⟩
  | 31 => ⟨S400000x128, .f32⟩
  | 32 => ⟨S400000x128, .f32⟩
  | 33 => ⟨S_, .f32⟩
  | 34 => ⟨S400000x128, .f32⟩
  | 35 => ⟨S400000x128, .f32⟩
  | 36 => ⟨S1x128x128, .f32⟩
  | 37 => ⟨S128x128, .f32⟩
  | 38 => ⟨S1x128, .f32⟩
  | 39 => ⟨S128, .f32⟩
  | 40 => ⟨S1x128x128, .f32⟩
  | 41 => ⟨S128x128, .f32⟩
  | 42 => ⟨S1x128, .f32⟩
  | 43 => ⟨S128, .f32⟩
  | 44 => ⟨S400000x128, .f32⟩
  | 45 => ⟨S1x128, .f32⟩
  | 46 => ⟨S400000x128, .f32⟩
  | 47 => ⟨S400000x128, .f32⟩
  | 48 => ⟨S_, .f32⟩
  | 49 => ⟨S400000x128, .f32⟩
  | 50 => ⟨S400000x128, .f32⟩
  | 51 => ⟨S400000x128, .f32⟩
  | 52 => ⟨S1x128, .f32⟩
  | 53 => ⟨S400000x128, .f32⟩
  | 54 => ⟨S400000x128, .f32⟩
  | 55 => ⟨S_, .f32⟩
  | 56 => ⟨S400000x128, .f32⟩
  | 57 => ⟨S400000x128, .f32⟩
  | 58 => ⟨S800000x128, .f32⟩
  | 59 => ⟨S_, .i32⟩
  | 60 => ⟨S1600000, .i32⟩
  | 61 => ⟨S1600000, .i1⟩
  | 62 => ⟨S_, .i32⟩
  | 63 => ⟨S1600000, .i32⟩
  | 64 => ⟨S1600000, .i32⟩
  | 65 => ⟨S1600000, .i32⟩
  | 66 => ⟨S1600000x1, .i32⟩
  | 67 => ⟨S1600000x128, .f32⟩
  | 68 => ⟨S_, .f32⟩
  | 69 => ⟨S100000x128, .f32⟩
  | 70 => ⟨S1600000x1, .i32⟩
  | 71 => ⟨S100000x128, .f32⟩
  | 72 => ⟨S1x128x128, .f32⟩
  | 73 => ⟨S128x128, .f32⟩
  | 74 => ⟨S1x128, .f32⟩
  | 75 => ⟨S128, .f32⟩
  | 76 => ⟨S1x128x128, .f32⟩
  | 77 => ⟨S128x128, .f32⟩
  | 78 => ⟨S1x128, .f32⟩
  | 79 => ⟨S128, .f32⟩
  | 80 => ⟨S100000x128, .f32⟩
  | 81 => ⟨S1x128, .f32⟩
  | 82 => ⟨S100000x128, .f32⟩
  | 83 => ⟨S100000x128, .f32⟩
  | 84 => ⟨S_, .f32⟩
  | 85 => ⟨S100000x128, .f32⟩
  | 86 => ⟨S100000x128, .f32⟩
  | 87 => ⟨S100000x128, .f32⟩
  | 88 => ⟨S1x128, .f32⟩
  | 89 => ⟨S100000x128, .f32⟩
  | 90 => ⟨S100000x128, .f32⟩
  | 91 => ⟨S_, .f32⟩
  | 92 => ⟨S100000x128, .f32⟩
  | 93 => ⟨S100000x128, .f32⟩
  | 94 => ⟨S1x128x128, .f32⟩
  | 95 => ⟨S128x128, .f32⟩
  | 96 => ⟨S1x128, .f32⟩
  | 97 => ⟨S128, .f32⟩
  | 98 => ⟨S1x128x128, .f32⟩
  | 99 => ⟨S128x128, .f32⟩
  | 100 => ⟨S1x128, .f32⟩
  | 101 => ⟨S128, .f32⟩
  | 102 => ⟨S100000x128, .f32⟩
  | 103 => ⟨S1x128, .f32⟩
  | 104 => ⟨S100000x128, .f32⟩
  | 105 => ⟨S100000x128, .f32⟩
  | 106 => ⟨S_, .f32⟩
  | 107 => ⟨S100000x128, .f32⟩
  | 108 => ⟨S100000x128, .f32⟩
  | 109 => ⟨S100000x128, .f32⟩
  | 110 => ⟨S1x128, .f32⟩
  | 111 => ⟨S100000x128, .f32⟩
  | 112 => ⟨S100000x128, .f32⟩
  | 113 => ⟨S_, .f32⟩
  | 114 => ⟨S100000x128, .f32⟩
  | 115 => ⟨S100000x128, .f32⟩
  | 116 => ⟨S200000x128, .f32⟩
  | 117 => ⟨S_, .i32⟩
  | 118 => ⟨S1600000, .i32⟩
  | 119 => ⟨S1600000, .i1⟩
  | 120 => ⟨S_, .i32⟩
  | 121 => ⟨S1600000, .i32⟩
  | 122 => ⟨S1600000, .i32⟩
  | 123 => ⟨S1600000, .i32⟩
  | 124 => ⟨S1600000x1, .i32⟩
  | 125 => ⟨S1600000x128, .f32⟩
  | 126 => ⟨S_, .f32⟩
  | 127 => ⟨S400000x128, .f32⟩
  | _ => ⟨S100000x128, .f32⟩

abbrev hbmTy0_1 (i : Nat) : BufTy := match i % 128 with
  | 0 => ⟨S1600000x1, .i32⟩
  | 1 => ⟨S400000x128, .f32⟩
  | 2 => ⟨S100000x256, .f32⟩
  | 3 => ⟨S1x256x128, .f32⟩
  | 4 => ⟨S256x128, .f32⟩
  | 5 => ⟨S1x128, .f32⟩
  | 6 => ⟨S128, .f32⟩
  | 7 => ⟨S1x128x128, .f32⟩
  | 8 => ⟨S128x128, .f32⟩
  | 9 => ⟨S1x128, .f32⟩
  | 10 => ⟨S128, .f32⟩
  | 11 => ⟨S100000x128, .f32⟩
  | 12 => ⟨S1x128, .f32⟩
  | 13 => ⟨S100000x128, .f32⟩
  | 14 => ⟨S100000x128, .f32⟩
  | 15 => ⟨S_, .f32⟩
  | 16 => ⟨S100000x128, .f32⟩
  | 17 => ⟨S100000x128, .f32⟩
  | 18 => ⟨S100000x128, .f32⟩
  | 19 => ⟨S1x128, .f32⟩
  | 20 => ⟨S100000x128, .f32⟩
  | 21 => ⟨S100000x128, .f32⟩
  | 22 => ⟨S_, .f32⟩
  | 23 => ⟨S100000x128, .f32⟩
  | 24 => ⟨S100000x128, .f32⟩
  | 25 => ⟨S400000x256, .f32⟩
  | 26 => ⟨S1x256x128, .f32⟩
  | 27 => ⟨S256x128, .f32⟩
  | 28 => ⟨S1x128, .f32⟩
  | 29 => ⟨S128, .f32⟩
  | 30 => ⟨S1x128x128, .f32⟩
  | 31 => ⟨S128x128, .f32⟩
  | 32 => ⟨S1x128, .f32⟩
  | 33 => ⟨S128, .f32⟩
  | 34 => ⟨S400000x128, .f32⟩
  | 35 => ⟨S1x128, .f32⟩
  | 36 => ⟨S400000x128, .f32⟩
  | 37 => ⟨S400000x128, .f32⟩
  | 38 => ⟨S_, .f32⟩
  | 39 => ⟨S400000x128, .f32⟩
  | 40 => ⟨S400000x128, .f32⟩
  | 41 => ⟨S400000x128, .f32⟩
  | 42 => ⟨S1x128, .f32⟩
  | 43 => ⟨S400000x128, .f32⟩
  | 44 => ⟨S400000x128, .f32⟩
  | 45 => ⟨S_, .f32⟩
  | 46 => ⟨S400000x128, .f32⟩
  | 47 => ⟨S400000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_call0_cst : Ref sig .tc := ⟨.hbm, 26, rfl⟩
abbrev main_call0_v0 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_call1_cst : Ref sig .tc := ⟨.hbm, 33, rfl⟩
abbrev main_call1_v0 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_call2_cst : Ref sig .tc := ⟨.hbm, 48, rfl⟩
abbrev main_call2_v0 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_call3_cst : Ref sig .tc := ⟨.hbm, 55, rfl⟩
abbrev main_call3_v0 : Ref sig .tc := ⟨.hbm, 56, rfl⟩
abbrev main_v35 : Ref sig .tc := ⟨.hbm, 57, rfl⟩
abbrev main_v36 : Ref sig .tc := ⟨.hbm, 58, rfl⟩
abbrev main_c : Ref sig .tc := ⟨.hbm, 59, rfl⟩
abbrev main_v37 : Ref sig .tc := ⟨.hbm, 60, rfl⟩
abbrev main_v38 : Ref sig .tc := ⟨.hbm, 61, rfl⟩
abbrev main_c_0 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_call4_cst : Ref sig .tc := ⟨.hbm, 84, rfl⟩
abbrev main_call4_v0 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_call5_cst : Ref sig .tc := ⟨.hbm, 91, rfl⟩
abbrev main_call5_v0 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_call6_cst : Ref sig .tc := ⟨.hbm, 106, rfl⟩
abbrev main_call6_v0 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_call7_cst : Ref sig .tc := ⟨.hbm, 113, rfl⟩
abbrev main_call7_v0 : Ref sig .tc := ⟨.hbm, 114, rfl⟩
abbrev main_v82 : Ref sig .tc := ⟨.hbm, 115, rfl⟩
abbrev main_v83 : Ref sig .tc := ⟨.hbm, 116, rfl⟩
abbrev main_c_1 : Ref sig .tc := ⟨.hbm, 117, rfl⟩
abbrev main_v84 : Ref sig .tc := ⟨.hbm, 118, rfl⟩
abbrev main_v85 : Ref sig .tc := ⟨.hbm, 119, rfl⟩
abbrev main_c_2 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_cst_3 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_call8_cst : Ref sig .tc := ⟨.hbm, 143, rfl⟩
abbrev main_call8_v0 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_call9_cst : Ref sig .tc := ⟨.hbm, 150, rfl⟩
abbrev main_call9_v0 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_call10_cst : Ref sig .tc := ⟨.hbm, 166, rfl⟩
abbrev main_call10_v0 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_call11_cst : Ref sig .tc := ⟨.hbm, 173, rfl⟩
abbrev main_call11_v0 : Ref sig .tc := ⟨.hbm, 174, rfl⟩
abbrev main_v131 : Ref sig .tc := ⟨.hbm, 175, rfl⟩

abbrev nD : Nat := 1
abbrev τ : Topo := Topo.v7x

variable {F : FTy → Type} [FloatOps F]

class Facts₀ : Prop where
  slices_S4x128x128_S1x128x128_0_0_0 : S4x128x128.Slices ![0, 0, 0] S1x128x128
  shapeCasts_S1x128x128_S128x128 : S1x128x128.ShapeCasts S128x128
  slices_S4x128_S1x128_0_0 : S4x128.Slices ![0, 0] S1x128
  shapeCasts_S1x128_S128 : S1x128.ShapeCasts S128
  bcast_S128_S1x128_1 : S128.BroadcastsInDim S1x128 (![1] : Fin 1 → Fin S1x128.rank)
  bcast_S1x128_S400000x128_0_1 : S1x128.BroadcastsInDim S400000x128 (![0, 1] : Fin 2 → Fin S400000x128.rank)
  bcast_S_S400000x128 : S_.BroadcastsInDim S400000x128 (![] : Fin 0 → Fin S400000x128.rank)
  slices_S4x128x128_S1x128x128_1_0_0 : S4x128x128.Slices ![1, 0, 0] S1x128x128
  slices_S4x128_S1x128_1_0 : S4x128.Slices ![1, 0] S1x128
  concatenates_S400000x128_S400000x128_S800000x128_d0 : Shape.Concatenates [S400000x128, S400000x128] S800000x128 0
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  slices_S4x128x128_S1x128x128_2_0_0 : S4x128x128.Slices ![2, 0, 0] S1x128x128
  slices_S4x128_S1x128_2_0 : S4x128.Slices ![2, 0] S1x128
  bcast_S1x128_S100000x128_0_1 : S1x128.BroadcastsInDim S100000x128 (![0, 1] : Fin 2 → Fin S100000x128.rank)
  slices_S4x128x128_S1x128x128_3_0_0 : S4x128x128.Slices ![3, 0, 0] S1x128x128
  slices_S4x128_S1x128_3_0 : S4x128.Slices ![3, 0] S1x128
  concatenates_S100000x128_S100000x128_S200000x128_d0 : Shape.Concatenates [S100000x128, S100000x128] S200000x128 0
  concatenates_S100000x128_S100000x128_S100000x256_d1 : Shape.Concatenates [S100000x128, S100000x128] S100000x256 1
  slices_S2x256x128_S1x256x128_0_0_0 : S2x256x128.Slices ![0, 0, 0] S1x256x128
  shapeCasts_S1x256x128_S256x128 : S1x256x128.ShapeCasts S256x128
  slices_S2x128_S1x128_0_0 : S2x128.Slices ![0, 0] S1x128
  slices_S2x128x128_S1x128x128_0_0_0 : S2x128x128.Slices ![0, 0, 0] S1x128x128
  concatenates_S400000x128_S400000x128_S400000x256_d1 : Shape.Concatenates [S400000x128, S400000x128] S400000x256 1
  slices_S2x256x128_S1x256x128_1_0_0 : S2x256x128.Slices ![1, 0, 0] S1x256x128
  slices_S2x128_S1x128_1_0 : S2x128.Slices ![1, 0] S1x128
  slices_S2x128x128_S1x128x128_1_0_0 : S2x128x128.Slices ![1, 0, 0] S1x128x128
  dot_S400000x128_S128x128_S400000x128_1_0_0_1_n_n_wf : DotDims.WF S400000x128 S128x128 S400000x128 [1] [0] [0] [1] [] []
  gather_S800000x128_S1600000x1_S1600000x128_1_0_n_n_0_1_1128_wf : GatherDims.WF S800000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  gather_S200000x128_S1600000x1_S1600000x128_1_0_n_n_0_1_1128_wf : GatherDims.WF S200000x128 S1600000x1 S1600000x128 [1] [0] [] [0] [] 1 ![1, 128]
  scatter_S400000x128_S1600000x1_S1600000x128_1_0_0_1_wf : ScatterDims.WF S400000x128 S1600000x1 S1600000x128 [1] [0] [0] 1
  dot_S100000x256_S256x128_S100000x128_1_0_0_1_n_n_wf : DotDims.WF S100000x256 S256x128 S100000x128 [1] [0] [0] [1] [] []
  dot_S400000x256_S256x128_S400000x128_1_0_0_1_n_n_wf : DotDims.WF S400000x256 S256x128 S400000x128 [1] [0] [0] [1] [] []

variable [Facts₀]

def dot_S400000x128_S128x128_S400000x128_1_0_0_1_n_n : DotDims S400000x128 S128x128 S400000x128 where
  lhsContracting := [1]
  rhsContracting := [0]
  lhsNonContracting := [0]
  rhsNonContracting := [1]
  lhsBatch := []
  rhsBatch := []
  wf := dot_S400000x128_S128x128_S400000x128_1_0_0_1_n_n_wf
def gather_S800000x128_S1600000x1_S1600000x128_1_0_n_n_0_1_1128 : GatherDims S800000x128 S1600000x1 S1600000x128 where
  offsetDims := [1]
  collapsedSliceDims := [0]
  operandBatchingDims := []
  startIndicesBatchingDims := []
  startIndexMap := [0]
  indexVectorDim := 1
  sliceSizes := ![1, 128]
  wf := gather_S800000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S200000x128_S1600000x1_S1600000x128_1_0_n_n_0_1_1128 : GatherDims S200000x128 S1600000x1 S1600000x128 where
  offsetDims := [1]
  collapsedSliceDims := [0]
  operandBatchingDims := []
  startIndicesBatchingDims := []
  startIndexMap := [0]
  indexVectorDim := 1
  sliceSizes := ![1, 128]
  wf := gather_S200000x128_S1600000x1_S1600000x128_1_0_n_n_0_1_1128_wf
def scatter_S400000x128_S1600000x1_S1600000x128_1_0_0_1 : ScatterDims S400000x128 S1600000x1 S1600000x128 where
  updateWindowDims := [1]
  insertedWindowDims := [0]
  scatterDimsToOperandDims := [0]
  indexVectorDim := 1
  wf := scatter_S400000x128_S1600000x1_S1600000x128_1_0_0_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def dot_S400000x256_S256x128_S400000x128_1_0_0_1_n_n : DotDims S400000x256 S256x128 S400000x128 where
  lhsContracting := [1]
  rhsContracting := [0]
  lhsNonContracting := [0]
  rhsNonContracting := [1]
  lhsBatch := []
  rhsBatch := []
  wf := dot_S400000x256_S256x128_S400000x128_1_0_0_1_n_n_wf

class Facts : Prop extends Facts₀ where

variable [Facts]
-- ==== Proof.KerChain.lean ====
/-
  The tiled program's buffers at each boundary between its stretches of host lines and its launches.

  A stretch of host lines changes only the buffers it writes; a launch changes only its output array (each
  array it only reads ends as it was entered).  So every argument array holds its launch contents at every
  boundary, the first stacked message table is still in place when the aggregation reads it, and each result
  array is still in place at the end.
-/
import proofs.«148133_j15590731285087_2_alg».proof.Proof.FrameKI
import Idealize.ShloMosaic.Lib.StableHlo.Run

set_option maxRecDepth 16384

noncomputable section

namespace Cert.KerChain

open Idealize.ShloMosaic Idealize.ShloMosaic.TcCoe Idealize.SL.Sem Idealize.ShloMosaic.StableHlo Cert.KernelIdeal Cert.KernelIdeal.Gen

variable {F : FTy → Type} [FloatOps F]

/-! ## A stretch keeps what it does not write -/

/-- The buffers stretch 0 writes. -/
abbrev hw0 : List (Ref sig .tc) := [main_v0, main_v1, main_v2, main_v3, main_v4, main_v5]

/-- A buffer stretch 0 does not write keeps its contents. -/
theorem keepH0 (W : Valuation τ sig (Elt F)) (b : Ref sig .tc) (hb : ∀ y ∈ hw0, b ≠ y) :
    StableHlo.after (hostOps0 (F := F)) W (Proc.devRef .tc b) = W (Proc.devRef .tc b) :=
  StableHlo.after_of_forall_not_mem (b := Proc.devRef .tc b) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (hb _ (by decide))))

/-- The buffers stretch 1 writes. -/
abbrev hw1 : List (Ref sig .tc) := [main_v7, main_v8, main_v9, main_v10, main_v11, main_v12]

/-- A buffer stretch 1 does not write keeps its contents. -/
theorem keepH1 (W : Valuation τ sig (Elt F)) (b : Ref sig .tc) (hb : ∀ y ∈ hw1, b ≠ y) :
    StableHlo.after (hostOps1 (F := F)) W (Proc.devRef .tc b) = W (Proc.devRef .tc b) :=
  StableHlo.after_of_forall_not_mem (b := Proc.devRef .tc b) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (hb _ (by decide))))

/-- The buffers stretch 2 writes. -/
abbrev hw2 : List (Ref sig .tc) := [main_c, main_v14, main_v15, main_c_0, main_v16, main_v17, main_v18, main_v19, main_v20, main_v21, main_cst, main_v22, main_v23, main_v24, main_c_1, main_v25, main_v26, main_c_2, main_v27, main_v28, main_v29, main_v30, main_v31, main_v32, main_cst_3, main_v33, main_v34, main_v35, main_v36, main_v37, main_v38, main_v39, main_v40, main_v41, main_v42, main_v43, main_v44, main_v45, main_v46, main_v47]

/-- A buffer stretch 2 does not write keeps its contents. -/
theorem keepH2 (W : Valuation τ sig (Elt F)) (b : Ref sig .tc) (hb : ∀ y ∈ hw2, b ≠ y) :
    StableHlo.after (hostOps2 (F := F)) W (Proc.devRef .tc b) = W (Proc.devRef .tc b) :=
  StableHlo.after_of_forall_not_mem (b := Proc.devRef .tc b) _ _ (List.forall_iff_forall_mem.mp (by
    simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (hb _ (by decide))))

/-- The buffers stretch 3 writes. -/
abbrev hw3 : List (Ref sig .tc) := [main_v49, main_v50, main_v51, main_v52, main_v53, main_v54, main_v55, main_v56, main_v57, main_v58, main_v59, main_v60]

/-- A buffer stretch 3 does not write keeps its contents. -/
theorem keepH3 (W : Valuation τ sig (Elt F)) (b : Ref sig .tc) (hb : ∀ y ∈ hw3, b ≠ y) :
    StableHlo.after (hostOps3 (F := F)) W (Proc.devRef .tc b) = W (Proc.devRef .tc b) :=
  StableHlo.after_of_forall_not_mem (b := Proc.devRef .tc b) _ _ (List.forall_iff_forall_mem.mp (by
    simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (hb _ (by decide))))

variable (m : (ℓ : Loc nD τ sig) → Buf (Elt F) ℓ) (ρ : Dev nD → PrngReg) (c : Dev nD)

/-! ## The argument arrays at every boundary -/

theorem W1_arg0 : W1 m ρ c (Proc.devRef .tc main_arg0) = m ((c : Thread nD τ).loc main_arg0) :=
  (keepH0 _ main_arg0 (by decide)).trans rfl
theorem W2_arg0 : W2 m ρ c (Proc.devRef .tc main_arg0) = m ((c : Thread nD τ).loc main_arg0) :=
  (W2_of_ne m ρ c main_arg0 (by decide)).trans (W1_arg0 m ρ c)
theorem W3_arg0 : W3 m ρ c (Proc.devRef .tc main_arg0) = m ((c : Thread nD τ).loc main_arg0) :=
  (keepH1 _ main_arg0 (by decide)).trans (W2_arg0 m ρ c)
theorem W4_arg0 : W4 m ρ c (Proc.devRef .tc main_arg0) = m ((c : Thread nD τ).loc main_arg0) :=
  ((W4_arr m ρ c 0).trans (((dat1 (V3 m ρ) c).arrAt_in 0 rfl _).trans (A_eq1 (V3 m ρ) c 0))).trans (W3_arg0 m ρ c)
theorem W5_arg0 : W5 m ρ c (Proc.devRef .tc main_arg0) = m ((c : Thread nD τ).loc main_arg0) :=
  (keepH2 _ main_arg0 (by decide)).trans (W4_arg0 m ρ c)

theorem W1_arg1 : W1 m ρ c (Proc.devRef .tc main_arg1) = m ((c : Thread nD τ).loc main_arg1) :=
  (keepH0 _ main_arg1 (by decide)).trans rfl
theorem W2_arg1 : W2 m ρ c (Proc.devRef .tc main_arg1) = m ((c : Thread nD τ).loc main_arg1) :=
  ((W2_arr m ρ c 0).trans (((dat0 (V1 m ρ) c).arrAt_in 0 rfl _).trans (A_eq0 (V1 m ρ) c 0))).trans (W1_arg1 m ρ c)
theorem W3_arg1 : W3 m ρ c (Proc.devRef .tc main_arg1) = m ((c : Thread nD τ).loc main_arg1) :=
  (keepH1 _ main_arg1 (by decide)).trans (W2_arg1 m ρ c)
theorem W4_arg1 : W4 m ρ c (Proc.devRef .tc main_arg1) = m ((c : Thread nD τ).loc main_arg1) :=
  (W4_of_ne m ρ c main_arg1 (by decide)).trans (W3_arg1 m ρ c)
theorem W5_arg1 : W5 m ρ c (Proc.devRef .tc main_arg1) = m ((c : Thread nD τ).loc main_arg1) :=
  (keepH2 _ main_arg1 (by decide)).trans (W4_arg1 m ρ c)
theorem W6_arg1 : W6 m ρ c (Proc.devRef .tc main_arg1) = m ((c : Thread nD τ).loc main_arg1) :=
  (W6_of_ne m ρ c main_arg1 (by decide)).trans (W5_arg1 m ρ c)
theorem W7_arg1 : W7 m ρ c (Proc.devRef .tc main_arg1) = m ((c : Thread nD τ).loc main_arg1) :=
  (keepH3 _ main_arg1 (by decide)).trans (W6_arg1 m ρ c)

theorem W1_arg2 : W1 m ρ c (Proc.devRef .tc main_arg2) = m ((c : Thread nD τ).loc main_arg2) :=
  (keepH0 _ main_arg2 (by decide)).trans rfl
theorem W2_arg2 : W2 m ρ c (Proc.devRef .tc main_arg2) = m ((c : Thread nD τ).loc main_arg2) :=
  (W2_of_ne m ρ c main_arg2 (by decide)).trans (W1_arg2 m ρ c)
theorem W3_arg2 : W3 m ρ c (Proc.devRef .tc main_arg2) = m ((c : Thread nD τ).loc main_arg2) :=
  (keepH1 _ main_arg2 (by decide)).trans (W2_arg2 m ρ c)
theorem W4_arg2 : W4 m ρ c (Proc.devRef .tc main_arg2) = m ((c : Thread nD τ).loc main_arg2) :=
  (W4_of_ne m ρ c main_arg2 (by decide)).trans (W3_arg2 m ρ c)

theorem W1_arg3 : W1 m ρ c (Proc.devRef .tc main_arg3) = m ((c : Thread nD τ).loc main_arg3) :=
  (keepH0 _ main_arg3 (by decide)).trans rfl
theorem W2_arg3 : W2 m ρ c (Proc.devRef .tc main_arg3) = m ((c : Thread nD τ).loc main_arg3) :=
  (W2_of_ne m ρ c main_arg3 (by decide)).trans (W1_arg3 m ρ c)
theorem W3_arg3 : W3 m ρ c (Proc.devRef .tc main_arg3) = m ((c : Thread nD τ).loc main_arg3) :=
  (keepH1 _ main_arg3 (by decide)).trans (W2_arg3 m ρ c)
theorem W4_arg3 : W4 m ρ c (Proc.devRef .tc main_arg3) = m ((c : Thread nD τ).loc main_arg3) :=
  (W4_of_ne m ρ c main_arg3 (by decide)).trans (W3_arg3 m ρ c)

theorem W1_arg4 : W1 m ρ c (Proc.devRef .tc main_arg4) = m ((c : Thread nD τ).loc main_arg4) :=
  (keepH0 _ main_arg4 (by decide)).trans rfl
theorem W2_arg4 : W2 m ρ c (Proc.devRef .tc main_arg4) = m ((c : Thread nD τ).loc main_arg4) :=
  (W2_of_ne m ρ c main_arg4 (by decide)).trans (W1_arg4 m ρ c)
theorem W3_arg4 : W3 m ρ c (Proc.devRef .tc main_arg4) = m ((c : Thread nD τ).loc main_arg4) :=
  (keepH1 _ main_arg4 (by decide)).trans (W2_arg4 m ρ c)
theorem W4_arg4 : W4 m ρ c (Proc.devRef .tc main_arg4) = m ((c : Thread nD τ).loc main_arg4) :=
  (W4_of_ne m ρ c main_arg4 (by decide)).trans (W3_arg4 m ρ c)

theorem W1_arg5 : W1 m ρ c (Proc.devRef .tc main_arg5) = m ((c : Thread nD τ).loc main_arg5) :=
  (keepH0 _ main_arg5 (by decide)).trans rfl
theorem W2_arg5 : W2 m ρ c (Proc.devRef .tc main_arg5) = m ((c : Thread nD τ).loc main_arg5) :=
  (W2_of_ne m ρ c main_arg5 (by decide)).trans (W1_arg5 m ρ c)
theorem W3_arg5 : W3 m ρ c (Proc.devRef .tc main_arg5) = m ((c : Thread nD τ).loc main_arg5) :=
  (keepH1 _ main_arg5 (by decide)).trans (W2_arg5 m ρ c)
theorem W4_arg5 : W4 m ρ c (Proc.devRef .tc main_arg5) = m ((c : Thread nD τ).loc main_arg5) :=
  (W4_of_ne m ρ c main_arg5 (by decide)).trans (W3_arg5 m ρ c)

theorem W1_arg6 : W1 m ρ c (Proc.devRef .tc main_arg6) = m ((c : Thread nD τ).loc main_arg6) :=
  (keepH0 _ main_arg6 (by decide)).trans rfl
theorem W2_arg6 : W2 m ρ c (Proc.devRef .tc main_arg6) = m ((c : Thread nD τ).loc main_arg6) :=
  (W2_of_ne m ρ c main_arg6 (by decide)).trans (W1_arg6 m ρ c)

theorem W1_arg7 : W1 m ρ c (Proc.devRef .tc main_arg7) = m ((c : Thread nD τ).loc main_arg7) :=
  (keepH0 _ main_arg7 (by decide)).trans rfl
theorem W2_arg7 : W2 m ρ c (Proc.devRef .tc main_arg7) = m ((c : Thread nD τ).loc main_arg7) :=
  (W2_of_ne m ρ c main_arg7 (by decide)).trans (W1_arg7 m ρ c)

theorem W1_arg8 : W1 m ρ c (Proc.devRef .tc main_arg8) = m ((c : Thread nD τ).loc main_arg8) :=
  (keepH0 _ main_arg8 (by decide)).trans rfl
theorem W2_arg8 : W2 m ρ c (Proc.devRef .tc main_arg8) = m ((c : Thread nD τ).loc main_arg8) :=
  (W2_of_ne m ρ c main_arg8 (by decide)).trans (W1_arg8 m ρ c)

theorem W1_arg9 : W1 m ρ c (Proc.devRef .tc main_arg9) = m ((c : Thread nD τ).loc main_arg9) :=
  (keepH0 _ main_arg9 (by decide)).trans rfl
theorem W2_arg9 : W2 m ρ c (Proc.devRef .tc main_arg9) = m ((c : Thread nD τ).loc main_arg9) :=
  (W2_of_ne m ρ c main_arg9 (by decide)).trans (W1_arg9 m ρ c)

theorem W1_arg10 : W1 m ρ c (Proc.devRef .tc main_arg10) = m ((c : Thread nD τ).loc main_arg10) :=
  (keepH0 _ main_arg10 (by decide)).trans rfl
theorem W2_arg10 : W2 m ρ c (Proc.devRef .tc main_arg10) = m ((c : Thread nD τ).loc main_arg10) :=
  (W2_of_ne m ρ c main_arg10 (by decide)).trans (W1_arg10 m ρ c)
theorem W3_arg10 : W3 m ρ c (Proc.devRef .tc main_arg10) = m ((c : Thread nD τ).loc main_arg10) :=
  (keepH1 _ main_arg10 (by decide)).trans (W2_arg10 m ρ c)
theorem W4_arg10 : W4 m ρ c (Proc.devRef .tc main_arg10) = m ((c : Thread nD τ).loc main_arg10) :=
  (W4_of_ne m ρ c main_arg10 (by decide)).trans (W3_arg10 m ρ c)
theorem W5_arg10 : W5 m ρ c (Proc.devRef .tc main_arg10) = m ((c : Thread nD τ).loc main_arg10) :=
  (keepH2 _ main_arg10 (by decide)).trans (W4_arg10 m ρ c)
theorem W6_arg10 : W6 m ρ c (Proc.devRef .tc main_arg10) = m ((c : Thread nD τ).loc main_arg10) :=
  (W6_of_ne m ρ c main_arg10 (by decide)).trans (W5_arg10 m ρ c)

theorem W1_arg11 : W1 m ρ c (Proc.devRef .tc main_arg11) = m ((c : Thread nD τ).loc main_arg11) :=
  (keepH0 _ main_arg11 (by decide)).trans rfl
theorem W2_arg11 : W2 m ρ c (Proc.devRef .tc main_arg11) = m ((c : Thread nD τ).loc main_arg11) :=
  (W2_of_ne m ρ c main_arg11 (by decide)).trans (W1_arg11 m ρ c)
theorem W3_arg11 : W3 m ρ c (Proc.devRef .tc main_arg11) = m ((c : Thread nD τ).loc main_arg11) :=
  (keepH1 _ main_arg11 (by decide)).trans (W2_arg11 m ρ c)
theorem W4_arg11 : W4 m ρ c (Proc.devRef .tc main_arg11) = m ((c : Thread nD τ).loc main_arg11) :=
  (W4_of_ne m ρ c main_arg11 (by decide)).trans (W3_arg11 m ρ c)
theorem W5_arg11 : W5 m ρ c (Proc.devRef .tc main_arg11) = m ((c : Thread nD τ).loc main_arg11) :=
  (keepH2 _ main_arg11 (by decide)).trans (W4_arg11 m ρ c)
theorem W6_arg11 : W6 m ρ c (Proc.devRef .tc main_arg11) = m ((c : Thread nD τ).loc main_arg11) :=
  (W6_of_ne m ρ c main_arg11 (by decide)).trans (W5_arg11 m ρ c)

theorem W1_arg12 : W1 m ρ c (Proc.devRef .tc main_arg12) = m ((c : Thread nD τ).loc main_arg12) :=
  (keepH0 _ main_arg12 (by decide)).trans rfl
theorem W2_arg12 : W2 m ρ c (Proc.devRef .tc main_arg12) = m ((c : Thread nD τ).loc main_arg12) :=
  (W2_of_ne m ρ c main_arg12 (by decide)).trans (W1_arg12 m ρ c)
theorem W3_arg12 : W3 m ρ c (Proc.devRef .tc main_arg12) = m ((c : Thread nD τ).loc main_arg12) :=
  (keepH1 _ main_arg12 (by decide)).trans (W2_arg12 m ρ c)
theorem W4_arg12 : W4 m ρ c (Proc.devRef .tc main_arg12) = m ((c : Thread nD τ).loc main_arg12) :=
  (W4_of_ne m ρ c main_arg12 (by decide)).trans (W3_arg12 m ρ c)
theorem W5_arg12 : W5 m ρ c (Proc.devRef .tc main_arg12) = m ((c : Thread nD τ).loc main_arg12) :=
  (keepH2 _ main_arg12 (by decide)).trans (W4_arg12 m ρ c)
theorem W6_arg12 : W6 m ρ c (Proc.devRef .tc main_arg12) = m ((c : Thread nD τ).loc main_arg12) :=
  (W6_of_ne m ρ c main_arg12 (by decide)).trans (W5_arg12 m ρ c)

theorem W1_arg13 : W1 m ρ c (Proc.devRef .tc main_arg13) = m ((c : Thread nD τ).loc main_arg13) :=
  (keepH0 _ main_arg13 (by decide)).trans rfl
theorem W2_arg13 : W2 m ρ c (Proc.devRef .tc main_arg13) = m ((c : Thread nD τ).loc main_arg13) :=
  (W2_of_ne m ρ c main_arg13 (by decide)).trans (W1_arg13 m ρ c)
theorem W3_arg13 : W3 m ρ c (Proc.devRef .tc main_arg13) = m ((c : Thread nD τ).loc main_arg13) :=
  (keepH1 _ main_arg13 (by decide)).trans (W2_arg13 m ρ c)
theorem W4_arg13 : W4 m ρ c (Proc.devRef .tc main_arg13) = m ((c : Thread nD τ).loc main_arg13) :=
  (W4_of_ne m ρ c main_arg13 (by decide)).trans (W3_arg13 m ρ c)
theorem W5_arg13 : W5 m ρ c (Proc.devRef .tc main_arg13) = m ((c : Thread nD τ).loc main_arg13) :=
  (keepH2 _ main_arg13 (by decide)).trans (W4_arg13 m ρ c)
theorem W6_arg13 : W6 m ρ c (Proc.devRef .tc main_arg13) = m ((c : Thread nD τ).loc main_arg13) :=
  (W6_of_ne m ρ c main_arg13 (by decide)).trans (W5_arg13 m ρ c)

/-! ## The tables and the results in place -/

/-- The first stacked message table is what the first launch left, when the aggregation reads it. -/
theorem W4_v6 : W4 m ρ c (Proc.devRef .tc main_v6) = (dat0 (V1 m ρ) c).arrAt 5 cfg0.N :=
  (W4_of_ne m ρ c main_v6 (by decide)).trans ((keepH1 _ main_v6 (by decide)).trans (W2_arr m ρ c 5))

/-- The second stacked message table is what the second launch left. -/
theorem W4_v13 : W4 m ρ c (Proc.devRef .tc main_v13) = (dat1 (V3 m ρ) c).arrAt 5 cfg1.N :=
  W4_arr m ρ c 5

/-- The second aggregated table is still what the third stretch computed, when the fourth launch reads it. -/
theorem W7_v35 : W7 m ρ c (Proc.devRef .tc main_v35) = W5 m ρ c (Proc.devRef .tc main_v35) :=
  (keepH3 _ main_v35 (by decide)).trans (W6_of_ne m ρ c main_v35 (by decide))

/-- The first result array ends as the third launch left it. -/
theorem W8_v48 : W8 m ρ c (Proc.devRef .tc main_v48) = (dat2 (V5 m ρ) c).arrAt 7 cfg2.N :=
  (W8_of_ne m ρ c main_v48 (by decide)).trans ((keepH3 _ main_v48 (by decide)).trans (W6_arr m ρ c 7))

/-- The second result array ends as the fourth launch left it. -/
theorem W8_v61 : W8 m ρ c (Proc.devRef .tc main_v61) = (dat3 (V7 m ρ) c).arrAt 7 cfg3.N :=
  W8_arr m ρ c 7

end Cert.KerChain

end
-- ==== Proof.Spec.lean ====
/-
  The mathematics both programs compute, row by row, on the extended reals.

  A dense layer followed by the rectifier sends an input row x to k ↦ max (∑ j, x j · W j k + b k) 0.
  A message network is two such layers on 128 features.  An update network is two such layers whose
  first one reads the 256 features of a row h joined with a row m; summing over the joined row is
  summing over h against the upper half of the weights plus summing over m against the lower half,
  which is the form the tiled program evaluates (associativity and commutativity of + only, so it
  holds for every extended real, infinite ones included).
-/
import Idealize.ShloMosaic.PureOps.Ideal
import Idealize.ShloMosaic.Lib.ValueIdx

noncomputable section

open scoped BigOperators

namespace Cert.Spec

open Idealize.ShloMosaic

/-- The zero the rectifier compares with: the f32 word 0 read on the extended reals. -/
def z0 : EReal := Ideal.ofBits .f32 0x00000000#32

/-- The rectifier. -/
def relu (z : EReal) : EReal := max z z0

/-- One dense layer followed by the rectifier: output feature k of the input row x. -/
def layer {n : Nat} (x : Fin n → EReal) (W : Fin n → Fin 128 → EReal) (b : Fin 128 → EReal) (k : Fin 128) : EReal :=
  relu (∑ j, x j * W j k + b k)

/-- A message network: two layers on a 128-feature row. -/
def mlp2 (x : Fin 128 → EReal) (W1 : Fin 128 → Fin 128 → EReal) (b1 : Fin 128 → EReal)
    (W2 : Fin 128 → Fin 128 → EReal) (b2 : Fin 128 → EReal) (q : Fin 128) : EReal :=
  layer (layer x W1 b1) W2 b2 q

/-- An update network with the first layer's sum written in two halves. -/
def upd2 (h mm : Fin 128 → EReal) (Wa Wb : Fin 128 → Fin 128 → EReal) (b1 : Fin 128 → EReal)
    (W2 : Fin 128 → Fin 128 → EReal) (b2 : Fin 128 → EReal) (q : Fin 128) : EReal :=
  layer (fun k => relu ((∑ j, h j * Wa j k + ∑ j, mm j * Wb j k) + b1 k)) W2 b2 q

/-- An update network on the joined row of 256 features. -/
def updCat (h mm : Fin 128 → EReal) (W : Fin (128 + 128) → Fin 128 → EReal) (b1 : Fin 128 → EReal)
    (W2 : Fin 128 → Fin 128 → EReal) (b2 : Fin 128 → EReal) (q : Fin 128) : EReal :=
  layer (layer (Fin.append h mm) W b1) W2 b2 q

/-- The sum over the joined row splits into the sum over each half. -/
theorem updCat_eq (h mm : Fin 128 → EReal) (W : Fin (128 + 128) → Fin 128 → EReal) (b1 : Fin 128 → EReal)
    (W2 : Fin 128 → Fin 128 → EReal) (b2 : Fin 128 → EReal) (q : Fin 128) :
    updCat h mm W b1 W2 b2 q
      = upd2 h mm (fun j => W (Fin.castAdd 128 j)) (fun j => W (Fin.natAdd 128 j)) b1 W2 b2 q := by
  unfold updCat upd2
  congr 1
  funext k
  unfold layer
  rw [Fin.sum_univ_add]
  simp only [Fin.append_left, Fin.append_right]

end Cert.Spec

end
-- ==== Proof.LibPlainDot.lean ====
/-
  A plain matrix product read at an index, on the extended reals.

  For the dimension numbers of an M×K by K×N product (contract the left operand's axis 1 with the
  right operand's axis 0, no batch axis), the entry (p, q) of the product is ∑ k, a[p, k] · b[k, q]:
  for the host's dot_general, for a matmul into any accumulator (plus the accumulator's entry), and
  for a matmul into the zero splat. The contraction's one-axis index is re-indexed to its coordinate.
-/
import Idealize.ShloMosaic.Lib.ValueIdx
import Idealize.ShloMosaic.PureOps.Ideal.Laws

noncomputable section

open scoped BigOperators

namespace Idealize.ShloMosaic.PlainDot

open Idealize.ShloMosaic Idealize.ShloMosaic.ValueIdx

variable (M K N : Nat)

/-- The left operand's row coordinate is the output's row. -/
theorem plain_lhs_row (i : (⟨2, ![M, N]⟩ : Shape).Idx) (c : (DotDims.plain M K N).contr.Idx) :
    ((DotDims.plain M K N).lhsIdx i c 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- The right operand's column coordinate is the output's column. -/
theorem plain_rhs_col (i : (⟨2, ![M, N]⟩ : Shape).Idx) (c : (DotDims.plain M K N).contr.Idx) :
    ((DotDims.plain M K N).rhsIdx i c 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The left operand's index at output (p, q) and contraction coordinate k is (p, k). -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  refine Fin.ext ?_
  match a with
  | ⟨0, _⟩ => exact plain_lhs_row M K N (ix2 p q) _
  | ⟨1, _⟩ => exact ((DotDims.plain M K N).lhsIdx_val_of_single rfl (ix2 p q) _).trans hk

/-- The right operand's index at output (p, q) and contraction coordinate k is (k, q). -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  refine Fin.ext ?_
  match a with
  | ⟨0, _⟩ => exact ((DotDims.plain M K N).rhsIdx_val_of_single rfl (ix2 p q) _).trans hk
  | ⟨1, _⟩ => exact plain_rhs_col M K N (ix2 p q) _

/-- The contraction sum of a plain product at (p, q) is the sum over the shared coordinate. -/
theorem plain_sum (a : (⟨2, ![M, K]⟩ : Shape).Idx → EReal) (b : (⟨2, ![K, N]⟩ : Shape).Idx → EReal) (p : Fin M) (q : Fin N) :
    (∑ k : (DotDims.plain M K N).contr.Idx,
        a ((DotDims.plain M K N).lhsIdx (ix2 p q) k) * b ((DotDims.plain M K N).rhsIdx (ix2 p q) k))
      = ∑ k : Fin K, a (ix2 p k) * b (ix2 k q) := by
  rw [← Equiv.sum_comp (contrEquiv1 (DotDims.plain M K N) K rfl rfl).symm]
  refine Finset.sum_congr rfl fun k _ => ?_
  rw [plain_lhsIdx, plain_rhsIdx]

/-- A matmul into the zero splat, read at (p, q). -/
theorem matmul_zero_apply {φ₁ φ₂ : FTy} (prec : Option ContractPrecision)
    (a : FVec Ideal ⟨2, ![M, K]⟩ φ₁) (b : FVec Ideal ⟨2, ![K, N]⟩ φ₂) (p : Fin M) (q : Fin N) :
    FloatOps.matmul (DotDims.plain M K N) prec a b (constant ⟨2, ![M, N]⟩ .f32 0x00000000#32) (ix2 p q)
      = ∑ k : Fin K, a (ix2 p k) * b (ix2 k q) :=
  (Ideal.matmul_constant_zero_apply (DotDims.plain M K N) prec a b (ix2 p q)).trans (plain_sum M K N a b p q)

/-- The host's dot_general, read at (p, q). -/
theorem dotGeneral_apply {φ₁ φ₂ : FTy} (prec : Option ContractPrecision) (sched : HostSchedule)
    (a : FVec Ideal ⟨2, ![M, K]⟩ φ₁) (b : FVec Ideal ⟨2, ![K, N]⟩ φ₂) (p : Fin M) (q : Fin N) :
    FloatOps.dotGeneral (DotDims.plain M K N) prec sched a b (ix2 p q) = ∑ k : Fin K, a (ix2 p k) * b (ix2 k q) :=
  (Ideal.dotGeneral_apply (DotDims.plain M K N) prec sched a b (ix2 p q)).trans (plain_sum M K N a b p q)

end Idealize.ShloMosaic.PlainDot

end
-- ==== Proof.KerRows.lean ====
/-
  What each tile program's stored value holds at an entry, on the extended reals.

  The message tile program stores, at row r and feature q of its tile, the two-layer network of
  row r of the loaded rows; the update tile program stores the two-layer network whose first layer
  adds the product of the loaded h rows with the upper weights and of the loaded m rows with the
  lower weights.  Rounding to a shorter format is the identity on the extended reals, a product
  accumulated into the zero splat is the plain sum over the shared coordinate, and a bias row is
  spread over the rows.
-/
import proofs.«148133_j15590731285087_2_alg».proof.Proof.Gen.KernelIdeal.Skeleton
import proofs.«148133_j15590731285087_2_alg».proof.Proof.Spec
import proofs.«148133_j15590731285087_2_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KerRows

open Idealize.ShloMosaic Idealize.ShloMosaic.ValueIdx Cert.KernelIdeal Cert.KernelIdeal.Gen

/-! ## Layout steps read at an entry -/

/-- A [1,128,128] block viewed as [128,128] reads (0, j, k) at (j, k): both have row-major position 128·j + k. -/
theorem cast_w {α : Type} (a : S1x128x128.Idx → α) (h : S1x128x128.ShapeCasts S128x128) (j k : Fin 128) :
    shapeCast S128x128 a h (ix2 j k) = a (ix3 (0 : Fin 1) j k) := by
  refine (shapeCast_dropUnit_apply ![128, 128] a h (ix2 j k)).trans (congrArg a ?_)
  funext d
  match d with
  | ⟨0, _⟩ => rfl
  | ⟨1, _⟩ => rfl
  | ⟨2, _⟩ => rfl

/-- A [1,1,128] block viewed as [1,128] reads (0, 0, k) at (0, k). -/
theorem cast_b {α : Type} (a : S1x1x128.Idx → α) (h : S1x1x128.ShapeCasts S1x128) (k : Fin 128) :
    shapeCast S1x128 a h (ix2 (0 : Fin 1) k) = a (ix3 (0 : Fin 1) (0 : Fin 1) k) := by
  refine (shapeCast_dropUnit_apply ![1, 128] a h (ix2 (0 : Fin 1) k)).trans (congrArg a ?_)
  funext d
  match d with
  | ⟨0, _⟩ => rfl
  | ⟨1, _⟩ => rfl
  | ⟨2, _⟩ => rfl

/-- A bias row spread over 10000 rows reads its entry k in every row: the row axis of the source has extent 1. -/
theorem bias_row {α : Type} (b : S1x128.Idx → α) (h : S1x128.Broadcasts S10000x128) (r : Fin 10000) (k : Fin 128) :
    broadcastTo S10000x128 b h (ix2 r k) = b (ix2 (0 : Fin 1) k) := by
  refine broadcastTo_apply b h (ix2 r k) (ix2 (0 : Fin 1) k) fun a => ?_
  match a with
  | ⟨0, _⟩ => rfl
  | ⟨1, _⟩ => rfl

/-- The tile programs' product is the plain 10000×128 by 128×128 one. -/
theorem dot_plain : dot_S10000x128_S128x128_S10000x128_1_0_0_1_n_n = DotDims.plain 10000 128 128 := rfl

/-- A product accumulated into the zero splat, at row r and feature k: the sum over the shared coordinate. -/
theorem prod_apply {φ₁ φ₂ : FTy} (x : FVec Ideal S10000x128 φ₁) (W : FVec Ideal S128x128 φ₂) (r : Fin 10000) (k : Fin 128) :
    matmul dot_S10000x128_S128x128_S10000x128_1_0_0_1_n_n none x W (constant S10000x128 .f32 0x00000000#32) (ix2 r k)
      = ∑ j : Fin 128, x (ix2 r j) * W (ix2 j k) := by
  rw [dot_plain]
  exact PlainDot.matmul_zero_apply 10000 128 128 none x W r k

/-! ## One dense layer with the rectifier, at an entry -/

/-- Product into the zero splat, plus the spread bias row, compared with the zero splat: the specification's layer
    of row r of the left operand. -/
theorem dense_apply {φ₁ φ₂ : FTy} (x : FVec Ideal S10000x128 φ₁) (W : FVec Ideal S128x128 φ₂)
    (b : FVec Ideal S1x128 .f32) (hb : S1x128.Broadcasts S10000x128) (r : Fin 10000) (k : Fin 128) :
    maximumf (addf (matmul dot_S10000x128_S128x128_S10000x128_1_0_0_1_n_n none x W (constant S10000x128 .f32 0x00000000#32))
        (broadcastTo S10000x128 b hb)) (broadcast S10000x128 (Scalar.ofBits .f32 0x00000000#32)) (ix2 r k)
      = Cert.Spec.layer (fun j => x (ix2 r j)) (fun j k => W (ix2 j k)) (fun k => b (ix2 (0 : Fin 1) k)) k := by
  refine (maximumf_apply _ _ _).trans ?_
  exact congrArg₂ max ((addf_apply _ _ _).trans (congrArg₂ (· + ·) (prod_apply x W r k) (bias_row b hb r k))) rfl

/-- The same after the rounding to the shorter format, which is the identity. -/
theorem dense_trunc_apply {φ₁ φ₂ : FTy} (x : FVec Ideal S10000x128 φ₁) (W : FVec Ideal S128x128 φ₂)
    (b : FVec Ideal S1x128 .f32) (hb : S1x128.Broadcasts S10000x128) (ht : FTy.bits .bf16 < FTy.bits .f32)
    (r : Fin 10000) (k : Fin 128) :
    (truncf .bf16 (maximumf (addf (matmul dot_S10000x128_S128x128_S10000x128_1_0_0_1_n_n none x W (constant S10000x128 .f32 0x00000000#32))
        (broadcastTo S10000x128 b hb)) (broadcast S10000x128 (Scalar.ofBits .f32 0x00000000#32))) ht : FVec Ideal S10000x128 .bf16) (ix2 r k)
      = Cert.Spec.layer (fun j => x (ix2 r j)) (fun j k => W (ix2 j k)) (fun k => b (ix2 (0 : Fin 1) k)) k :=
  (truncf_apply _ ht (ix2 r k)).trans (dense_apply x W b hb r k)

/-- The update network's first layer: two products into the zero splat added, plus the spread bias row, compared with
    the zero splat, then rounded (the identity). -/
theorem dense2_trunc_apply {φ₁ φ₂ : FTy} (x y : FVec Ideal S10000x128 φ₁) (Wa Wb : FVec Ideal S128x128 φ₂)
    (b : FVec Ideal S1x128 .f32) (hb : S1x128.Broadcasts S10000x128) (ht : FTy.bits .bf16 < FTy.bits .f32)
    (r : Fin 10000) (k : Fin 128) :
    (truncf .bf16 (maximumf (addf (addf
          (matmul dot_S10000x128_S128x128_S10000x128_1_0_0_1_n_n none x Wa (constant S10000x128 .f32 0x00000000#32))
          (matmul dot_S10000x128_S128x128_S10000x128_1_0_0_1_n_n none y Wb (constant S10000x128 .f32 0x00000000#32)))
        (broadcastTo S10000x128 b hb)) (broadcast S10000x128 (Scalar.ofBits .f32 0x00000000#32))) ht : FVec Ideal S10000x128 .bf16) (ix2 r k)
      = Cert.Spec.relu ((∑ j : Fin 128, x (ix2 r j) * Wa (ix2 j k) + ∑ j : Fin 128, y (ix2 r j) * Wb (ix2 j k)) + b (ix2 (0 : Fin 1) k)) := by
  refine (truncf_apply _ ht (ix2 r k)).trans ((maximumf_apply _ _ _).trans ?_)
  exact congrArg₂ max ((addf_apply _ _ _).trans (congrArg₂ (· + ·)
    ((addf_apply _ _ _).trans (congrArg₂ (· + ·) (prod_apply x Wa r k) (prod_apply y Wb r k))) (bias_row b hb r k))) rfl

/-- Two layers agree at a feature when their rows, weights and biases agree entry by entry. -/
theorem layer_congr {x x' : Fin 128 → EReal} {W W' : Fin 128 → Fin 128 → EReal} {b b' : Fin 128 → EReal}
    (hx : ∀ j, x j = x' j) (hW : ∀ j k, W j k = W' j k) (hb : ∀ k, b k = b' k) (q : Fin 128) :
    Cert.Spec.layer x W b q = Cert.Spec.layer x' W' b' q := by
  obtain rfl : x = x' := funext hx
  obtain rfl : W = W' := funext fun j => funext (hW j)
  obtain rfl : b = b' := funext hb
  rfl

/-! ## The four stored values -/

/-- The message tile program of the first launch at row r, feature q. -/
theorem pay_msg0 (v0 : Vec Ideal S10000x128 .f32) (v2 : Vec Ideal S1x128x128 .f32) (v6 : Vec Ideal S1x1x128 .f32)
    (v13 : Vec Ideal S1x128x128 .f32) (v17 : Vec Ideal S1x1x128 .f32) (r : Fin 10000) (q : Fin 128) :
    k0_pay1 (F := Ideal) v0 v2 v6 v13 v17 (ix2 r q)
      = Cert.Spec.mlp2 (fun j => v0 (ix2 r j)) (fun j k => v2 (ix3 (0 : Fin 1) j k)) (fun k => v6 (ix3 (0 : Fin 1) (0 : Fin 1) k))
          (fun j k => v13 (ix3 (0 : Fin 1) j k)) (fun k => v17 (ix3 (0 : Fin 1) (0 : Fin 1) k)) q := by
  unfold k0_pay1 Cert.Spec.mlp2
  refine (dense_trunc_apply _ _ _ _ _ r q).trans (layer_congr (fun j => ?_) (fun j k => ?_) (fun k => ?_) q)
  · refine (dense_trunc_apply _ _ _ _ _ r j).trans (layer_congr (fun _ => rfl) (fun i k => ?_) (fun k => ?_) j)
    · exact cast_w v2 _ i k
    · exact cast_b v6 _ k
  · exact cast_w v13 _ j k
  · exact cast_b v17 _ k

/-- The message tile program of the second launch at row r, feature q. -/
theorem pay_msg1 (v0 : Vec Ideal S10000x128 .f32) (v2 : Vec Ideal S1x128x128 .f32) (v6 : Vec Ideal S1x1x128 .f32)
    (v13 : Vec Ideal S1x128x128 .f32) (v17 : Vec Ideal S1x1x128 .f32) (r : Fin 10000) (q : Fin 128) :
    k1_pay1 (F := Ideal) v0 v2 v6 v13 v17 (ix2 r q)
      = Cert.Spec.mlp2 (fun j => v0 (ix2 r j)) (fun j k => v2 (ix3 (0 : Fin 1) j k)) (fun k => v6 (ix3 (0 : Fin 1) (0 : Fin 1) k))
          (fun j k => v13 (ix3 (0 : Fin 1) j k)) (fun k => v17 (ix3 (0 : Fin 1) (0 : Fin 1) k)) q := by
  unfold k1_pay1 Cert.Spec.mlp2
  refine (dense_trunc_apply _ _ _ _ _ r q).trans (layer_congr (fun j => ?_) (fun j k => ?_) (fun k => ?_) q)
  · refine (dense_trunc_apply _ _ _ _ _ r j).trans (layer_congr (fun _ => rfl) (fun i k => ?_) (fun k => ?_) j)
    · exact cast_w v2 _ i k
    · exact cast_b v6 _ k
  · exact cast_w v13 _ j k
  · exact cast_b v17 _ k

/-- The update tile program of the third launch at row r, feature q. -/
theorem pay_upd2 (v0 v2 : Vec Ideal S10000x128 .f32) (v5 v8 : Vec Ideal S128x128 .f32) (v14 : Vec Ideal S1x128 .f32)
    (v21 : Vec Ideal S128x128 .f32) (v25 : Vec Ideal S1x128 .f32) (r : Fin 10000) (q : Fin 128) :
    k2_pay1 (F := Ideal) v0 v2 v5 v8 v14 v21 v25 (ix2 r q)
      = Cert.Spec.upd2 (fun j => v0 (ix2 r j)) (fun j => v2 (ix2 r j)) (fun j k => v5 (ix2 j k)) (fun j k => v8 (ix2 j k))
          (fun k => v14 (ix2 (0 : Fin 1) k)) (fun j k => v21 (ix2 j k)) (fun k => v25 (ix2 (0 : Fin 1) k)) q := by
  unfold k2_pay1 Cert.Spec.upd2
  rw [shapeCast_self v2, shapeCast_self v5, shapeCast_self v8, shapeCast_self v14, shapeCast_self v21, shapeCast_self v25]
  refine (dense_apply _ _ _ _ r q).trans (layer_congr (fun j => ?_) (fun _ _ => rfl) (fun _ => rfl) q)
  exact dense2_trunc_apply _ _ _ _ _ _ _ r j

/-- The update tile program of the fourth launch at row r, feature q. -/
theorem pay_upd3 (v0 v2 : Vec Ideal S10000x128 .f32) (v5 v8 : Vec Ideal S128x128 .f32) (v14 : Vec Ideal S1x128 .f32)
    (v21 : Vec Ideal S128x128 .f32) (v25 : Vec Ideal S1x128 .f32) (r : Fin 10000) (q : Fin 128) :
    k3_pay1 (F := Ideal) v0 v2 v5 v8 v14 v21 v25 (ix2 r q)
      = Cert.Spec.upd2 (fun j => v0 (ix2 r j)) (fun j => v2 (ix2 r j)) (fun j k => v5 (ix2 j k)) (fun j k => v8 (ix2 j k))
          (fun k => v14 (ix2 (0 : Fin 1) k)) (fun j k => v21 (ix2 j k)) (fun k => v25 (ix2 (0 : Fin 1) k)) q := by
  unfold k3_pay1 Cert.Spec.upd2
  rw [shapeCast_self v2, shapeCast_self v5, shapeCast_self v8, shapeCast_self v14, shapeCast_self v21, shapeCast_self v25]
  refine (dense_apply _ _ _ _ r q).trans (layer_congr (fun j => ?_) (fun _ _ => rfl) (fun _ => rfl) q)
  exact dense2_trunc_apply _ _ _ _ _ _ _ r j

end Cert.KerRows

end
-- ==== Proof.KerArr.lean ====
/-
  What each launch leaves in its output array, as one function of the arrays it reads.

  A launch writes its output tile by tile; the tile written at a grid point is the tile program's
  value on the tiles read there, every row of the output lies in exactly one written tile, and the
  tile program's value at a row depends on that row of the row input only.  So the whole output is
  one table: the message launches leave the two networks' tables stacked (row r of the output is
  network r / height on row r % height), the update launches leave the update network row by row.
-/
import proofs.«148133_j15590731285087_2_alg».proof.Proof.FrameKI
import proofs.«148133_j15590731285087_2_alg».proof.Proof.KerRows
import proofs.«148133_j15590731285087_2_alg».proof.Proof.Spec
import Idealize.ShloMosaic.Lib.ValueIdx
import Idealize.ShloMosaic.Lib.Pipeline.Value

noncomputable section

open scoped BigOperators

namespace Cert.KerArr

open Idealize.ShloMosaic Idealize.ShloMosaic.ValueIdx Idealize.ShloMosaic.TcCoe Idealize.SL.Sem Cert.KernelIdeal Cert.KernelIdeal.Gen

/-- The stacked message table over the clause rows: row r is network r / 400000 on row r % 400000. -/
def zvTab (x : Vec Ideal S400000x128 .f32) (w1 : Vec Ideal S2x128x128 .f32) (b1 : Vec Ideal S2x1x128 .f32)
    (w2 : Vec Ideal S2x128x128 .f32) (b2 : Vec Ideal S2x1x128 .f32) : Vec Ideal S800000x128 .bf16 :=
  fun i =>
    have hlt : (i 0).val < 2 * 400000 := ValueIdx.idx2_lt0 i
    let s : Fin 2 := ⟨(i 0).val / 400000, by omega⟩
    let p : Fin 400000 := ⟨(i 0).val % 400000, by omega⟩
    Cert.Spec.mlp2 (fun j => x (ix2 p j)) (fun j k => w1 (ix3 s j k)) (fun k => b1 (ix3 s (0 : Fin 1) k))
      (fun j k => w2 (ix3 s j k)) (fun k => b2 (ix3 s (0 : Fin 1) k)) (i 1)

/-- The stacked message table over the variable rows: row r is network r / 100000 on row r % 100000. -/
def zcTab (x : Vec Ideal S100000x128 .f32) (w1 : Vec Ideal S2x128x128 .f32) (b1 : Vec Ideal S2x1x128 .f32)
    (w2 : Vec Ideal S2x128x128 .f32) (b2 : Vec Ideal S2x1x128 .f32) : Vec Ideal S200000x128 .bf16 :=
  fun i =>
    have hlt : (i 0).val < 2 * 100000 := ValueIdx.idx2_lt0 i
    let s : Fin 2 := ⟨(i 0).val / 100000, by omega⟩
    let p : Fin 100000 := ⟨(i 0).val % 100000, by omega⟩
    Cert.Spec.mlp2 (fun j => x (ix2 p j)) (fun j k => w1 (ix3 s j k)) (fun k => b1 (ix3 s (0 : Fin 1) k))
      (fun j k => w2 (ix3 s j k)) (fun k => b2 (ix3 s (0 : Fin 1) k)) (i 1)

/-- The update network on the variable rows, row by row. -/
def updV (h mm : Vec Ideal S100000x128 .f32) (wa wb : Vec Ideal S128x128 .f32) (b1 : Vec Ideal S1x128 .f32)
    (w2 : Vec Ideal S128x128 .f32) (b2 : Vec Ideal S1x128 .f32) : Vec Ideal S100000x128 .f32 :=
  fun i =>
    Cert.Spec.upd2 (fun j => h (ix2 (i 0) j)) (fun j => mm (ix2 (i 0) j)) (fun j k => wa (ix2 j k)) (fun j k => wb (ix2 j k))
      (fun k => b1 (ix2 (0 : Fin 1) k)) (fun j k => w2 (ix2 j k)) (fun k => b2 (ix2 (0 : Fin 1) k)) (i 1)

/-- The update network on the clause rows, row by row. -/
def updC (h mm : Vec Ideal S400000x128 .f32) (wa wb : Vec Ideal S128x128 .f32) (b1 : Vec Ideal S1x128 .f32)
    (w2 : Vec Ideal S128x128 .f32) (b2 : Vec Ideal S1x128 .f32) : Vec Ideal S400000x128 .f32 :=
  fun i =>
    Cert.Spec.upd2 (fun j => h (ix2 (i 0) j)) (fun j => mm (ix2 (i 0) j)) (fun j k => wa (ix2 j k)) (fun j k => wb (ix2 j k))
      (fun k => b1 (ix2 (0 : Fin 1) k)) (fun j k => w2 (ix2 j k)) (fun k => b2 (ix2 (0 : Fin 1) k)) (i 1)

/-! ## Small facts used by every launch -/

/-- The zero offsets of a rank-2 tile, as the constant function. -/
theorem hz2 : (![0, 0] : Fin 2 → Nat) = fun _ => 0 := funext fun a => by fin_cases a <;> rfl

/-- The zero offsets of a rank-3 tile, as the constant function. -/
theorem hz3 : (![0, 0, 0] : Fin 3 → Nat) = fun _ => 0 := funext fun a => by fin_cases a <;> rfl

/-- Two tiles of 10000 rows by 128 features are equal when they agree at every row and feature. -/
theorem tile_ext {f g : S10000x128.Idx → EReal} (h : ∀ (r : Fin 10000) (q : Fin 128), f (ix2 r q) = g (ix2 r q)) : f = g :=
  funext fun y => by rw [eq_ix2 y]; exact h (y 0) (y 1)

/-- A message network's value depends only on the values of the row, the weights and the biases. -/
theorem mlp2_congr {x x' : Fin 128 → EReal} {W1 W1' : Fin 128 → Fin 128 → EReal} {b1 b1' : Fin 128 → EReal}
    {W2 W2' : Fin 128 → Fin 128 → EReal} {b2 b2' : Fin 128 → EReal} {q q' : Fin 128}
    (hx : ∀ j, x j = x' j) (hW1 : ∀ j k, W1 j k = W1' j k) (hb1 : ∀ k, b1 k = b1' k)
    (hW2 : ∀ j k, W2 j k = W2' j k) (hb2 : ∀ k, b2 k = b2' k) (hq : q = q') :
    Cert.Spec.mlp2 x W1 b1 W2 b2 q = Cert.Spec.mlp2 x' W1' b1' W2' b2' q' := by
  obtain rfl : x = x' := funext hx
  obtain rfl : W1 = W1' := funext fun j => funext (hW1 j)
  obtain rfl : b1 = b1' := funext hb1
  obtain rfl : W2 = W2' := funext fun j => funext (hW2 j)
  obtain rfl : b2 = b2' := funext hb2
  rw [hq]

/-- An update network's value depends only on the values of the two rows, the weights and the biases. -/
theorem upd2_congr {h h' mm mm' : Fin 128 → EReal} {Wa Wa' Wb Wb' : Fin 128 → Fin 128 → EReal} {b1 b1' : Fin 128 → EReal}
    {W2 W2' : Fin 128 → Fin 128 → EReal} {b2 b2' : Fin 128 → EReal} {q q' : Fin 128}
    (hh : ∀ j, h j = h' j) (hm : ∀ j, mm j = mm' j) (hWa : ∀ j k, Wa j k = Wa' j k) (hWb : ∀ j k, Wb j k = Wb' j k)
    (hb1 : ∀ k, b1 k = b1' k) (hW2 : ∀ j k, W2 j k = W2' j k) (hb2 : ∀ k, b2 k = b2' k) (hq : q = q') :
    Cert.Spec.upd2 h mm Wa Wb b1 W2 b2 q = Cert.Spec.upd2 h' mm' Wa' Wb' b1' W2' b2' q' := by
  obtain rfl : h = h' := funext hh
  obtain rfl : mm = mm' := funext hm
  obtain rfl : Wa = Wa' := funext fun j => funext (hWa j)
  obtain rfl : Wb = Wb' := funext fun j => funext (hWb j)
  obtain rfl : b1 = b1' := funext hb1
  obtain rfl : W2 = W2' := funext fun j => funext (hW2 j)
  obtain rfl : b2 = b2' := funext hb2
  rw [hq]

/-! ## The first launch: grid (row block i of 40, network s of 2), point t = 2 i + s -/

/-- The index maps over the grid: the row tile follows the row block, each weight and bias
    tile follows the network, the output tile sits at row block s * 40 + i. -/
theorem idx0 : ∀ t : Fin cfg0.N,
    win0_0.index t (0 : Fin 2) = t.val / 2 ∧ win0_0.index t (1 : Fin 2) = 0
    ∧ win0_1.index t (0 : Fin 3) = t.val % 2 ∧ win0_1.index t (1 : Fin 3) = 0 ∧ win0_1.index t (2 : Fin 3) = 0
    ∧ win0_2.index t (0 : Fin 3) = t.val % 2 ∧ win0_2.index t (1 : Fin 3) = 0 ∧ win0_2.index t (2 : Fin 3) = 0
    ∧ win0_3.index t (0 : Fin 3) = t.val % 2 ∧ win0_3.index t (1 : Fin 3) = 0 ∧ win0_3.index t (2 : Fin 3) = 0
    ∧ win0_4.index t (0 : Fin 3) = t.val % 2 ∧ win0_4.index t (1 : Fin 3) = 0 ∧ win0_4.index t (2 : Fin 3) = 0
    ∧ win0_5.index t (0 : Fin 2) = t.val % 2 * 40 + t.val / 2 ∧ win0_5.index t (1 : Fin 2) = 0 :=
  (by decide +kernel : ∀ t : Fin grid0.N, _)

/-- The row tile read at point t holds rows (t / 2) * 10000 + r of the row input. -/
theorem rows0 (V : (c : Dev nD) → (b : Ref sig .tc) → Buf (Elt Ideal) ((c : Thread nD τ).loc b)) (c : Dev nD) (t : Fin cfg0.N)
    (r : Fin 10000) (j : Fin 128) (J : S400000x128.Idx) (hJ0 : (J 0).val = t.val / 2 * 10000 + r.val) (hJ1 : (J 1).val = j.val) :
    (iblk0 (F := Ideal) V c 0 t : Vec Ideal S10000x128 .f32) (ix2 r j) = (V c main_arg1 : Vec Ideal S400000x128 .f32) J := by
  obtain ⟨e0, e1, -⟩ := idx0 t
  unfold iblk0
  rw [View.read_apply]
  show (V c main_arg1 : Vec Ideal S400000x128 .f32) _ = _
  refine congrArg (V c main_arg1 : Vec Ideal S400000x128 .f32) ?_
  funext a; apply Fin.ext
  match a with
  | ⟨0, _⟩ => show win0_0.index t (0 : Fin 2) * 10000 + 1 * r.val = (J 0).val; omega
  | ⟨1, _⟩ => show win0_0.index t (1 : Fin 2) * 128 + 1 * j.val = (J 1).val; omega

/-- The first weight tile read at point t is network t % 2 of the stacked first weights. -/
theorem wts0_1 (V : (c : Dev nD) → (b : Ref sig .tc) → Buf (Elt Ideal) ((c : Thread nD τ).loc b)) (c : Dev nD) (t : Fin cfg0.N)
    (j k : Fin 128) (J : S2x128x128.Idx) (hJ0 : (J 0).val = t.val % 2) (hJ1 : (J 1).val = j.val) (hJ2 : (J 2).val = k.val) :
    (iblk0 (F := Ideal) V c 1 t : Vec Ideal S1x128x128 .f32) (ix3 (0 : Fin 1) j k) = (V c main_v0 : Vec Ideal S2x128x128 .f32) J := by
  obtain ⟨-, -, e0, e1, e2, -⟩ := idx0 t
  unfold iblk0
  rw [View.read_apply]
  show (V c main_v0 : Vec Ideal S2x128x128 .f32) _ = _
  refine congrArg (V c main_v0 : Vec Ideal S2x128x128 .f32) ?_
  funext a; apply Fin.ext
  match a with
  | ⟨0, _⟩ => show win0_1.index t (0 : Fin 3) * 1 + 1 * 0 = (J 0).val; omega
  | ⟨1, _⟩ => show win0_1.index t (1 : Fin 3) * 128 + 1 * j.val = (J 1).val; omega
  | ⟨2, _⟩ => show win0_1.index t (2 : Fin 3) * 128 + 1 * k.val = (J 2).val; omega

/-- The first bias tile read at point t is network t % 2 of the stacked first biases. -/
theorem bias0_2 (V : (c : Dev nD) → (b : Ref sig .tc) → Buf (Elt Ideal) ((c : Thread nD τ).loc b)) (c : Dev nD) (t : Fin cfg0.N)
    (k : Fin 128) (J : S2x1x128.Idx) (hJ0 : (J 0).val = t.val % 2) (hJ1 : (J 1).val = 0) (hJ2 : (J 2).val = k.val) :
    (iblk0 (F := Ideal) V c 2 t : Vec Ideal S1x1x128 .f32) (ix3 (0 : Fin 1) (0 : Fin 1) k) = (V c main_v4 : Vec Ideal S2x1x128 .f32) J := by
  obtain ⟨-, -, -, -, -, e0, e1, e2, -⟩ := idx0 t
  unfold iblk0
  rw [View.read_apply]
  show (V c main_v4 : Vec Ideal S2x1x128 .f32) _ = _
  refine congrArg (V c main_v4 : Vec Ideal S2x1x128 .f32) ?_
  funext a; apply Fin.ext
  match a with
  | ⟨0, _⟩ => show win0_2.index t (0 : Fin 3) * 1 + 1 * 0 = (J 0).val; omega
  | ⟨1, _⟩ => show win0_2.index t (1 : Fin 3) * 1 + 1 * 0 = (J 1).val; omega
  | ⟨2, _⟩ => show win0_2.index t (2 : Fin 3) * 128 + 1 * k.val = (J 2).val; omega

/-- The second weight tile read at point t is network t % 2 of the stacked second weights. -/
theorem wts0_3 (V : (c : Dev nD) → (b : Ref sig .tc) → Buf (Elt Ideal) ((c : Thread nD τ).loc b)) (c : Dev nD) (t : Fin cfg0.N)
    (j k : Fin 128) (J : S2x128x128.Idx) (hJ0 : (J 0).val = t.val % 2) (hJ1 : (J 1).val = j.val) (hJ2 : (J 2).val = k.val) :
    (iblk0 (F := Ideal) V c 3 t : Vec Ideal S1x128x128 .f32) (ix3 (0 : Fin 1) j k) = (V c main_v2 : Vec Ideal S2x128x128 .f32) J := by
  obtain ⟨-, -, -, -, -, -, -, -, e0, e1, e2, -⟩ := idx0 t
  unfold iblk0
  rw [View.read_apply]
  show (V c main_v2 : Vec Ideal S2x128x128 .f32) _ = _
  refine congrArg (V c main_v2 : Vec Ideal S2x128x128 .f32) ?_
  funext a; apply Fin.ext
  match a with
  | ⟨0, _⟩ => show win0_3.index t (0 : Fin 3) * 1 + 1 * 0 = (J 0).val; omega
  | ⟨1, _⟩ => show win0_3.index t (1 : Fin 3) * 128 + 1 * j.val = (J 1).val; omega
  | ⟨2, _⟩ => show win0_3.index t (2 : Fin 3) * 128 + 1 * k.val = (J 2).val; omega

/-- The second bias tile read at point t is network t % 2 of the stacked second biases. -/
theorem bias0_4 (V : (c : Dev nD) → (b : Ref sig .tc) → Buf (Elt Ideal) ((c : Thread nD τ).loc b)) (c : Dev nD) (t : Fin cfg0.N)
    (k : Fin 128) (J : S2x1x128.Idx) (hJ0 : (J 0).val = t.val % 2) (hJ1 : (J 1).val = 0) (hJ2 : (J 2).val = k.val) :
    (iblk0 (F := Ideal) V c 4 t : Vec Ideal S1x1x128 .f32) (ix3 (0 : Fin 1) (0 : Fin 1) k) = (V c main_v5 : Vec Ideal S2x1x128 .f32) J := by
  obtain ⟨-, -, -, -, -, -, -, -, -, -, -, e0, e1, e2, -⟩ := idx0 t
  unfold iblk0
  rw [View.read_apply]
  show (V c main_v5 : Vec Ideal S2x1x128 .f32) _ = _
  refine congrArg (V c main_v5 : Vec Ideal S2x1x128 .f32) ?_
  funext a; apply Fin.ext
  match a with
  | ⟨0, _⟩ => show win0_4.index t (0 : Fin 3) * 1 + 1 * 0 = (J 0).val; omega
  | ⟨1, _⟩ => show win0_4.index t (1 : Fin 3) * 1 + 1 * 0 = (J 1).val; omega
  | ⟨2, _⟩ => show win0_4.index t (2 : Fin 3) * 128 + 1 * k.val = (J 2).val; omega

/-- One entry of a written tile: if the row tile holds rows i * 10000 + r of the row input and the weight
    and bias tiles are network s of the stacked ones, the tile program's value at row r is the stacked
    table at row (s * 40 + i) * 10000 + r = s * 400000 + (i * 10000 + r). -/
theorem tab0_point (A0 : Vec Ideal S400000x128 .f32) (A1 : Vec Ideal S2x128x128 .f32) (A2 : Vec Ideal S2x1x128 .f32)
    (A3 : Vec Ideal S2x128x128 .f32) (A4 : Vec Ideal S2x1x128 .f32)
    (x0 : Vec Ideal S10000x128 .f32) (x1 : Vec Ideal S1x128x128 .f32) (x2 : Vec Ideal S1x1x128 .f32)
    (x3 : Vec Ideal S1x128x128 .f32) (x4 : Vec Ideal S1x1x128 .f32) (i s : Nat) (hi : i < 40) (hs : s < 2)
    (h0 : ∀ (r : Fin 10000) (j : Fin 128) (J : S400000x128.Idx), (J 0).val = i * 10000 + r.val → (J 1).val = j.val → x0 (ix2 r j) = A0 J)
    (h1 : ∀ (j k : Fin 128) (J : S2x128x128.Idx), (J 0).val = s → (J 1).val = j.val → (J 2).val = k.val → x1 (ix3 (0 : Fin 1) j k) = A1 J)
    (h2 : ∀ (k : Fin 128) (J : S2x1x128.Idx), (J 0).val = s → (J 1).val = 0 → (J 2).val = k.val → x2 (ix3 (0 : Fin 1) (0 : Fin 1) k) = A2 J)
    (h3 : ∀ (j k : Fin 128) (J : S2x128x128.Idx), (J 0).val = s → (J 1).val = j.val → (J 2).val = k.val → x3 (ix3 (0 : Fin 1) j k) = A3 J)
    (h4 : ∀ (k : Fin 128) (J : S2x1x128.Idx), (J 0).val = s → (J 1).val = 0 → (J 2).val = k.val → x4 (ix3 (0 : Fin 1) (0 : Fin 1) k) = A4 J)
    (r : Fin 10000) (q : Fin 128) (I : S800000x128.Idx)
    (hI0 : (I 0).val = (s * 40 + i) * 10000 + r.val) (hI1 : (I 1).val = q.val) :
    k0_pay1 (F := Ideal) x0 x1 x2 x3 x4 (ix2 r q) = zvTab A0 A1 A2 A3 A4 I := by
  have hr : r.val < 10000 := r.isLt
  rw [Cert.KerRows.pay_msg0]
  unfold zvTab
  refine mlp2_congr (fun j => ?_) (fun j k => ?_) (fun k => ?_) (fun j k => ?_) (fun k => ?_) (Fin.ext hI1.symm)
  · exact h0 r j _ (by show (I 0).val % 400000 = i * 10000 + r.val; omega) rfl
  · exact h1 j k _ (by show (I 0).val / 400000 = s; omega) rfl rfl
  · exact h2 k _ (by show (I 0).val / 400000 = s; omega) rfl rfl
  · exact h3 j k _ (by show (I 0).val / 400000 = s; omega) rfl rfl
  · exact h4 k _ (by show (I 0).val / 400000 = s; omega) rfl rfl

/-- What point t writes back is its tile of the stacked table. -/
theorem flushed0_eq (V : (c : Dev nD) → (b : Ref sig .tc) → Buf (Elt Ideal) ((c : Thread nD τ).loc b)) (c : Dev nD) (t : Fin cfg0.N) :
    (dat0 (F := Ideal) V c).flushed 5 t
      = ((cfg0.win 5).blk t).view.read (Elt Ideal) (zvTab (V c main_arg1) (V c main_v0) (V c main_v4) (V c main_v2) (V c main_v5)) := by
  show (cfg0.win 5).cut (grid0.coords t) ((dat0 V c).after 5 t) = _
  rw [after0_5]
  unfold out0_5
  rw [View.canon_unit_zero hz2]
  simp only [View.ld_unit_zero (S := S10000x128) hz2, View.ld_unit_zero (S := S1x128x128) hz3, View.ld_unit_zero (S := S1x1x128) hz3]
  have ht : t.val < 80 := (N_0 : grid0.N = 80) ▸ t.isLt
  obtain ⟨-, -, -, -, -, -, -, -, -, -, -, -, -, -, e0, e1⟩ := idx0 t
  refine tile_ext fun r q => ?_
  show k0_pay1 (F := Ideal) (iblk0 V c 0 t) (iblk0 V c 1 t) (iblk0 V c 2 t) (iblk0 V c 3 t) (iblk0 V c 4 t) (ix2 r q)
      = zvTab (V c main_arg1) (V c main_v0) (V c main_v4) (V c main_v2) (V c main_v5) (((cfg0.win 5).blk t).view.emb (ix2 r q))
  exact tab0_point (V c main_arg1) (V c main_v0) (V c main_v4) (V c main_v2) (V c main_v5)
    (iblk0 V c 0 t) (iblk0 V c 1 t) (iblk0 V c 2 t) (iblk0 V c 3 t) (iblk0 V c 4 t) (t.val / 2) (t.val % 2) (by omega) (by omega)
    (fun r j J h0 h1 => rows0 V c t r j J h0 h1) (fun j k J h0 h1 h2 => wts0_1 V c t j k J h0 h1 h2)
    (fun k J h0 h1 h2 => bias0_2 V c t k J h0 h1 h2) (fun j k J h0 h1 h2 => wts0_3 V c t j k J h0 h1 h2)
    (fun k J h0 h1 h2 => bias0_4 V c t k J h0 h1 h2) r q (((cfg0.win 5).blk t).view.emb (ix2 r q))
    (by show win0_5.index t (0 : Fin 2) * 10000 + 1 * r.val = (t.val % 2 * 40 + t.val / 2) * 10000 + r.val; omega)
    (by show win0_5.index t (1 : Fin 2) * 128 + 1 * q.val = q.val; omega)

/-- An index of the output array is in point t's tile iff each coordinate is in the tile's range. -/
theorem mem_blk0 (t : Fin cfg0.N) (i : S800000x128.Idx) :
    i ∈ ((cfg0.win 5).blk t).view.set ↔ ∀ a : Fin 2, win0_5.index t a * S10000x128.size a ≤ (i a).val ∧ (i a).val < win0_5.index t a * S10000x128.size a + S10000x128.size a := by
  show i ∈ ((View.whole main_v6).slice (win0_5.rect t)).set ↔ _
  rw [View.set_slice_whole, Rect.mem_set_unit]
  exact Iff.rfl

/-- Every row of the output lies in the tile of the point 2 i + s with s = row / 400000, i = row % 400000 / 10000. -/
theorem cover0 (i : S800000x128.Idx) : ∃ t : Fin cfg0.N, (cfg0.win 5).flush t = true ∧ i ∈ ((cfg0.win 5).blk t).view.set := by
  have h0 : (i 0).val < 800000 := (i 0).isLt
  have h1 : (i 1).val < 128 := (i 1).isLt
  have hN : cfg0.N = 80 := N_0
  let t : Fin cfg0.N := ⟨(i 0).val % 400000 / 10000 * 2 + (i 0).val / 400000, by rw [hN]; omega⟩
  have htv : t.val = (i 0).val % 400000 / 10000 * 2 + (i 0).val / 400000 := rfl
  obtain ⟨-, -, -, -, -, -, -, -, -, -, -, -, -, -, e0, e1⟩ := idx0 t
  refine ⟨t, flush0_5 t, ?_⟩
  rw [mem_blk0]
  intro a
  match a with
  | ⟨0, _⟩ => show win0_5.index t (0 : Fin 2) * 10000 ≤ (i 0).val ∧ (i 0).val < win0_5.index t (0 : Fin 2) * 10000 + 10000; rw [e0, htv]; omega
  | ⟨1, _⟩ => show win0_5.index t (1 : Fin 2) * 128 ≤ (i 1).val ∧ (i 1).val < win0_5.index t (1 : Fin 2) * 128 + 128; rw [e1]; omega

/-- The first launch leaves the stacked message table of the clause rows. -/
theorem final0 (V : (c : Dev nD) → (b : Ref sig .tc) → Buf (Elt Ideal) ((c : Thread nD τ).loc b)) (c : Dev nD) :
    (dat0 (F := Ideal) V c).arrAt 5 cfg0.N = zvTab (V c main_arg1) (V c main_v0) (V c main_v4) (V c main_v2) (V c main_v5) :=
  (dat0 (F := Ideal) V c).arrAt_eq_of_cover 5 (zvTab (V c main_arg1) (V c main_v0) (V c main_v4) (V c main_v2) (V c main_v5))
    (fun t _ => flushed0_eq V c t) cover0

/-! ## The second launch: grid (row block i of 10, network s of 2), point t = 2 i + s -/

/-- The index maps over the grid: the row tile follows the row block, each weight and bias
    tile follows the network, the output tile sits at row block s * 10 + i. -/
theorem idx1 : ∀ t : Fin cfg1.N,
    win1_0.index t (0 : Fin 2) = t.val / 2 ∧ win1_0.index t (1 : Fin 2) = 0
    ∧ win1_1.index t (0 : Fin 3) = t.val % 2 ∧ win1_1.index t (1 : Fin 3) = 0 ∧ win1_1.index t (2 : Fin 3) = 0
    ∧ win1_2.index t (0 : Fin 3) = t.val % 2 ∧ win1_2.index t (1 : Fin 3) = 0 ∧ win1_2.index t (2 : Fin 3) = 0
    ∧ win1_3.index t (0 : Fin 3) = t.val % 2 ∧ win1_3.index t (1 : Fin 3) = 0 ∧ win1_3.index t (2 : Fin 3) = 0
    ∧ win1_4.index t (0 : Fin 3) = t.val % 2 ∧ win1_4.index t (1 : Fin 3) = 0 ∧ win1_4.index t (2 : Fin 3) = 0
    ∧ win1_5.index t (0 : Fin 2) = t.val % 2 * 10 + t.val / 2 ∧ win1_5.index t (1 : Fin 2) = 0 :=
  (by decide +kernel : ∀ t : Fin grid1.N, _)

/-- The row tile read at point t holds rows (t / 2) * 10000 + r of the row input. -/
theorem rows1 (V : (c : Dev nD) → (b : Ref sig .tc) → Buf (Elt Ideal) ((c : Thread nD τ).loc b)) (c : Dev nD) (t : Fin cfg1.N)
    (r : Fin 10000) (j : Fin 128) (J : S100000x128.Idx) (hJ0 : (J 0).val = t.val / 2 * 10000 + r.val) (hJ1 : (J 1).val = j.val) :
    (iblk1 (F := Ideal) V c 0 t : Vec Ideal S10000x128 .f32) (ix2 r j) = (V c main_arg0 : Vec Ideal S100000x128 .f32) J := by
  obtain ⟨e0, e1, -⟩ := idx1 t
  unfold iblk1
  rw [View.read_apply]
  show (V c main_arg0 : Vec Ideal S100000x128 .f32) _ = _
  refine congrArg (V c main_arg0 : Vec Ideal S100000x128 .f32) ?_
  funext a; apply Fin.ext
  match a with
  | ⟨0, _⟩ => show win1_0.index t (0 : Fin 2) * 10000 + 1 * r.val = (J 0).val; omega
  | ⟨1, _⟩ => show win1_0.index t (1 : Fin 2) * 128 + 1 * j.val = (J 1).val; omega

/-- The first weight tile read at point t is network t % 2 of the stacked first weights. -/
theorem wts1_1 (V : (c : Dev nD) → (b : Ref sig .tc) → Buf (Elt Ideal) ((c : Thread nD τ).loc b)) (c : Dev nD) (t : Fin cfg1.N)
    (j k : Fin 128) (J : S2x128x128.Idx) (hJ0 : (J 0).val = t.val % 2) (hJ1 : (J 1).val = j.val) (hJ2 : (J 2).val = k.val) :
    (iblk1 (F := Ideal) V c 1 t : Vec Ideal S1x128x128 .f32) (ix3 (0 : Fin 1) j k) = (V c main_v7 : Vec Ideal S2x128x128 .f32) J := by
  obtain ⟨-, -, e0, e1, e2, -⟩ := idx1 t
  unfold iblk1
  rw [View.read_apply]
  show (V c main_v7 : Vec Ideal S2x128x128 .f32) _ = _
  refine congrArg (V c main_v7 : Vec Ideal S2x128x128 .f32) ?_
  funext a; apply Fin.ext
  match a with
  | ⟨0, _⟩ => show win1_1.index t (0 : Fin 3) * 1 + 1 * 0 = (J 0).val; omega
  | ⟨1, _⟩ => show win1_1.index t (1 : Fin 3) * 128 + 1 * j.val = (J 1).val; omega
  | ⟨2, _⟩ => show win1_1.index t (2 : Fin 3) * 128 + 1 * k.val = (J 2).val; omega

/-- The first bias tile read at point t is network t % 2 of the stacked first biases. -/
theorem bias1_2 (V : (c : Dev nD) → (b : Ref sig .tc) → Buf (Elt Ideal) ((c : Thread nD τ).loc b)) (c : Dev nD) (t : Fin cfg1.N)
    (k : Fin 128) (J : S2x1x128.Idx) (hJ0 : (J 0).val = t.val % 2) (hJ1 : (J 1).val = 0) (hJ2 : (J 2).val = k.val) :
    (iblk1 (F := Ideal) V c 2 t : Vec Ideal S1x1x128 .f32) (ix3 (0 : Fin 1) (0 : Fin 1) k) = (V c main_v11 : Vec Ideal S2x1x128 .f32) J := by
  obtain ⟨-, -, -, -, -, e0, e1, e2, -⟩ := idx1 t
  unfold iblk1
  rw [View.read_apply]
  show (V c main_v11 : Vec Ideal S2x1x128 .f32) _ = _
  refine congrArg (V c main_v11 : Vec Ideal S2x1x128 .f32) ?_
  funext a; apply Fin.ext
  match a with
  | ⟨0, _⟩ => show win1_2.index t (0 : Fin 3) * 1 + 1 * 0 = (J 0).val; omega
  | ⟨1, _⟩ => show win1_2.index t (1 : Fin 3) * 1 + 1 * 0 = (J 1).val; omega
  | ⟨2, _⟩ => show win1_2.index t (2 : Fin 3) * 128 + 1 * k.val = (J 2).val; omega

/-- The second weight tile read at point t is network t % 2 of the stacked second weights. -/
theorem wts1_3 (V : (c : Dev nD) → (b : Ref sig .tc) → Buf (Elt Ideal) ((c : Thread nD τ).loc b)) (c : Dev nD) (t : Fin cfg1.N)
    (j k : Fin 128) (J : S2x128x128.Idx) (hJ0 : (J 0).val = t.val % 2) (hJ1 : (J 1).val = j.val) (hJ2 : (J 2).val = k.val) :
    (iblk1 (F := Ideal) V c 3 t : Vec Ideal S1x128x128 .f32) (ix3 (0 : Fin 1) j k) = (V c main_v9 : Vec Ideal S2x128x128 .f32) J := by
  obtain ⟨-, -, -, -, -, -, -, -, e0, e1, e2, -⟩ := idx1 t
  unfold iblk1
  rw [View.read_apply]
  show (V c main_v9 : Vec Ideal S2x128x128 .f32) _ = _
  refine congrArg (V c main_v9 : Vec Ideal S2x128x128 .f32) ?_
  funext a; apply Fin.ext
  match a with
  | ⟨0, _⟩ => show win1_3.index t (0 : Fin 3) * 1 + 1 * 0 = (J 0).val; omega
  | ⟨1, _⟩ => show win1_3.index t (1 : Fin 3) * 128 + 1 * j.val = (J 1).val; omega
  | ⟨2, _⟩ => show win1_3.index t (2 : Fin 3) * 128 + 1 * k.val = (J 2).val; omega

/-- The second bias tile read at point t is network t % 2 of the stacked second biases. -/
theorem bias1_4 (V : (c : Dev nD) → (b : Ref sig .tc) → Buf (Elt Ideal) ((c : Thread nD τ).loc b)) (c : Dev nD) (t : Fin cfg1.N)
    (k : Fin 128) (J : S2x1x128.Idx) (hJ0 : (J 0).val = t.val % 2) (hJ1 : (J 1).val = 0) (hJ2 : (J 2).val = k.val) :
    (iblk1 (F := Ideal) V c 4 t : Vec Ideal S1x1x128 .f32) (ix3 (0 : Fin 1) (0 : Fin 1) k) = (V c main_v12 : Vec Ideal S2x1x128 .f32) J := by
  obtain ⟨-, -, -, -, -, -, -, -, -, -, -, e0, e1, e2, -⟩ := idx1 t
  unfold iblk1
  rw [View.read_apply]
  show (V c main_v12 : Vec Ideal S2x1x128 .f32) _ = _
  refine congrArg (V c main_v12 : Vec Ideal S2x1x128 .f32) ?_
  funext a; apply Fin.ext
  match a with
  | ⟨0, _⟩ => show win1_4.index t (0 : Fin 3) * 1 + 1 * 0 = (J 0).val; omega
  | ⟨1, _⟩ => show win1_4.index t (1 : Fin 3) * 1 + 1 * 0 = (J 1).val; omega
  | ⟨2, _⟩ => show win1_4.index t (2 : Fin 3) * 128 + 1 * k.val = (J 2).val; omega

/-- One entry of a written tile: if the row tile holds rows i * 10000 + r of the row input and the weight
    and bias tiles are network s of the stacked ones, the tile program's value at row r is the stacked
    table at row (s * 10 + i) * 10000 + r = s * 100000 + (i * 10000 + r). -/
theorem tab1_point (A0 : Vec Ideal S100000x128 .f32) (A1 : Vec Ideal S2x128x128 .f32) (A2 : Vec Ideal S2x1x128 .f32)
    (A3 : Vec Ideal S2x128x128 .f32) (A4 : Vec Ideal S2x1x128 .f32)
    (x0 : Vec Ideal S10000x128 .f32) (x1 : Vec Ideal S1x128x128 .f32) (x2 : Vec Ideal S1x1x128 .f32)
    (x3 : Vec Ideal S1x128x128 .f32) (x4 : Vec Ideal S1x1x128 .f32) (i s : Nat) (hi : i < 10) (hs : s < 2)
    (h0 : ∀ (r : Fin 10000) (j : Fin 128) (J : S100000x128.Idx), (J 0).val = i * 10000 + r.val → (J 1).val = j.val → x0 (ix2 r j) = A0 J)
    (h1 : ∀ (j k : Fin 128) (J : S2x128x128.Idx), (J 0).val = s → (J 1).val = j.val → (J 2).val = k.val → x1 (ix3 (0 : Fin 1) j k) = A1 J)
    (h2 : ∀ (k : Fin 128) (J : S2x1x128.Idx), (J 0).val = s → (J 1).val = 0 → (J 2).val = k.val → x2 (ix3 (0 : Fin 1) (0 : Fin 1) k) = A2 J)
    (h3 : ∀ (j k : Fin 128) (J : S2x128x128.Idx), (J 0).val = s → (J 1).val = j.val → (J 2).val = k.val → x3 (ix3 (0 : Fin 1) j k) = A3 J)
    (h4 : ∀ (k : Fin 128) (J : S2x1x128.Idx), (J 0).val = s → (J 1).val = 0 → (J 2).val = k.val → x4 (ix3 (0 : Fin 1) (0 : Fin 1) k) = A4 J)
    (r : Fin 10000) (q : Fin 128) (I : S200000x128.Idx)
    (hI0 : (I 0).val = (s * 10 + i) * 10000 + r.val) (hI1 : (I 1).val = q.val) :
    k1_pay1 (F := Ideal) x0 x1 x2 x3 x4 (ix2 r q) = zcTab A0 A1 A2 A3 A4 I := by
  have hr : r.val < 10000 := r.isLt
  rw [Cert.KerRows.pay_msg1]
  unfold zcTab
  refine mlp2_congr (fun j => ?_) (fun j k => ?_) (fun k => ?_) (fun j k => ?_) (fun k => ?_) (Fin.ext hI1.symm)
  · exact h0 r j _ (by show (I 0).val % 100000 = i * 10000 + r.val; omega) rfl
  · exact h1 j k _ (by show (I 0).val / 100000 = s; omega) rfl rfl
  · exact h2 k _ (by show (I 0).val / 100000 = s; omega) rfl rfl
  · exact h3 j k _ (by show (I 0).val / 100000 = s; omega) rfl rfl
  · exact h4 k _ (by show (I 0).val / 100000 = s; omega) rfl rfl

/-- What point t writes back is its tile of the stacked table. -/
theorem flushed1_eq (V : (c : Dev nD) → (b : Ref sig .tc) → Buf (Elt Ideal) ((c : Thread nD τ).loc b)) (c : Dev nD) (t : Fin cfg1.N) :
    (dat1 (F := Ideal) V c).flushed 5 t
      = ((cfg1.win 5).blk t).view.read (Elt Ideal) (zcTab (V c main_arg0) (V c main_v7) (V c main_v11) (V c main_v9) (V c main_v12)) := by
  show (cfg1.win 5).cut (grid1.coords t) ((dat1 V c).after 5 t) = _
  rw [after1_5]
  unfold out1_5
  rw [View.canon_unit_zero hz2]
  simp only [View.ld_unit_zero (S := S10000x128) hz2, View.ld_unit_zero (S := S1x128x128) hz3, View.ld_unit_zero (S := S1x1x128) hz3]
  have ht : t.val < 20 := (N_1 : grid1.N = 20) ▸ t.isLt
  obtain ⟨-, -, -, -, -, -, -, -, -, -, -, -, -, -, e0, e1⟩ := idx1 t
  refine tile_ext fun r q => ?_
  show k1_pay1 (F := Ideal) (iblk1 V c 0 t) (iblk1 V c 1 t) (iblk1 V c 2 t) (iblk1 V c 3 t) (iblk1 V c 4 t) (ix2 r q)
      = zcTab (V c main_arg0) (V c main_v7) (V c main_v11) (V c main_v9) (V c main_v12) (((cfg1.win 5).blk t).view.emb (ix2 r q))
  exact tab1_point (V c main_arg0) (V c main_v7) (V c main_v11) (V c main_v9) (V c main_v12)
    (iblk1 V c 0 t) (iblk1 V c 1 t) (iblk1 V c 2 t) (iblk1 V c 3 t) (iblk1 V c 4 t) (t.val / 2) (t.val % 2) (by omega) (by omega)
    (fun r j J h0 h1 => rows1 V c t r j J h0 h1) (fun j k J h0 h1 h2 => wts1_1 V c t j k J h0 h1 h2)
    (fun k J h0 h1 h2 => bias1_2 V c t k J h0 h1 h2) (fun j k J h0 h1 h2 => wts1_3 V c t j k J h0 h1 h2)
    (fun k J h0 h1 h2 => bias1_4 V c t k J h0 h1 h2) r q (((cfg1.win 5).blk t).view.emb (ix2 r q))
    (by show win1_5.index t (0 : Fin 2) * 10000 + 1 * r.val = (t.val % 2 * 10 + t.val / 2) * 10000 + r.val; omega)
    (by show win1_5.index t (1 : Fin 2) * 128 + 1 * q.val = q.val; omega)

/-- An index of the output array is in point t's tile iff each coordinate is in the tile's range. -/
theorem mem_blk1 (t : Fin cfg1.N) (i : S200000x128.Idx) :
    i ∈ ((cfg1.win 5).blk t).view.set ↔ ∀ a : Fin 2, win1_5.index t a * S10000x128.size a ≤ (i a).val ∧ (i a).val < win1_5.index t a * S10000x128.size a + S10000x128.size a := by
  show i ∈ ((View.whole main_v13).slice (win1_5.rect t)).set ↔ _
  rw [View.set_slice_whole, Rect.mem_set_unit]
  exact Iff.rfl

/-- Every row of the output lies in the tile of the point 2 i + s with s = row / 100000, i = row % 100000 / 10000. -/
theorem cover1 (i : S200000x128.Idx) : ∃ t : Fin cfg1.N, (cfg1.win 5).flush t = true ∧ i ∈ ((cfg1.win 5).blk t).view.set := by
  have h0 : (i 0).val < 200000 := (i 0).isLt
  have h1 : (i 1).val < 128 := (i 1).isLt
  have hN : cfg1.N = 20 := N_1
  let t : Fin cfg1.N := ⟨(i 0).val % 100000 / 10000 * 2 + (i 0).val / 100000, by rw [hN]; omega⟩
  have htv : t.val = (i 0).val % 100000 / 10000 * 2 + (i 0).val / 100000 := rfl
  obtain ⟨-, -, -, -, -, -, -, -, -, -, -, -, -, -, e0, e1⟩ := idx1 t
  refine ⟨t, flush1_5 t, ?_⟩
  rw [mem_blk1]
  intro a
  match a with
  | ⟨0, _⟩ => show win1_5.index t (0 : Fin 2) * 10000 ≤ (i 0).val ∧ (i 0).val < win1_5.index t (0 : Fin 2) * 10000 + 10000; rw [e0, htv]; omega
  | ⟨1, _⟩ => show win1_5.index t (1 : Fin 2) * 128 ≤ (i 1).val ∧ (i 1).val < win1_5.index t (1 : Fin 2) * 128 + 128; rw [e1]; omega

/-- The second launch leaves the stacked message table of the variable rows. -/
theorem final1 (V : (c : Dev nD) → (b : Ref sig .tc) → Buf (Elt Ideal) ((c : Thread nD τ).loc b)) (c : Dev nD) :
    (dat1 (F := Ideal) V c).arrAt 5 cfg1.N = zcTab (V c main_arg0) (V c main_v7) (V c main_v11) (V c main_v9) (V c main_v12) :=
  (dat1 (F := Ideal) V c).arrAt_eq_of_cover 5 (zcTab (V c main_arg0) (V c main_v7) (V c main_v11) (V c main_v9) (V c main_v12))
    (fun t _ => flushed1_eq V c t) cover1

/-! ## The third launch: grid (row block i of 10), point t = i; the weights and biases are read whole -/

/-- The index maps over the grid: the two row tiles and the output tile follow the row block,
    every weight and bias tile is the whole array. -/
theorem idx2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = t.val ∧ win2_7.index t (1 : Fin 2) = 0 :=
  (by decide +kernel : ∀ t : Fin grid2.N, _)

/-- The first row tile read at point t holds rows t * 10000 + r of the row input h. -/
theorem rows2_0 (V : (c : Dev nD) → (b : Ref sig .tc) → Buf (Elt Ideal) ((c : Thread nD τ).loc b)) (c : Dev nD) (t : Fin cfg2.N)
    (r : Fin 10000) (j : Fin 128) (J : S100000x128.Idx) (hJ0 : (J 0).val = t.val * 10000 + r.val) (hJ1 : (J 1).val = j.val) :
    (iblk2 (F := Ideal) V c 0 t : Vec Ideal S10000x128 .f32) (ix2 r j) = (V c main_arg0 : Vec Ideal S100000x128 .f32) J := by
  obtain ⟨e0, e1, -⟩ := idx2 t
  unfold iblk2
  rw [View.read_apply]
  show (V c main_arg0 : Vec Ideal S100000x128 .f32) _ = _
  refine congrArg (V c main_arg0 : Vec Ideal S100000x128 .f32) ?_
  funext a; apply Fin.ext
  match a with
  | ⟨0, _⟩ => show win2_0.index t (0 : Fin 2) * 10000 + 1 * r.val = (J 0).val; omega
  | ⟨1, _⟩ => show win2_0.index t (1 : Fin 2) * 128 + 1 * j.val = (J 1).val; omega

/-- The second row tile read at point t holds rows t * 10000 + r of the aggregated messages m. -/
theorem rows2_1 (V : (c : Dev nD) → (b : Ref sig .tc) → Buf (Elt Ideal) ((c : Thread nD τ).loc b)) (c : Dev nD) (t : Fin cfg2.N)
    (r : Fin 10000) (j : Fin 128) (J : S100000x128.Idx) (hJ0 : (J 0).val = t.val * 10000 + r.val) (hJ1 : (J 1).val = j.val) :
    (iblk2 (F := Ideal) V c 1 t : Vec Ideal S10000x128 .f32) (ix2 r j) = (V c main_v24 : Vec Ideal S100000x128 .f32) J := by
  obtain ⟨-, -, e0, e1, -⟩ := idx2 t
  unfold iblk2
  rw [View.read_apply]
  show (V c main_v24 : Vec Ideal S100000x128 .f32) _ = _
  refine congrArg (V c main_v24 : Vec Ideal S100000x128 .f32) ?_
  funext a; apply Fin.ext
  match a with
  | ⟨0, _⟩ => show win2_1.index t (0 : Fin 2) * 10000 + 1 * r.val = (J 0).val; omega
  | ⟨1, _⟩ => show win2_1.index t (1 : Fin 2) * 128 + 1 * j.val = (J 1).val; omega

/-- The upper first-layer weights are read whole at every point. -/
theorem whole2_2 (V : (c : Dev nD) → (b : Ref sig .tc) → Buf (Elt Ideal) ((c : Thread nD τ).loc b)) (c : Dev nD) (t : Fin cfg2.N) (j k : Fin 128) :
    (iblk2 (F := Ideal) V c 2 t : Vec Ideal S128x128 .f32) (ix2 j k) = (V c main_v44 : Vec Ideal S128x128 .f32) (ix2 j k) := by
  obtain ⟨-, -, -, -, e0, e1, -⟩ := idx2 t
  unfold iblk2
  rw [View.read_apply]
  show (V c main_v44 : Vec Ideal S128x128 .f32) _ = _
  refine congrArg (V c main_v44 : Vec Ideal S128x128 .f32) ?_
  funext a; apply Fin.ext
  match a with
  | ⟨0, _⟩ => show win2_2.index t (0 : Fin 2) * 128 + 1 * j.val = j.val; omega
  | ⟨1, _⟩ => show win2_2.index t (1 : Fin 2) * 128 + 1 * k.val = k.val; omega

/-- The lower first-layer weights are read whole at every point. -/
theorem whole2_3 (V : (c : Dev nD) → (b : Ref sig .tc) → Buf (Elt Ideal) ((c : Thread nD τ).loc b)) (c : Dev nD) (t : Fin cfg2.N) (j k : Fin 128) :
    (iblk2 (F := Ideal) V c 3 t : Vec Ideal S128x128 .f32) (ix2 j k) = (V c main_v45 : Vec Ideal S128x128 .f32) (ix2 j k) := by
  obtain ⟨-, -, -, -, -, -, e0, e1, -⟩ := idx2 t
  unfold iblk2
  rw [View.read_apply]
  show (V c main_v45 : Vec Ideal S128x128 .f32) _ = _
  refine congrArg (V c main_v45 : Vec Ideal S128x128 .f32) ?_
  funext a; apply Fin.ext
  match a with
  | ⟨0, _⟩ => show win2_3.index t (0 : Fin 2) * 128 + 1 * j.val = j.val; omega
  | ⟨1, _⟩ => show win2_3.index t (1 : Fin 2) * 128 + 1 * k.val = k.val; omega

/-- The first-layer bias row is read whole at every point. -/
theorem whole2_4 (V : (c : Dev nD) → (b : Ref sig .tc) → Buf (Elt Ideal) ((c : Thread nD τ).loc b)) (c : Dev nD) (t : Fin cfg2.N) (k : Fin 128) :
    (iblk2 (F := Ideal) V c 4 t : Vec Ideal S1x128 .f32) (ix2 (0 : Fin 1) k) = (V c main_v46 : Vec Ideal S1x128 .f32) (ix2 (0 : Fin 1) k) := by
  obtain ⟨-, -, -, -, -, -, -, -, e0, e1, -⟩ := idx2 t
  unfold iblk2
  rw [View.read_apply]
  show (V c main_v46 : Vec Ideal S1x128 .f32) _ = _
  refine congrArg (V c main_v46 : Vec Ideal S1x128 .f32) ?_
  funext a; apply Fin.ext
  match a with
  | ⟨0, _⟩ => show win2_4.index t (0 : Fin 2) * 1 + 1 * 0 = 0; omega
  | ⟨1, _⟩ => show win2_4.index t (1 : Fin 2) * 128 + 1 * k.val = k.val; omega

/-- The second-layer weights are read whole at every point. -/
theorem whole2_5 (V : (c : Dev nD) → (b : Ref sig .tc) → Buf (Elt Ideal) ((c : Thread nD τ).loc b)) (c : Dev nD) (t : Fin cfg2.N) (j k : Fin 128) :
    (iblk2 (F := Ideal) V c 5 t : Vec Ideal S128x128 .f32) (ix2 j k) = (V c main_v41 : Vec Ideal S128x128 .f32) (ix2 j k) := by
  obtain ⟨-, -, -, -, -, -, -, -, -, -, e0, e1, -⟩ := idx2 t
  unfold iblk2
  rw [View.read_apply]
  show (V c main_v41 : Vec Ideal S128x128 .f32) _ = _
  refine congrArg (V c main_v41 : Vec Ideal S128x128 .f32) ?_
  funext a; apply Fin.ext
  match a with
  | ⟨0, _⟩ => show win2_5.index t (0 : Fin 2) * 128 + 1 * j.val = j.val; omega
  | ⟨1, _⟩ => show win2_5.index t (1 : Fin 2) * 128 + 1 * k.val = k.val; omega

/-- The second-layer bias row is read whole at every point. -/
theorem whole2_6 (V : (c : Dev nD) → (b : Ref sig .tc) → Buf (Elt Ideal) ((c : Thread nD τ).loc b)) (c : Dev nD) (t : Fin cfg2.N) (k : Fin 128) :
    (iblk2 (F := Ideal) V c 6 t : Vec Ideal S1x128 .f32) (ix2 (0 : Fin 1) k) = (V c main_v47 : Vec Ideal S1x128 .f32) (ix2 (0 : Fin 1) k) := by
  obtain ⟨-, -, -, -, -, -, -, -, -, -, -, -, e0, e1, -⟩ := idx2 t
  unfold iblk2
  rw [View.read_apply]
  show (V c main_v47 : Vec Ideal S1x128 .f32) _ = _
  refine congrArg (V c main_v47 : Vec Ideal S1x128 .f32) ?_
  funext a; apply Fin.ext
  match a with
  | ⟨0, _⟩ => show win2_6.index t (0 : Fin 2) * 1 + 1 * 0 = 0; omega
  | ⟨1, _⟩ => show win2_6.index t (1 : Fin 2) * 128 + 1 * k.val = k.val; omega

/-- One entry of a written tile: if the two row tiles hold rows i * 10000 + r of h and of m and the weight and
    bias tiles are the whole arrays, the tile program's value at row r is the update table at row i * 10000 + r. -/
theorem tab2_point (A0 A1 : Vec Ideal S100000x128 .f32) (A2 A3 : Vec Ideal S128x128 .f32) (A4 : Vec Ideal S1x128 .f32)
    (A5 : Vec Ideal S128x128 .f32) (A6 : Vec Ideal S1x128 .f32)
    (x0 x1 : Vec Ideal S10000x128 .f32) (x2 x3 : Vec Ideal S128x128 .f32) (x4 : Vec Ideal S1x128 .f32)
    (x5 : Vec Ideal S128x128 .f32) (x6 : Vec Ideal S1x128 .f32) (i : Nat)
    (h0 : ∀ (r : Fin 10000) (j : Fin 128) (J : S100000x128.Idx), (J 0).val = i * 10000 + r.val → (J 1).val = j.val → x0 (ix2 r j) = A0 J)
    (h1 : ∀ (r : Fin 10000) (j : Fin 128) (J : S100000x128.Idx), (J 0).val = i * 10000 + r.val → (J 1).val = j.val → x1 (ix2 r j) = A1 J)
    (h2 : ∀ (j k : Fin 128), x2 (ix2 j k) = A2 (ix2 j k)) (h3 : ∀ (j k : Fin 128), x3 (ix2 j k) = A3 (ix2 j k))
    (h4 : ∀ (k : Fin 128), x4 (ix2 (0 : Fin 1) k) = A4 (ix2 (0 : Fin 1) k))
    (h5 : ∀ (j k : Fin 128), x5 (ix2 j k) = A5 (ix2 j k)) (h6 : ∀ (k : Fin 128), x6 (ix2 (0 : Fin 1) k) = A6 (ix2 (0 : Fin 1) k))
    (r : Fin 10000) (q : Fin 128) (I : S100000x128.Idx)
    (hI0 : (I 0).val = i * 10000 + r.val) (hI1 : (I 1).val = q.val) :
    k2_pay1 (F := Ideal) x0 x1 x2 x3 x4 x5 x6 (ix2 r q) = updV A0 A1 A2 A3 A4 A5 A6 I := by
  rw [Cert.KerRows.pay_upd2]
  unfold updV
  exact upd2_congr (fun j => h0 r j _ hI0 rfl) (fun j => h1 r j _ hI0 rfl) (fun j k => h2 j k) (fun j k => h3 j k)
    (fun k => h4 k) (fun j k => h5 j k) (fun k => h6 k) (Fin.ext hI1.symm)

/-- What point t writes back is its tile of the update table. -/
theorem flushed2_eq (V : (c : Dev nD) → (b : Ref sig .tc) → Buf (Elt Ideal) ((c : Thread nD τ).loc b)) (c : Dev nD) (t : Fin cfg2.N) :
    (dat2 (F := Ideal) V c).flushed 7 t
      = ((cfg2.win 7).blk t).view.read (Elt Ideal)
          (updV (V c main_arg0) (V c main_v24) (V c main_v44) (V c main_v45) (V c main_v46) (V c main_v41) (V c main_v47)) := by
  show (cfg2.win 7).cut (grid2.coords t) ((dat2 V c).after 7 t) = _
  rw [after2_7]
  unfold out2_7
  rw [View.canon_unit_zero hz2]
  simp only [View.ld_unit_zero (S := S10000x128) hz2, View.ld_unit_zero (S := S128x128) hz2, View.ld_unit_zero (S := S1x128) hz2]
  obtain ⟨-, -, -, -, -, -, -, -, -, -, -, -, -, -, e0, e1⟩ := idx2 t
  refine tile_ext fun r q => ?_
  show k2_pay1 (F := Ideal) (iblk2 V c 0 t) (iblk2 V c 1 t) (iblk2 V c 2 t) (iblk2 V c 3 t) (iblk2 V c 4 t) (iblk2 V c 5 t) (iblk2 V c 6 t) (ix2 r q)
      = updV (V c main_arg0) (V c main_v24) (V c main_v44) (V c main_v45) (V c main_v46) (V c main_v41) (V c main_v47)
          (((cfg2.win 7).blk t).view.emb (ix2 r q))
  exact tab2_point (V c main_arg0) (V c main_v24) (V c main_v44) (V c main_v45) (V c main_v46) (V c main_v41) (V c main_v47)
    (iblk2 V c 0 t) (iblk2 V c 1 t) (iblk2 V c 2 t) (iblk2 V c 3 t) (iblk2 V c 4 t) (iblk2 V c 5 t) (iblk2 V c 6 t) t.val
    (fun r j J h0 h1 => rows2_0 V c t r j J h0 h1) (fun r j J h0 h1 => rows2_1 V c t r j J h0 h1)
    (fun j k => whole2_2 V c t j k) (fun j k => whole2_3 V c t j k) (fun k => whole2_4 V c t k)
    (fun j k => whole2_5 V c t j k) (fun k => whole2_6 V c t k) r q (((cfg2.win 7).blk t).view.emb (ix2 r q))
    (by show win2_7.index t (0 : Fin 2) * 10000 + 1 * r.val = t.val * 10000 + r.val; omega)
    (by show win2_7.index t (1 : Fin 2) * 128 + 1 * q.val = q.val; omega)

/-- An index of the output array is in point t's tile iff each coordinate is in the tile's range. -/
theorem mem_blk2 (t : Fin cfg2.N) (i : S100000x128.Idx) :
    i ∈ ((cfg2.win 7).blk t).view.set ↔ ∀ a : Fin 2, win2_7.index t a * S10000x128.size a ≤ (i a).val ∧ (i a).val < win2_7.index t a * S10000x128.size a + S10000x128.size a := by
  show i ∈ ((View.whole main_v48).slice (win2_7.rect t)).set ↔ _
  rw [View.set_slice_whole, Rect.mem_set_unit]
  exact Iff.rfl

/-- Every row of the output lies in the tile of the point row / 10000. -/
theorem cover2 (i : S100000x128.Idx) : ∃ t : Fin cfg2.N, (cfg2.win 7).flush t = true ∧ i ∈ ((cfg2.win 7).blk t).view.set := by
  have h0 : (i 0).val < 100000 := (i 0).isLt
  have h1 : (i 1).val < 128 := (i 1).isLt
  have hN : cfg2.N = 10 := N_2
  let t : Fin cfg2.N := ⟨(i 0).val / 10000, by rw [hN]; omega⟩
  have htv : t.val = (i 0).val / 10000 := rfl
  obtain ⟨-, -, -, -, -, -, -, -, -, -, -, -, -, -, e0, e1⟩ := idx2 t
  refine ⟨t, flush2_7 t, ?_⟩
  rw [mem_blk2]
  intro a
  match a with
  | ⟨0, _⟩ => show win2_7.index t (0 : Fin 2) * 10000 ≤ (i 0).val ∧ (i 0).val < win2_7.index t (0 : Fin 2) * 10000 + 10000; rw [e0, htv]; omega
  | ⟨1, _⟩ => show win2_7.index t (1 : Fin 2) * 128 ≤ (i 1).val ∧ (i 1).val < win2_7.index t (1 : Fin 2) * 128 + 128; rw [e1]; omega

/-- The third launch leaves the update network of the variable rows. -/
theorem final2 (V : (c : Dev nD) → (b : Ref sig .tc) → Buf (Elt Ideal) ((c : Thread nD τ).loc b)) (c : Dev nD) :
    (dat2 (F := Ideal) V c).arrAt 7 cfg2.N
      = updV (V c main_arg0) (V c main_v24) (V c main_v44) (V c main_v45) (V c main_v46) (V c main_v41) (V c main_v47) :=
  (dat2 (F := Ideal) V c).arrAt_eq_of_cover 7
    (updV (V c main_arg0) (V c main_v24) (V c main_v44) (V c main_v45) (V c main_v46) (V c main_v41) (V c main_v47))
    (fun t _ => flushed2_eq V c t) cover2

/-! ## The fourth launch: grid (row block i of 40), point t = i; the weights and biases are read whole -/

/-- The index maps over the grid: the two row tiles and the output tile follow the row block,
    every weight and bias tile is the whole array. -/
theorem idx3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = t.val ∧ win3_7.index t (1 : Fin 2) = 0 :=
  (by decide +kernel : ∀ t : Fin grid3.N, _)

/-- The first row tile read at point t holds rows t * 10000 + r of the row input h. -/
theorem rows3_0 (V : (c : Dev nD) → (b : Ref sig .tc) → Buf (Elt Ideal) ((c : Thread nD τ).loc b)) (c : Dev nD) (t : Fin cfg3.N)
    (r : Fin 10000) (j : Fin 128) (J : S400000x128.Idx) (hJ0 : (J 0).val = t.val * 10000 + r.val) (hJ1 : (J 1).val = j.val) :
    (iblk3 (F := Ideal) V c 0 t : Vec Ideal S10000x128 .f32) (ix2 r j) = (V c main_arg1 : Vec Ideal S400000x128 .f32) J := by
  obtain ⟨e0, e1, -⟩ := idx3 t
  unfold iblk3
  rw [View.read_apply]
  show (V c main_arg1 : Vec Ideal S400000x128 .f32) _ = _
  refine congrArg (V c main_arg1 : Vec Ideal S400000x128 .f32) ?_
  funext a; apply Fin.ext
  match a with
  | ⟨0, _⟩ => show win3_0.index t (0 : Fin 2) * 10000 + 1 * r.val = (J 0).val; omega
  | ⟨1, _⟩ => show win3_0.index t (1 : Fin 2) * 128 + 1 * j.val = (J 1).val; omega

/-- The second row tile read at point t holds rows t * 10000 + r of the aggregated messages m. -/
theorem rows3_1 (V : (c : Dev nD) → (b : Ref sig .tc) → Buf (Elt Ideal) ((c : Thread nD τ).loc b)) (c : Dev nD) (t : Fin cfg3.N)
    (r : Fin 10000) (j : Fin 128) (J : S400000x128.Idx) (hJ0 : (J 0).val = t.val * 10000 + r.val) (hJ1 : (J 1).val = j.val) :
    (iblk3 (F := Ideal) V c 1 t : Vec Ideal S10000x128 .f32) (ix2 r j) = (V c main_v35 : Vec Ideal S400000x128 .f32) J := by
  obtain ⟨-, -, e0, e1, -⟩ := idx3 t
  unfold iblk3
  rw [View.read_apply]
  show (V c main_v35 : Vec Ideal S400000x128 .f32) _ = _
  refine congrArg (V c main_v35 : Vec Ideal S400000x128 .f32) ?_
  funext a; apply Fin.ext
  match a with
  | ⟨0, _⟩ => show win3_1.index t (0 : Fin 2) * 10000 + 1 * r.val = (J 0).val; omega
  | ⟨1, _⟩ => show win3_1.index t (1 : Fin 2) * 128 + 1 * j.val = (J 1).val; omega

/-- The upper first-layer weights are read whole at every point. -/
theorem whole3_2 (V : (c : Dev nD) → (b : Ref sig .tc) → Buf (Elt Ideal) ((c : Thread nD τ).loc b)) (c : Dev nD) (t : Fin cfg3.N) (j k : Fin 128) :
    (iblk3 (F := Ideal) V c 2 t : Vec Ideal S128x128 .f32) (ix2 j k) = (V c main_v57 : Vec Ideal S128x128 .f32) (ix2 j k) := by
  obtain ⟨-, -, -, -, e0, e1, -⟩ := idx3 t
  unfold iblk3
  rw [View.read_apply]
  show (V c main_v57 : Vec Ideal S128x128 .f32) _ = _
  refine congrArg (V c main_v57 : Vec Ideal S128x128 .f32) ?_
  funext a; apply Fin.ext
  match a with
  | ⟨0, _⟩ => show win3_2.index t (0 : Fin 2) * 128 + 1 * j.val = j.val; omega
  | ⟨1, _⟩ => show win3_2.index t (1 : Fin 2) * 128 + 1 * k.val = k.val; omega

/-- The lower first-layer weights are read whole at every point. -/
theorem whole3_3 (V : (c : Dev nD) → (b : Ref sig .tc) → Buf (Elt Ideal) ((c : Thread nD τ).loc b)) (c : Dev nD) (t : Fin cfg3.N) (j k : Fin 128) :
    (iblk3 (F := Ideal) V c 3 t : Vec Ideal S128x128 .f32) (ix2 j k) = (V c main_v58 : Vec Ideal S128x128 .f32) (ix2 j k) := by
  obtain ⟨-, -, -, -, -, -, e0, e1, -⟩ := idx3 t
  unfold iblk3
  rw [View.read_apply]
  show (V c main_v58 : Vec Ideal S128x128 .f32) _ = _
  refine congrArg (V c main_v58 : Vec Ideal S128x128 .f32) ?_
  funext a; apply Fin.ext
  match a with
  | ⟨0, _⟩ => show win3_3.index t (0 : Fin 2) * 128 + 1 * j.val = j.val; omega
  | ⟨1, _⟩ => show win3_3.index t (1 : Fin 2) * 128 + 1 * k.val = k.val; omega

/-- The first-layer bias row is read whole at every point. -/
theorem whole3_4 (V : (c : Dev nD) → (b : Ref sig .tc) → Buf (Elt Ideal) ((c : Thread nD τ).loc b)) (c : Dev nD) (t : Fin cfg3.N) (k : Fin 128) :
    (iblk3 (F := Ideal) V c 4 t : Vec Ideal S1x128 .f32) (ix2 (0 : Fin 1) k) = (V c main_v59 : Vec Ideal S1x128 .f32) (ix2 (0 : Fin 1) k) := by
  obtain ⟨-, -, -, -, -, -, -, -, e0, e1, -⟩ := idx3 t
  unfold iblk3
  rw [View.read_apply]
  show (V c main_v59 : Vec Ideal S1x128 .f32) _ = _
  refine congrArg (V c main_v59 : Vec Ideal S1x128 .f32) ?_
  funext a; apply Fin.ext
  match a with
  | ⟨0, _⟩ => show win3_4.index t (0 : Fin 2) * 1 + 1 * 0 = 0; omega
  | ⟨1, _⟩ => show win3_4.index t (1 : Fin 2) * 128 + 1 * k.val = k.val; omega

/-- The second-layer weights are read whole at every point. -/
theorem whole3_5 (V : (c : Dev nD) → (b : Ref sig .tc) → Buf (Elt Ideal) ((c : Thread nD τ).loc b)) (c : Dev nD) (t : Fin cfg3.N) (j k : Fin 128) :
    (iblk3 (F := Ideal) V c 5 t : Vec Ideal S128x128 .f32) (ix2 j k) = (V c main_v54 : Vec Ideal S128x128 .f32) (ix2 j k) := by
  obtain ⟨-, -, -, -, -, -, -, -, -, -, e0, e1, -⟩ := idx3 t
  unfold iblk3
  rw [View.read_apply]
  show (V c main_v54 : Vec Ideal S128x128 .f32) _ = _
  refine congrArg (V c main_v54 : Vec Ideal S128x128 .f32) ?_
  funext a; apply Fin.ext
  match a with
  | ⟨0, _⟩ => show win3_5.index t (0 : Fin 2) * 128 + 1 * j.val = j.val; omega
  | ⟨1, _⟩ => show win3_5.index t (1 : Fin 2) * 128 + 1 * k.val = k.val; omega

/-- The second-layer bias row is read whole at every point. -/
theorem whole3_6 (V : (c : Dev nD) → (b : Ref sig .tc) → Buf (Elt Ideal) ((c : Thread nD τ).loc b)) (c : Dev nD) (t : Fin cfg3.N) (k : Fin 128) :
    (iblk3 (F := Ideal) V c 6 t : Vec Ideal S1x128 .f32) (ix2 (0 : Fin 1) k) = (V c main_v60 : Vec Ideal S1x128 .f32) (ix2 (0 : Fin 1) k) := by
  obtain ⟨-, -, -, -, -, -, -, -, -, -, -, -, e0, e1, -⟩ := idx3 t
  unfold iblk3
  rw [View.read_apply]
  show (V c main_v60 : Vec Ideal S1x128 .f32) _ = _
  refine congrArg (V c main_v60 : Vec Ideal S1x128 .f32) ?_
  funext a; apply Fin.ext
  match a with
  | ⟨0, _⟩ => show win3_6.index t (0 : Fin 2) * 1 + 1 * 0 = 0; omega
  | ⟨1, _⟩ => show win3_6.index t (1 : Fin 2) * 128 + 1 * k.val = k.val; omega

/-- One entry of a written tile: if the two row tiles hold rows i * 10000 + r of h and of m and the weight and
    bias tiles are the whole arrays, the tile program's value at row r is the update table at row i * 10000 + r. -/
theorem tab3_point (A0 A1 : Vec Ideal S400000x128 .f32) (A2 A3 : Vec Ideal S128x128 .f32) (A4 : Vec Ideal S1x128 .f32)
    (A5 : Vec Ideal S128x128 .f32) (A6 : Vec Ideal S1x128 .f32)
    (x0 x1 : Vec Ideal S10000x128 .f32) (x2 x3 : Vec Ideal S128x128 .f32) (x4 : Vec Ideal S1x128 .f32)
    (x5 : Vec Ideal S128x128 .f32) (x6 : Vec Ideal S1x128 .f32) (i : Nat)
    (h0 : ∀ (r : Fin 10000) (j : Fin 128) (J : S400000x128.Idx), (J 0).val = i * 10000 + r.val → (J 1).val = j.val → x0 (ix2 r j) = A0 J)
    (h1 : ∀ (r : Fin 10000) (j : Fin 128) (J : S400000x128.Idx), (J 0).val = i * 10000 + r.val → (J 1).val = j.val → x1 (ix2 r j) = A1 J)
    (h2 : ∀ (j k : Fin 128), x2 (ix2 j k) = A2 (ix2 j k)) (h3 : ∀ (j k : Fin 128), x3 (ix2 j k) = A3 (ix2 j k))
    (h4 : ∀ (k : Fin 128), x4 (ix2 (0 : Fin 1) k) = A4 (ix2 (0 : Fin 1) k))
    (h5 : ∀ (j k : Fin 128), x5 (ix2 j k) = A5 (ix2 j k)) (h6 : ∀ (k : Fin 128), x6 (ix2 (0 : Fin 1) k) = A6 (ix2 (0 : Fin 1) k))
    (r : Fin 10000) (q : Fin 128) (I : S400000x128.Idx)
    (hI0 : (I 0).val = i * 10000 + r.val) (hI1 : (I 1).val = q.val) :
    k3_pay1 (F := Ideal) x0 x1 x2 x3 x4 x5 x6 (ix2 r q) = updC A0 A1 A2 A3 A4 A5 A6 I := by
  rw [Cert.KerRows.pay_upd3]
  unfold updC
  exact upd2_congr (fun j => h0 r j _ hI0 rfl) (fun j => h1 r j _ hI0 rfl) (fun j k => h2 j k) (fun j k => h3 j k)
    (fun k => h4 k) (fun j k => h5 j k) (fun k => h6 k) (Fin.ext hI1.symm)

/-- What point t writes back is its tile of the update table. -/
theorem flushed3_eq (V : (c : Dev nD) → (b : Ref sig .tc) → Buf (Elt Ideal) ((c : Thread nD τ).loc b)) (c : Dev nD) (t : Fin cfg3.N) :
    (dat3 (F := Ideal) V c).flushed 7 t
      = ((cfg3.win 7).blk t).view.read (Elt Ideal)
          (updC (V c main_arg1) (V c main_v35) (V c main_v57) (V c main_v58) (V c main_v59) (V c main_v54) (V c main_v60)) := by
  show (cfg3.win 7).cut (grid3.coords t) ((dat3 V c).after 7 t) = _
  rw [after3_7]
  unfold out3_7
  rw [View.canon_unit_zero hz2]
  simp only [View.ld_unit_zero (S := S10000x128) hz2, View.ld_unit_zero (S := S128x128) hz2, View.ld_unit_zero (S := S1x128) hz2]
  obtain ⟨-, -, -, -, -, -, -, -, -, -, -, -, -, -, e0, e1⟩ := idx3 t
  refine tile_ext fun r q => ?_
  show k3_pay1 (F := Ideal) (iblk3 V c 0 t) (iblk3 V c 1 t) (iblk3 V c 2 t) (iblk3 V c 3 t) (iblk3 V c 4 t) (iblk3 V c 5 t) (iblk3 V c 6 t) (ix2 r q)
      = updC (V c main_arg1) (V c main_v35) (V c main_v57) (V c main_v58) (V c main_v59) (V c main_v54) (V c main_v60)
          (((cfg3.win 7).blk t).view.emb (ix2 r q))
  exact tab3_point (V c main_arg1) (V c main_v35) (V c main_v57) (V c main_v58) (V c main_v59) (V c main_v54) (V c main_v60)
    (iblk3 V c 0 t) (iblk3 V c 1 t) (iblk3 V c 2 t) (iblk3 V c 3 t) (iblk3 V c 4 t) (iblk3 V c 5 t) (iblk3 V c 6 t) t.val
    (fun r j J h0 h1 => rows3_0 V c t r j J h0 h1) (fun r j J h0 h1 => rows3_1 V c t r j J h0 h1)
    (fun j k => whole3_2 V c t j k) (fun j k => whole3_3 V c t j k) (fun k => whole3_4 V c t k)
    (fun j k => whole3_5 V c t j k) (fun k => whole3_6 V c t k) r q (((cfg3.win 7).blk t).view.emb (ix2 r q))
    (by show win3_7.index t (0 : Fin 2) * 10000 + 1 * r.val = t.val * 10000 + r.val; omega)
    (by show win3_7.index t (1 : Fin 2) * 128 + 1 * q.val = q.val; omega)

/-- An index of the output array is in point t's tile iff each coordinate is in the tile's range. -/
theorem mem_blk3 (t : Fin cfg3.N) (i : S400000x128.Idx) :
    i ∈ ((cfg3.win 7).blk t).view.set ↔ ∀ a : Fin 2, win3_7.index t a * S10000x128.size a ≤ (i a).val ∧ (i a).val < win3_7.index t a * S10000x128.size a + S10000x128.size a := by
  show i ∈ ((View.whole main_v61).slice (win3_7.rect t)).set ↔ _
  rw [View.set_slice_whole, Rect.mem_set_unit]
  exact Iff.rfl

/-- Every row of the output lies in the tile of the point row / 10000. -/
theorem cover3 (i : S400000x128.Idx) : ∃ t : Fin cfg3.N, (cfg3.win 7).flush t = true ∧ i ∈ ((cfg3.win 7).blk t).view.set := by
  have h0 : (i 0).val < 400000 := (i 0).isLt
  have h1 : (i 1).val < 128 := (i 1).isLt
  have hN : cfg3.N = 40 := N_3
  let t : Fin cfg3.N := ⟨(i 0).val / 10000, by rw [hN]; omega⟩
  have htv : t.val = (i 0).val / 10000 := rfl
  obtain ⟨-, -, -, -, -, -, -, -, -, -, -, -, -, -, e0, e1⟩ := idx3 t
  refine ⟨t, flush3_7 t, ?_⟩
  rw [mem_blk3]
  intro a
  match a with
  | ⟨0, _⟩ => show win3_7.index t (0 : Fin 2) * 10000 ≤ (i 0).val ∧ (i 0).val < win3_7.index t (0 : Fin 2) * 10000 + 10000; rw [e0, htv]; omega
  | ⟨1, _⟩ => show win3_7.index t (1 : Fin 2) * 128 ≤ (i 1).val ∧ (i 1).val < win3_7.index t (1 : Fin 2) * 128 + 128; rw [e1]; omega

/-- The fourth launch leaves the update network of the clause rows. -/
theorem final3 (V : (c : Dev nD) → (b : Ref sig .tc) → Buf (Elt Ideal) ((c : Thread nD τ).loc b)) (c : Dev nD) :
    (dat3 (F := Ideal) V c).arrAt 7 cfg3.N
      = updC (V c main_arg1) (V c main_v35) (V c main_v57) (V c main_v58) (V c main_v59) (V c main_v54) (V c main_v60) :=
  (dat3 (F := Ideal) V c).arrAt_eq_of_cover 7
    (updC (V c main_arg1) (V c main_v35) (V c main_v57) (V c main_v58) (V c main_v59) (V c main_v54) (V c main_v60))
    (fun t _ => flushed3_eq V c t) cover3

end Cert.KerArr

end
-- ==== Proof.KerHost.lean ====
/-
  What the buffers read by each launch hold after the host stretch before it, on the extended reals.

  Each stretch cuts the stacked weight and bias arrays to the slots its launch uses and views them in the
  shape the launch loads: a cut reads the source at the offset added to the coordinate, and a change of
  view reads the source at the entry with the same row-major position.  So every such buffer, read at an
  entry, is an argument array read at an entry.  The third stretch also forms the two aggregated tables:
  rows gathered at an index column (a negative index wrapped by the table height), widened, and added into
  the zero table at a second index column; each is stated as a whole array against a definition that
  spells that composition out.
-/
import proofs.«148133_j15590731285087_2_alg».proof.Proof.LaunchKI
import Idealize.ShloMosaic.Lib.StableHlo.Run
import Idealize.ShloMosaic.Lib.ValueIdx
import Idealize.ShloMosaic.Lib.ValueLayout
import Idealize.ShloMosaic.Lib.Pipeline.Value

noncomputable section

namespace Cert.KerHost

open Idealize.ShloMosaic Idealize.ShloMosaic.ValueIdx Idealize.ShloMosaic.StableHlo Cert.KernelIdeal Cert.KernelIdeal.Gen

/-! ## Layout steps read at an entry -/

/-- A [4,128,128] array cut to two leading slots from slot o reads (t, j, k) at (s, j, k), t = o + s. -/
theorem slice_w4 {α : Type} (o : Nat) (x : S4x128x128.Idx → α) (h : S4x128x128.Slices ![o, 0, 0] S2x128x128)
    (s : Fin 2) (j k : Fin 128) (t : Fin 4) (ht : t.val = o + s.val) :
    extractStridedSlice S2x128x128 ![o, 0, 0] x h (ix3 s j k) = x (ix3 t j k) :=
  extractStridedSlice_apply ![o, 0, 0] x h (ix3 s j k) (ix3 t j k) fun a => match a with
    | ⟨0, _⟩ => ht
    | ⟨1, _⟩ => by show j.val = 0 + j.val; omega
    | ⟨2, _⟩ => by show k.val = 0 + k.val; omega

/-- A [4,128] array cut to two leading rows from row o reads (t, k) at (s, k), t = o + s. -/
theorem slice_b4 {α : Type} (o : Nat) (x : S4x128.Idx → α) (h : S4x128.Slices ![o, 0] S2x128)
    (s : Fin 2) (k : Fin 128) (t : Fin 4) (ht : t.val = o + s.val) :
    extractStridedSlice S2x128 ![o, 0] x h (ix2 s k) = x (ix2 t k) :=
  extractStridedSlice_apply ![o, 0] x h (ix2 s k) (ix2 t k) fun a => match a with
    | ⟨0, _⟩ => ht
    | ⟨1, _⟩ => by show k.val = 0 + k.val; omega

/-- A [2,128] array viewed as [2,1,128] reads (s, k) at (s, 0, k): both have row-major position 128·s + k. -/
theorem cast_b2 {α : Type} (x : S2x128.Idx → α) (h : S2x128.ShapeCasts S2x1x128) (s : Fin 2) (k : Fin 128) :
    shapeCast S2x1x128 x h (ix3 s (0 : Fin 1) k) = x (ix2 s k) :=
  shapeCast_apply x h (ix3 s (0 : Fin 1) k) (ix2 s k) (by
    rewrite [Shape.rowMajor_val_two, Shape.rowMajor_val_three]
    show s.val * 128 + k.val = (s.val * 1 + 0) * 128 + k.val
    omega)

/-- A [2,256,128] array cut to one leading slot o reads (t, j, k) at (0, j, k), t = o. -/
theorem slice_u2 {α : Type} (o : Nat) (x : S2x256x128.Idx → α) (h : S2x256x128.Slices ![o, 0, 0] S1x256x128)
    (j : Fin 256) (k : Fin 128) (t : Fin 2) (ht : t.val = o) :
    extractStridedSlice S1x256x128 ![o, 0, 0] x h (ix3 (0 : Fin 1) j k) = x (ix3 t j k) :=
  extractStridedSlice_apply ![o, 0, 0] x h (ix3 (0 : Fin 1) j k) (ix3 t j k) fun a => match a with
    | ⟨0, _⟩ => by show t.val = o + 0; omega
    | ⟨1, _⟩ => by show j.val = 0 + j.val; omega
    | ⟨2, _⟩ => by show k.val = 0 + k.val; omega

/-- A [2,128,128] array cut to one leading slot o reads (t, j, k) at (0, j, k), t = o. -/
theorem slice_w2 {α : Type} (o : Nat) (x : S2x128x128.Idx → α) (h : S2x128x128.Slices ![o, 0, 0] S1x128x128)
    (j k : Fin 128) (t : Fin 2) (ht : t.val = o) :
    extractStridedSlice S1x128x128 ![o, 0, 0] x h (ix3 (0 : Fin 1) j k) = x (ix3 t j k) :=
  extractStridedSlice_apply ![o, 0, 0] x h (ix3 (0 : Fin 1) j k) (ix3 t j k) fun a => match a with
    | ⟨0, _⟩ => by show t.val = o + 0; omega
    | ⟨1, _⟩ => by show j.val = 0 + j.val; omega
    | ⟨2, _⟩ => by show k.val = 0 + k.val; omega

/-- A [2,128] array cut to one leading row o reads (t, k) at (0, k), t = o. -/
theorem slice_b2 {α : Type} (o : Nat) (x : S2x128.Idx → α) (h : S2x128.Slices ![o, 0] S1x128)
    (k : Fin 128) (t : Fin 2) (ht : t.val = o) :
    extractStridedSlice S1x128 ![o, 0] x h (ix2 (0 : Fin 1) k) = x (ix2 t k) :=
  extractStridedSlice_apply ![o, 0] x h (ix2 (0 : Fin 1) k) (ix2 t k) fun a => match a with
    | ⟨0, _⟩ => by show t.val = o + 0; omega
    | ⟨1, _⟩ => by show k.val = 0 + k.val; omega

/-- A [256,128] array cut to 128 rows from row o reads (t, k) at (j, k), t = o + j. -/
theorem slice_half {α : Type} (o : Nat) (x : S256x128.Idx → α) (h : S256x128.Slices ![o, 0] S128x128)
    (j k : Fin 128) (t : Fin 256) (ht : t.val = o + j.val) :
    extractStridedSlice S128x128 ![o, 0] x h (ix2 j k) = x (ix2 t k) :=
  extractStridedSlice_apply ![o, 0] x h (ix2 j k) (ix2 t k) fun a => match a with
    | ⟨0, _⟩ => ht
    | ⟨1, _⟩ => by show k.val = 0 + k.val; omega

/-- A [1,256,128] array viewed as [256,128] reads (0, j, k) at (j, k). -/
theorem cast_u {α : Type} (x : S1x256x128.Idx → α) (h : S1x256x128.ShapeCasts S256x128) (j : Fin 256) (k : Fin 128) :
    shapeCast S256x128 x h (ix2 j k) = x (ix3 (0 : Fin 1) j k) := by
  refine (shapeCast_dropUnit_apply ![256, 128] x h (ix2 j k)).trans (congrArg x ?_)
  funext d
  match d with
  | ⟨0, _⟩ => rfl
  | ⟨1, _⟩ => rfl
  | ⟨2, _⟩ => rfl

/-- A [1,128,128] array viewed as [128,128] reads (0, j, k) at (j, k). -/
theorem cast_w1 {α : Type} (x : S1x128x128.Idx → α) (h : S1x128x128.ShapeCasts S128x128) (j k : Fin 128) :
    shapeCast S128x128 x h (ix2 j k) = x (ix3 (0 : Fin 1) j k) := by
  refine (shapeCast_dropUnit_apply ![128, 128] x h (ix2 j k)).trans (congrArg x ?_)
  funext d
  match d with
  | ⟨0, _⟩ => rfl
  | ⟨1, _⟩ => rfl
  | ⟨2, _⟩ => rfl

/-- A [1,128] row viewed as [128] and back as [1,128] is the row. -/
theorem cast_row {α : Type} (x : S1x128.Idx → α) (h : S1x128.ShapeCasts S128) (h' : S128.ShapeCasts S1x128) (k : Fin 128) :
    shapeCast S1x128 (shapeCast S128 x h) h' (ix2 (0 : Fin 1) k) = x (ix2 (0 : Fin 1) k) :=
  congrFun (shapeCast_shapeCast x h h') (ix2 (0 : Fin 1) k)

/-! ## The first stretch: the first two message networks' weights and biases -/

theorem h0_v0 (W : Valuation τ sig (Elt Ideal)) (s : Fin 2) (j k : Fin 128) :
    StableHlo.after hostOps0 W (Proc.devRef .tc main_v0) (ix3 s j k)
      = W (Proc.devRef .tc main_arg6) (ix3 (⟨s.val, by omega⟩ : Fin 4) j k) := by
  after_results
  exact slice_w4 0 _ _ s j k _ (by show s.val = 0 + s.val; omega)

theorem h0_v2 (W : Valuation τ sig (Elt Ideal)) (s : Fin 2) (j k : Fin 128) :
    StableHlo.after hostOps0 W (Proc.devRef .tc main_v2) (ix3 s j k)
      = W (Proc.devRef .tc main_arg8) (ix3 (⟨s.val, by omega⟩ : Fin 4) j k) := by
  after_results
  exact slice_w4 0 _ _ s j k _ (by show s.val = 0 + s.val; omega)

theorem h0_v4 (W : Valuation τ sig (Elt Ideal)) (s : Fin 2) (k : Fin 128) :
    StableHlo.after hostOps0 W (Proc.devRef .tc main_v4) (ix3 s (0 : Fin 1) k)
      = W (Proc.devRef .tc main_arg7) (ix2 (⟨s.val, by omega⟩ : Fin 4) k) := by
  after_results
  exact (cast_b2 _ _ s k).trans (slice_b4 0 _ _ s k _ (by show s.val = 0 + s.val; omega))

theorem h0_v5 (W : Valuation τ sig (Elt Ideal)) (s : Fin 2) (k : Fin 128) :
    StableHlo.after hostOps0 W (Proc.devRef .tc main_v5) (ix3 s (0 : Fin 1) k)
      = W (Proc.devRef .tc main_arg9) (ix2 (⟨s.val, by omega⟩ : Fin 4) k) := by
  after_results
  exact (cast_b2 _ _ s k).trans (slice_b4 0 _ _ s k _ (by show s.val = 0 + s.val; omega))

/-! ## The second stretch: the last two message networks' weights and biases -/

theorem h1_v7 (W : Valuation τ sig (Elt Ideal)) (s : Fin 2) (j k : Fin 128) :
    StableHlo.after hostOps1 W (Proc.devRef .tc main_v7) (ix3 s j k)
      = W (Proc.devRef .tc main_arg6) (ix3 (⟨2 + s.val, by omega⟩ : Fin 4) j k) := by
  after_results
  exact slice_w4 2 _ _ s j k _ rfl

theorem h1_v9 (W : Valuation τ sig (Elt Ideal)) (s : Fin 2) (j k : Fin 128) :
    StableHlo.after hostOps1 W (Proc.devRef .tc main_v9) (ix3 s j k)
      = W (Proc.devRef .tc main_arg8) (ix3 (⟨2 + s.val, by omega⟩ : Fin 4) j k) := by
  after_results
  exact slice_w4 2 _ _ s j k _ rfl

theorem h1_v11 (W : Valuation τ sig (Elt Ideal)) (s : Fin 2) (k : Fin 128) :
    StableHlo.after hostOps1 W (Proc.devRef .tc main_v11) (ix3 s (0 : Fin 1) k)
      = W (Proc.devRef .tc main_arg7) (ix2 (⟨2 + s.val, by omega⟩ : Fin 4) k) := by
  after_results
  exact (cast_b2 _ _ s k).trans (slice_b4 2 _ _ s k _ rfl)

theorem h1_v12 (W : Valuation τ sig (Elt Ideal)) (s : Fin 2) (k : Fin 128) :
    StableHlo.after hostOps1 W (Proc.devRef .tc main_v12) (ix3 s (0 : Fin 1) k)
      = W (Proc.devRef .tc main_arg9) (ix2 (⟨2 + s.val, by omega⟩ : Fin 4) k) := by
  after_results
  exact (cast_b2 _ _ s k).trans (slice_b4 2 _ _ s k _ rfl)

/-! ## The third stretch: the two aggregated tables, and the first update network's weights and biases -/

/-- The table aggregated over the variable nodes: the rows of z gathered at the column indices (a negative index
    wrapped by the table's height), widened, and added into the zero table at the row indices. -/
def aggV (z : Vec Ideal S800000x128 .bf16) (row col : Vec Ideal S1600000 .i32) : Vec Ideal S100000x128 .f32 :=
  Host.scatterAdd scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 row)
    (extf .f32 (Host.gather gather_S800000x128_S1600000x1_S1600000x128_1_0_n_n_0_1_1128 z
      (broadcastInDim S1600000x1 ![0] bcast_S1600000_S1600000x1_0
        (select (cmpi .slt col (broadcastInDim S1600000 ![] bcast_S_S1600000 (constantI S_ 32 0#32)))
          (addi col (broadcastInDim S1600000 ![] bcast_S_S1600000 (constantI S_ 32 800000#32))) col))) bitsLt_bf16_f32)

/-- The table aggregated over the constraint nodes, likewise. -/
def aggC (z : Vec Ideal S200000x128 .bf16) (row col : Vec Ideal S1600000 .i32) : Vec Ideal S400000x128 .f32 :=
  Host.scatterAdd scatter_S400000x128_S1600000x1_S1600000x128_1_0_0_1
    (broadcastInDim S400000x128 ![] bcast_S_S400000x128 (constant (F := Ideal) S_ .f32 0x00000000#32))
    (broadcastInDim S1600000x1 ![0] bcast_S1600000_S1600000x1_0 row)
    (extf .f32 (Host.gather gather_S200000x128_S1600000x1_S1600000x128_1_0_n_n_0_1_1128 z
      (broadcastInDim S1600000x1 ![0] bcast_S1600000_S1600000x1_0
        (select (cmpi .slt col (broadcastInDim S1600000 ![] bcast_S_S1600000 (constantI S_ 32 0#32)))
          (addi col (broadcastInDim S1600000 ![] bcast_S_S1600000 (constantI S_ 32 200000#32))) col))) bitsLt_bf16_f32)

theorem h2_v24 (W : Valuation τ sig (Elt Ideal)) :
    StableHlo.after hostOps2 W (Proc.devRef .tc main_v24)
      = aggV (W (Proc.devRef .tc main_v6)) (W (Proc.devRef .tc main_arg2)) (W (Proc.devRef .tc main_arg3)) := by
  after_results_simp
  rfl

theorem h2_v35 (W : Valuation τ sig (Elt Ideal)) :
    StableHlo.after hostOps2 W (Proc.devRef .tc main_v35)
      = aggC (W (Proc.devRef .tc main_v13)) (W (Proc.devRef .tc main_arg4)) (W (Proc.devRef .tc main_arg5)) := by
  after_results_simp
  rfl

theorem h2_v44 (W : Valuation τ sig (Elt Ideal)) (j k : Fin 128) :
    StableHlo.after hostOps2 W (Proc.devRef .tc main_v44) (ix2 j k)
      = W (Proc.devRef .tc main_arg10) (ix3 (0 : Fin 2) (Fin.castAdd 128 j : Fin (128 + 128)) k) := by
  after_results_simp
  exact (slice_half 0 _ _ j k (Fin.castAdd 128 j) (by show j.val = 0 + j.val; omega)).trans
    ((cast_u _ _ _ k).trans (slice_u2 0 _ _ _ k (0 : Fin 2) rfl))

theorem h2_v45 (W : Valuation τ sig (Elt Ideal)) (j k : Fin 128) :
    StableHlo.after hostOps2 W (Proc.devRef .tc main_v45) (ix2 j k)
      = W (Proc.devRef .tc main_arg10) (ix3 (0 : Fin 2) (Fin.natAdd 128 j : Fin (128 + 128)) k) := by
  after_results_simp
  exact (slice_half 128 _ _ j k (Fin.natAdd 128 j) rfl).trans
    ((cast_u _ _ _ k).trans (slice_u2 0 _ _ _ k (0 : Fin 2) rfl))

theorem h2_v46 (W : Valuation τ sig (Elt Ideal)) (k : Fin 128) :
    StableHlo.after hostOps2 W (Proc.devRef .tc main_v46) (ix2 (0 : Fin 1) k)
      = W (Proc.devRef .tc main_arg11) (ix2 (0 : Fin 2) k) := by
  after_results_simp
  exact (cast_row _ _ _ k).trans (slice_b2 0 _ _ k (0 : Fin 2) rfl)

theorem h2_v41 (W : Valuation τ sig (Elt Ideal)) (j k : Fin 128) :
    StableHlo.after hostOps2 W (Proc.devRef .tc main_v41) (ix2 j k)
      = W (Proc.devRef .tc main_arg12) (ix3 (0 : Fin 2) j k) := by
  after_results_simp
  exact (cast_w1 _ _ j k).trans (slice_w2 0 _ _ j k (0 : Fin 2) rfl)

theorem h2_v47 (W : Valuation τ sig (Elt Ideal)) (k : Fin 128) :
    StableHlo.after hostOps2 W (Proc.devRef .tc main_v47) (ix2 (0 : Fin 1) k)
      = W (Proc.devRef .tc main_arg13) (ix2 (0 : Fin 2) k) := by
  after_results_simp
  exact (cast_row _ _ _ k).trans (slice_b2 0 _ _ k (0 : Fin 2) rfl)

/-! ## The fourth stretch: the second update network's weights and biases -/

theorem h3_v57 (W : Valuation τ sig (Elt Ideal)) (j k : Fin 128) :
    StableHlo.after hostOps3 W (Proc.devRef .tc main_v57) (ix2 j k)
      = W (Proc.devRef .tc main_arg10) (ix3 (1 : Fin 2) (Fin.castAdd 128 j : Fin (128 + 128)) k) := by
  after_results
  exact (slice_half 0 _ _ j k (Fin.castAdd 128 j) (by show j.val = 0 + j.val; omega)).trans
    ((cast_u _ _ _ k).trans (slice_u2 1 _ _ _ k (1 : Fin 2) rfl))

theorem h3_v58 (W : Valuation τ sig (Elt Ideal)) (j k : Fin 128) :
    StableHlo.after hostOps3 W (Proc.devRef .tc main_v58) (ix2 j k)
      = W (Proc.devRef .tc main_arg10) (ix3 (1 : Fin 2) (Fin.natAdd 128 j : Fin (128 + 128)) k) := by
  after_results
  exact (slice_half 128 _ _ j k (Fin.natAdd 128 j) rfl).trans
    ((cast_u _ _ _ k).trans (slice_u2 1 _ _ _ k (1 : Fin 2) rfl))

theorem h3_v59 (W : Valuation τ sig (Elt Ideal)) (k : Fin 128) :
    StableHlo.after hostOps3 W (Proc.devRef .tc main_v59) (ix2 (0 : Fin 1) k)
      = W (Proc.devRef .tc main_arg11) (ix2 (1 : Fin 2) k) := by
  after_results
  exact (cast_row _ _ _ k).trans (slice_b2 1 _ _ k (1 : Fin 2) rfl)

theorem h3_v54 (W : Valuation τ sig (Elt Ideal)) (j k : Fin 128) :
    StableHlo.after hostOps3 W (Proc.devRef .tc main_v54) (ix2 j k)
      = W (Proc.devRef .tc main_arg12) (ix3 (1 : Fin 2) j k) := by
  after_results
  exact (cast_w1 _ _ j k).trans (slice_w2 1 _ _ j k (1 : Fin 2) rfl)

theorem h3_v60 (W : Valuation τ sig (Elt Ideal)) (k : Fin 128) :
    StableHlo.after hostOps3 W (Proc.devRef .tc main_v60) (ix2 (0 : Fin 1) k)
      = W (Proc.devRef .tc main_arg13) (ix2 (1 : Fin 2) k) := by
  after_results
  exact (cast_row _ _ _ k).trans (slice_b2 1 _ _ k (1 : Fin 2) rfl)

end Cert.KerHost

end
-- ==== Proof.RefRows.lean ====
/-
  The plain program's stages read at an entry, on the extended reals.

  Each of the four message networks at row p, feature q is the two-layer network of row p of its input
  with the weights of its slice; the two stacked message tables read row r from the first network
  when r is below the first table's height and from the second otherwise; each update network at
  row p, feature q is the two-layer network of the row h[p] joined with the aggregated row m[p],
  written with the first layer's sum in two halves.

  Every network is read the same way.  A weight matrix is a slice of a three-axis table reshaped to two
  axes: entry (j, k) of the matrix sits at flat position j·128 + k of the slice, whose coordinates are
  again (j, k).  A bias is a row of a two-axis table spread over all rows.  A layer at (p, k) is then the
  sum over j of the input row p at j times the matrix at (j, k), plus the bias at k, compared with zero.
  The update networks read their 256-feature input row from a table joined along the feature axis: its
  first 128 features are the row of h, its last 128 the row of the aggregated table.
-/
import proofs.«148133_j15590731285087_2_alg».proof.Proof.ReadP
import proofs.«148133_j15590731285087_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.RefRows

open Idealize.ShloMosaic Idealize.ShloMosaic.ValueIdx Cert.ReferenceIdeal Cert.ReferenceIdeal.Read

/-- Two indices of a two-axis array with the same coordinates are the same index. -/
theorem idx2_ext {n0 n1 : Nat} {i j : (⟨2, ![n0, n1]⟩ : Shape).Idx} (h0 : (i 0).val = (j 0).val) (h1 : (i 1).val = (j 1).val) :
    i = j :=
  funext fun a => Fin.ext (by match a with | ⟨0, _⟩ => exact h0 | ⟨1, _⟩ => exact h1)

/-! ### The first message network: slice 0 of the weight tables, on the clause rows -/

/-- Its first weight matrix is slice 0 of the first weight table. -/
theorem w1_17 (x6 : (⟨S4x128x128, .f32⟩ : BufTy).Contents (Elt Ideal)) (j k : Fin 128) :
    val_main_v1 (F := Ideal) x6 (ix2 j k) = x6 (ix3 (0 : Fin 4) j k) := by
  rw [val_main_v1_apply, val_main_v0_apply]
  refine congrArg x6 (funext fun a => Fin.ext ?_)
  have hj := j.isLt; have hk := k.isLt
  match a with
  | ⟨0, _⟩ => rfl
  | ⟨1, _⟩ => show (j.val * 128 + k.val) / 128 % 128 = j.val; omega
  | ⟨2, _⟩ => show (j.val * 128 + k.val) % 128 = k.val; omega

/-- Its first bias, spread over the rows, is row 0 of the first bias table. -/
theorem b1_17 (x7 : (⟨S4x128, .f32⟩ : BufTy).Contents (Elt Ideal)) (p : Fin 400000) (k : Fin 128) :
    val_main_v10 (F := Ideal) x7 (ix2 p k) = x7 (ix2 (0 : Fin 4) k) := by
  rw [val_main_v10_apply, val_main_v9_apply, val_main_v3_apply, val_main_v2_apply]
  refine congrArg x7 (funext fun a => Fin.ext ?_)
  have hk := k.isLt
  match a with
  | ⟨0, _⟩ => rfl
  | ⟨1, _⟩ => show k.val % 128 = k.val; omega

/-- Its second weight matrix is slice 0 of the second weight table. -/
theorem w2_17 (x8 : (⟨S4x128x128, .f32⟩ : BufTy).Contents (Elt Ideal)) (j k : Fin 128) :
    val_main_v5 (F := Ideal) x8 (ix2 j k) = x8 (ix3 (0 : Fin 4) j k) := by
  rw [val_main_v5_apply, val_main_v4_apply]
  refine congrArg x8 (funext fun a => Fin.ext ?_)
  have hj := j.isLt; have hk := k.isLt
  match a with
  | ⟨0, _⟩ => rfl
  | ⟨1, _⟩ => show (j.val * 128 + k.val) / 128 % 128 = j.val; omega
  | ⟨2, _⟩ => show (j.val * 128 + k.val) % 128 = k.val; omega

/-- Its second bias, spread over the rows, is row 0 of the second bias table. -/
theorem b2_17 (x9 : (⟨S4x128, .f32⟩ : BufTy).Contents (Elt Ideal)) (p : Fin 400000) (k : Fin 128) :
    val_main_v15 (F := Ideal) x9 (ix2 p k) = x9 (ix2 (0 : Fin 4) k) := by
  rw [val_main_v15_apply, val_main_v14_apply, val_main_v7_apply, val_main_v6_apply]
  refine congrArg x9 (funext fun a => Fin.ext ?_)
  have hk := k.isLt
  match a with
  | ⟨0, _⟩ => rfl
  | ⟨1, _⟩ => show k.val % 128 = k.val; omega

/-- The zero its first rectifier compares with. -/
theorem zeroA_17 (i : S400000x128.Idx) : val_main_call0_v0 (F := Ideal) i = Cert.Spec.z0 := by
  rw [val_main_call0_v0_apply, val_main_call0_cst_apply]; rfl

/-- The zero its second rectifier compares with. -/
theorem zeroB_17 (i : S400000x128.Idx) : val_main_call1_v0 (F := Ideal) i = Cert.Spec.z0 := by
  rw [val_main_call1_v0_apply, val_main_call1_cst_apply]; rfl

/-- Its hidden row at row p: the first layer applied to row p of the input. -/
theorem hid_17 (x1 : (⟨S400000x128, .f32⟩ : BufTy).Contents (Elt Ideal)) (x6 : (⟨S4x128x128, .f32⟩ : BufTy).Contents (Elt Ideal)) (x7 : (⟨S4x128, .f32⟩ : BufTy).Contents (Elt Ideal)) (p : Fin 400000) (k : Fin 128) :
    val_main_v12 (F := Ideal) x1 x6 x7 (ix2 p k)
      = Cert.Spec.layer (fun j => x1 (ix2 p j)) (fun j k => x6 (ix3 (0 : Fin 4) j k)) (fun k => x7 (ix2 (0 : Fin 4) k)) k := by
  rw [val_main_v12_apply, val_main_v11_apply, val_main_v8_apply, b1_17, zeroA_17]
  have e : ∀ j : Fin 128, x1 (lidx_main_v8 (ix2 p k) j) * val_main_v1 (F := Ideal) x6 (ridx_main_v8 (ix2 p k) j)
      = x1 (ix2 p j) * x6 (ix3 (0 : Fin 4) j k) := fun j => by
    rw [show lidx_main_v8 (ix2 p k) j = ix2 p j from idx2_ext rfl rfl,
      show ridx_main_v8 (ix2 p k) j = ix2 j k from idx2_ext rfl rfl, w1_17]
  simp only [e]
  rfl

/-- The first message network (slice 0) on the clause rows. -/
theorem msg17 (x1 : (⟨S400000x128, .f32⟩ : BufTy).Contents (Elt Ideal)) (x6 : (⟨S4x128x128, .f32⟩ : BufTy).Contents (Elt Ideal)) (x7 : (⟨S4x128, .f32⟩ : BufTy).Contents (Elt Ideal))
    (x8 : (⟨S4x128x128, .f32⟩ : BufTy).Contents (Elt Ideal)) (x9 : (⟨S4x128, .f32⟩ : BufTy).Contents (Elt Ideal)) (p : Fin 400000) (q : Fin 128) :
    val_main_v17 (F := Ideal) x1 x6 x7 x8 x9 (ix2 p q)
      = Cert.Spec.mlp2 (fun j => x1 (ix2 p j)) (fun j k => x6 (ix3 (0 : Fin 4) j k)) (fun k => x7 (ix2 (0 : Fin 4) k))
          (fun j k => x8 (ix3 (0 : Fin 4) j k)) (fun k => x9 (ix2 (0 : Fin 4) k)) q := by
  rw [val_main_v17_apply, val_main_v16_apply, val_main_v13_apply, b2_17, zeroB_17]
  have e : ∀ k : Fin 128, val_main_v12 (F := Ideal) x1 x6 x7 (lidx_main_v13 (ix2 p q) k) * val_main_v5 (F := Ideal) x8 (ridx_main_v13 (ix2 p q) k)
      = Cert.Spec.layer (fun j => x1 (ix2 p j)) (fun j k => x6 (ix3 (0 : Fin 4) j k)) (fun k => x7 (ix2 (0 : Fin 4) k)) k * x8 (ix3 (0 : Fin 4) k q) := fun k => by
    rw [show lidx_main_v13 (ix2 p q) k = ix2 p k from idx2_ext rfl rfl,
      show ridx_main_v13 (ix2 p q) k = ix2 k q from idx2_ext rfl rfl, hid_17, w2_17]
  simp only [e]
  rfl

/-! ### The second message network: slice 1 of the weight tables, on the clause rows -/

/-- Its first weight matrix is slice 1 of the first weight table. -/
theorem w1_35 (x6 : (⟨S4x128x128, .f32⟩ : BufTy).Contents (Elt Ideal)) (j k : Fin 128) :
    val_main_v19 (F := Ideal) x6 (ix2 j k) = x6 (ix3 (1 : Fin 4) j k) := by
  rw [val_main_v19_apply, val_main_v18_apply]
  refine congrArg x6 (funext fun a => Fin.ext ?_)
  have hj := j.isLt; have hk := k.isLt
  match a with
  | ⟨0, _⟩ => rfl
  | ⟨1, _⟩ => show (j.val * 128 + k.val) / 128 % 128 = j.val; omega
  | ⟨2, _⟩ => show (j.val * 128 + k.val) % 128 = k.val; omega

/-- Its first bias, spread over the rows, is row 1 of the first bias table. -/
theorem b1_35 (x7 : (⟨S4x128, .f32⟩ : BufTy).Contents (Elt Ideal)) (p : Fin 400000) (k : Fin 128) :
    val_main_v28 (F := Ideal) x7 (ix2 p k) = x7 (ix2 (1 : Fin 4) k) := by
  rw [val_main_v28_apply, val_main_v27_apply, val_main_v21_apply, val_main_v20_apply]
  refine congrArg x7 (funext fun a => Fin.ext ?_)
  have hk := k.isLt
  match a with
  | ⟨0, _⟩ => rfl
  | ⟨1, _⟩ => show k.val % 128 = k.val; omega

/-- Its second weight matrix is slice 1 of the second weight table. -/
theorem w2_35 (x8 : (⟨S4x128x128, .f32⟩ : BufTy).Contents (Elt Ideal)) (j k : Fin 128) :
    val_main_v23 (F := Ideal) x8 (ix2 j k) = x8 (ix3 (1 : Fin 4) j k) := by
  rw [val_main_v23_apply, val_main_v22_apply]
  refine congrArg x8 (funext fun a => Fin.ext ?_)
  have hj := j.isLt; have hk := k.isLt
  match a with
  | ⟨0, _⟩ => rfl
  | ⟨1, _⟩ => show (j.val * 128 + k.val) / 128 % 128 = j.val; omega
  | ⟨2, _⟩ => show (j.val * 128 + k.val) % 128 = k.val; omega

/-- Its second bias, spread over the rows, is row 1 of the second bias table. -/
theorem b2_35 (x9 : (⟨S4x128, .f32⟩ : BufTy).Contents (Elt Ideal)) (p : Fin 400000) (k : Fin 128) :
    val_main_v33 (F := Ideal) x9 (ix2 p k) = x9 (ix2 (1 : Fin 4) k) := by
  rw [val_main_v33_apply, val_main_v32_apply, val_main_v25_apply, val_main_v24_apply]
  refine congrArg x9 (funext fun a => Fin.ext ?_)
  have hk := k.isLt
  match a with
  | ⟨0, _⟩ => rfl
  | ⟨1, _⟩ => show k.val % 128 = k.val; omega

/-- The zero its first rectifier compares with. -/
theorem zeroA_35 (i : S400000x128.Idx) : val_main_call2_v0 (F := Ideal) i = Cert.Spec.z0 := by
  rw [val_main_call2_v0_apply, val_main_call2_cst_apply]; rfl

/-- The zero its second rectifier compares with. -/
theorem zeroB_35 (i : S400000x128.Idx) : val_main_call3_v0 (F := Ideal) i = Cert.Spec.z0 := by
  rw [val_main_call3_v0_apply, val_main_call3_cst_apply]; rfl

/-- Its hidden row at row p: the first layer applied to row p of the input. -/
theorem hid_35 (x1 : (⟨S400000x128, .f32⟩ : BufTy).Contents (Elt Ideal)) (x6 : (⟨S4x128x128, .f32⟩ : BufTy).Contents (Elt Ideal)) (x7 : (⟨S4x128, .f32⟩ : BufTy).Contents (Elt Ideal)) (p : Fin 400000) (k : Fin 128) :
    val_main_v30 (F := Ideal) x1 x6 x7 (ix2 p k)
      = Cert.Spec.layer (fun j => x1 (ix2 p j)) (fun j k => x6 (ix3 (1 : Fin 4) j k)) (fun k => x7 (ix2 (1 : Fin 4) k)) k := by
  rw [val_main_v30_apply, val_main_v29_apply, val_main_v26_apply, b1_35, zeroA_35]
  have e : ∀ j : Fin 128, x1 (lidx_main_v26 (ix2 p k) j) * val_main_v19 (F := Ideal) x6 (ridx_main_v26 (ix2 p k) j)
      = x1 (ix2 p j) * x6 (ix3 (1 : Fin 4) j k) := fun j => by
    rw [show lidx_main_v26 (ix2 p k) j = ix2 p j from idx2_ext rfl rfl,
      show ridx_main_v26 (ix2 p k) j = ix2 j k from idx2_ext rfl rfl, w1_35]
  simp only [e]
  rfl

/-- The second message network (slice 1) on the clause rows. -/
theorem msg35 (x1 : (⟨S400000x128, .f32⟩ : BufTy).Contents (Elt Ideal)) (x6 : (⟨S4x128x128, .f32⟩ : BufTy).Contents (Elt Ideal)) (x7 : (⟨S4x128, .f32⟩ : BufTy).Contents (Elt Ideal))
    (x8 : (⟨S4x128x128, .f32⟩ : BufTy).Contents (Elt Ideal)) (x9 : (⟨S4x128, .f32⟩ : BufTy).Contents (Elt Ideal)) (p : Fin 400000) (q : Fin 128) :
    val_main_v35 (F := Ideal) x1 x6 x7 x8 x9 (ix2 p q)
      = Cert.Spec.mlp2 (fun j => x1 (ix2 p j)) (fun j k => x6 (ix3 (1 : Fin 4) j k)) (fun k => x7 (ix2 (1 : Fin 4) k))
          (fun j k => x8 (ix3 (1 : Fin 4) j k)) (fun k => x9 (ix2 (1 : Fin 4) k)) q := by
  rw [val_main_v35_apply, val_main_v34_apply, val_main_v31_apply, b2_35, zeroB_35]
  have e : ∀ k : Fin 128, val_main_v30 (F := Ideal) x1 x6 x7 (lidx_main_v31 (ix2 p q) k) * val_main_v23 (F := Ideal) x8 (ridx_main_v31 (ix2 p q) k)
      = Cert.Spec.layer (fun j => x1 (ix2 p j)) (fun j k => x6 (ix3 (1 : Fin 4) j k)) (fun k => x7 (ix2 (1 : Fin 4) k)) k * x8 (ix3 (1 : Fin 4) k q) := fun k => by
    rw [show lidx_main_v31 (ix2 p q) k = ix2 p k from idx2_ext rfl rfl,
      show ridx_main_v31 (ix2 p q) k = ix2 k q from idx2_ext rfl rfl, hid_35, w2_35]
  simp only [e]
  rfl

/-! ### The third message network: slice 2 of the weight tables, on the variable rows -/

/-- Its first weight matrix is slice 2 of the first weight table. -/
theorem w1_64 (x6 : (⟨S4x128x128, .f32⟩ : BufTy).Contents (Elt Ideal)) (j k : Fin 128) :
    val_main_v48 (F := Ideal) x6 (ix2 j k) = x6 (ix3 (2 : Fin 4) j k) := by
  rw [val_main_v48_apply, val_main_v47_apply]
  refine congrArg x6 (funext fun a => Fin.ext ?_)
  have hj := j.isLt; have hk := k.isLt
  match a with
  | ⟨0, _⟩ => rfl
  | ⟨1, _⟩ => show (j.val * 128 + k.val) / 128 % 128 = j.val; omega
  | ⟨2, _⟩ => show (j.val * 128 + k.val) % 128 = k.val; omega

/-- Its first bias, spread over the rows, is row 2 of the first bias table. -/
theorem b1_64 (x7 : (⟨S4x128, .f32⟩ : BufTy).Contents (Elt Ideal)) (p : Fin 100000) (k : Fin 128) :
    val_main_v57 (F := Ideal) x7 (ix2 p k) = x7 (ix2 (2 : Fin 4) k) := by
  rw [val_main_v57_apply, val_main_v56_apply, val_main_v50_apply, val_main_v49_apply]
  refine congrArg x7 (funext fun a => Fin.ext ?_)
  have hk := k.isLt
  match a with
  | ⟨0, _⟩ => rfl
  | ⟨1, _⟩ => show k.val % 128 = k.val; omega

/-- Its second weight matrix is slice 2 of the second weight table. -/
theorem w2_64 (x8 : (⟨S4x128x128, .f32⟩ : BufTy).Contents (Elt Ideal)) (j k : Fin 128) :
    val_main_v52 (F := Ideal) x8 (ix2 j k) = x8 (ix3 (2 : Fin 4) j k) := by
  rw [val_main_v52_apply, val_main_v51_apply]
  refine congrArg x8 (funext fun a => Fin.ext ?_)
  have hj := j.isLt; have hk := k.isLt
  match a with
  | ⟨0, _⟩ => rfl
  | ⟨1, _⟩ => show (j.val * 128 + k.val) / 128 % 128 = j.val; omega
  | ⟨2, _⟩ => show (j.val * 128 + k.val) % 128 = k.val; omega

/-- Its second bias, spread over the rows, is row 2 of the second bias table. -/
theorem b2_64 (x9 : (⟨S4x128, .f32⟩ : BufTy).Contents (Elt Ideal)) (p : Fin 100000) (k : Fin 128) :
    val_main_v62 (F := Ideal) x9 (ix2 p k) = x9 (ix2 (2 : Fin 4) k) := by
  rw [val_main_v62_apply, val_main_v61_apply, val_main_v54_apply, val_main_v53_apply]
  refine congrArg x9 (funext fun a => Fin.ext ?_)
  have hk := k.isLt
  match a with
  | ⟨0, _⟩ => rfl
  | ⟨1, _⟩ => show k.val % 128 = k.val; omega

/-- The zero its first rectifier compares with. -/
theorem zeroA_64 (i : S100000x128.Idx) : val_main_call4_v0 (F := Ideal) i = Cert.Spec.z0 := by
  rw [val_main_call4_v0_apply, val_main_call4_cst_apply]; rfl

/-- The zero its second rectifier compares with. -/
theorem zeroB_64 (i : S100000x128.Idx) : val_main_call5_v0 (F := Ideal) i = Cert.Spec.z0 := by
  rw [val_main_call5_v0_apply, val_main_call5_cst_apply]; rfl

/-- Its hidden row at row p: the first layer applied to row p of the input. -/
theorem hid_64 (x0 : (⟨S100000x128, .f32⟩ : BufTy).Contents (Elt Ideal)) (x6 : (⟨S4x128x128, .f32⟩ : BufTy).Contents (Elt Ideal)) (x7 : (⟨S4x128, .f32⟩ : BufTy).Contents (Elt Ideal)) (p : Fin 100000) (k : Fin 128) :
    val_main_v59 (F := Ideal) x0 x6 x7 (ix2 p k)
      = Cert.Spec.layer (fun j => x0 (ix2 p j)) (fun j k => x6 (ix3 (2 : Fin 4) j k)) (fun k => x7 (ix2 (2 : Fin 4) k)) k := by
  rw [val_main_v59_apply, val_main_v58_apply, val_main_v55_apply, b1_64, zeroA_64]
  have e : ∀ j : Fin 128, x0 (lidx_main_v55 (ix2 p k) j) * val_main_v48 (F := Ideal) x6 (ridx_main_v55 (ix2 p k) j)
      = x0 (ix2 p j) * x6 (ix3 (2 : Fin 4) j k) := fun j => by
    rw [show lidx_main_v55 (ix2 p k) j = ix2 p j from idx2_ext rfl rfl,
      show ridx_main_v55 (ix2 p k) j = ix2 j k from idx2_ext rfl rfl, w1_64]
  simp only [e]
  rfl

/-- The third message network (slice 2) on the variable rows. -/
theorem msg64 (x0 : (⟨S100000x128, .f32⟩ : BufTy).Contents (Elt Ideal)) (x6 : (⟨S4x128x128, .f32⟩ : BufTy).Contents (Elt Ideal)) (x7 : (⟨S4x128, .f32⟩ : BufTy).Contents (Elt Ideal))
    (x8 : (⟨S4x128x128, .f32⟩ : BufTy).Contents (Elt Ideal)) (x9 : (⟨S4x128, .f32⟩ : BufTy).Contents (Elt Ideal)) (p : Fin 100000) (q : Fin 128) :
    val_main_v64 (F := Ideal) x0 x6 x7 x8 x9 (ix2 p q)
      = Cert.Spec.mlp2 (fun j => x0 (ix2 p j)) (fun j k => x6 (ix3 (2 : Fin 4) j k)) (fun k => x7 (ix2 (2 : Fin 4) k))
          (fun j k => x8 (ix3 (2 : Fin 4) j k)) (fun k => x9 (ix2 (2 : Fin 4) k)) q := by
  rw [val_main_v64_apply, val_main_v63_apply, val_main_v60_apply, b2_64, zeroB_64]
  have e : ∀ k : Fin 128, val_main_v59 (F := Ideal) x0 x6 x7 (lidx_main_v60 (ix2 p q) k) * val_main_v52 (F := Ideal) x8 (ridx_main_v60 (ix2 p q) k)
      = Cert.Spec.layer (fun j => x0 (ix2 p j)) (fun j k => x6 (ix3 (2 : Fin 4) j k)) (fun k => x7 (ix2 (2 : Fin 4) k)) k * x8 (ix3 (2 : Fin 4) k q) := fun k => by
    rw [show lidx_main_v60 (ix2 p q) k = ix2 p k from idx2_ext rfl rfl,
      show ridx_main_v60 (ix2 p q) k = ix2 k q from idx2_ext rfl rfl, hid_64, w2_64]
  simp only [e]
  rfl

/-! ### The fourth message network: slice 3 of the weight tables, on the variable rows -/

/-- Its first weight matrix is slice 3 of the first weight table. -/
theorem w1_82 (x6 : (⟨S4x128x128, .f32⟩ : BufTy).Contents (Elt Ideal)) (j k : Fin 128) :
    val_main_v66 (F := Ideal) x6 (ix2 j k) = x6 (ix3 (3 : Fin 4) j k) := by
  rw [val_main_v66_apply, val_main_v65_apply]
  refine congrArg x6 (funext fun a => Fin.ext ?_)
  have hj := j.isLt; have hk := k.isLt
  match a with
  | ⟨0, _⟩ => rfl
  | ⟨1, _⟩ => show (j.val * 128 + k.val) / 128 % 128 = j.val; omega
  | ⟨2, _⟩ => show (j.val * 128 + k.val) % 128 = k.val; omega

/-- Its first bias, spread over the rows, is row 3 of the first bias table. -/
theorem b1_82 (x7 : (⟨S4x128, .f32⟩ : BufTy).Contents (Elt Ideal)) (p : Fin 100000) (k : Fin 128) :
    val_main_v75 (F := Ideal) x7 (ix2 p k) = x7 (ix2 (3 : Fin 4) k) := by
  rw [val_main_v75_apply, val_main_v74_apply, val_main_v68_apply, val_main_v67_apply]
  refine congrArg x7 (funext fun a => Fin.ext ?_)
  have hk := k.isLt
  match a with
  | ⟨0, _⟩ => rfl
  | ⟨1, _⟩ => show k.val % 128 = k.val; omega

/-- Its second weight matrix is slice 3 of the second weight table. -/
theorem w2_82 (x8 : (⟨S4x128x128, .f32⟩ : BufTy).Contents (Elt Ideal)) (j k : Fin 128) :
    val_main_v70 (F := Ideal) x8 (ix2 j k) = x8 (ix3 (3 : Fin 4) j k) := by
  rw [val_main_v70_apply, val_main_v69_apply]
  refine congrArg x8 (funext fun a => Fin.ext ?_)
  have hj := j.isLt; have hk := k.isLt
  match a with
  | ⟨0, _⟩ => rfl
  | ⟨1, _⟩ => show (j.val * 128 + k.val) / 128 % 128 = j.val; omega
  | ⟨2, _⟩ => show (j.val * 128 + k.val) % 128 = k.val; omega

/-- Its second bias, spread over the rows, is row 3 of the second bias table. -/
theorem b2_82 (x9 : (⟨S4x128, .f32⟩ : BufTy).Contents (Elt Ideal)) (p : Fin 100000) (k : Fin 128) :
    val_main_v80 (F := Ideal) x9 (ix2 p k) = x9 (ix2 (3 : Fin 4) k) := by
  rw [val_main_v80_apply, val_main_v79_apply, val_main_v72_apply, val_main_v71_apply]
  refine congrArg x9 (funext fun a => Fin.ext ?_)
  have hk := k.isLt
  match a with
  | ⟨0, _⟩ => rfl
  | ⟨1, _⟩ => show k.val % 128 = k.val; omega

/-- The zero its first rectifier compares with. -/
theorem zeroA_82 (i : S100000x128.Idx) : val_main_call6_v0 (F := Ideal) i = Cert.Spec.z0 := by
  rw [val_main_call6_v0_apply, val_main_call6_cst_apply]; rfl

/-- The zero its second rectifier compares with. -/
theorem zeroB_82 (i : S100000x128.Idx) : val_main_call7_v0 (F := Ideal) i = Cert.Spec.z0 := by
  rw [val_main_call7_v0_apply, val_main_call7_cst_apply]; rfl

/-- Its hidden row at row p: the first layer applied to row p of the input. -/
theorem hid_82 (x0 : (⟨S100000x128, .f32⟩ : BufTy).Contents (Elt Ideal)) (x6 : (⟨S4x128x128, .f32⟩ : BufTy).Contents (Elt Ideal)) (x7 : (⟨S4x128, .f32⟩ : BufTy).Contents (Elt Ideal)) (p : Fin 100000) (k : Fin 128) :
    val_main_v77 (F := Ideal) x0 x6 x7 (ix2 p k)
      = Cert.Spec.layer (fun j => x0 (ix2 p j)) (fun j k => x6 (ix3 (3 : Fin 4) j k)) (fun k => x7 (ix2 (3 : Fin 4) k)) k := by
  rw [val_main_v77_apply, val_main_v76_apply, val_main_v73_apply, b1_82, zeroA_82]
  have e : ∀ j : Fin 128, x0 (lidx_main_v73 (ix2 p k) j) * val_main_v66 (F := Ideal) x6 (ridx_main_v73 (ix2 p k) j)
      = x0 (ix2 p j) * x6 (ix3 (3 : Fin 4) j k) := fun j => by
    rw [show lidx_main_v73 (ix2 p k) j = ix2 p j from idx2_ext rfl rfl,
      show ridx_main_v73 (ix2 p k) j = ix2 j k from idx2_ext rfl rfl, w1_82]
  simp only [e]
  rfl

/-- The fourth message network (slice 3) on the variable rows. -/
theorem msg82 (x0 : (⟨S100000x128, .f32⟩ : BufTy).Contents (Elt Ideal)) (x6 : (⟨S4x128x128, .f32⟩ : BufTy).Contents (Elt Ideal)) (x7 : (⟨S4x128, .f32⟩ : BufTy).Contents (Elt Ideal))
    (x8 : (⟨S4x128x128, .f32⟩ : BufTy).Contents (Elt Ideal)) (x9 : (⟨S4x128, .f32⟩ : BufTy).Contents (Elt Ideal)) (p : Fin 100000) (q : Fin 128) :
    val_main_v82 (F := Ideal) x0 x6 x7 x8 x9 (ix2 p q)
      = Cert.Spec.mlp2 (fun j => x0 (ix2 p j)) (fun j k => x6 (ix3 (3 : Fin 4) j k)) (fun k => x7 (ix2 (3 : Fin 4) k))
          (fun j k => x8 (ix3 (3 : Fin 4) j k)) (fun k => x9 (ix2 (3 : Fin 4) k)) q := by
  rw [val_main_v82_apply, val_main_v81_apply, val_main_v78_apply, b2_82, zeroB_82]
  have e : ∀ k : Fin 128, val_main_v77 (F := Ideal) x0 x6 x7 (lidx_main_v78 (ix2 p q) k) * val_main_v70 (F := Ideal) x8 (ridx_main_v78 (ix2 p q) k)
      = Cert.Spec.layer (fun j => x0 (ix2 p j)) (fun j k => x6 (ix3 (3 : Fin 4) j k)) (fun k => x7 (ix2 (3 : Fin 4) k)) k * x8 (ix3 (3 : Fin 4) k q) := fun k => by
    rw [show lidx_main_v78 (ix2 p q) k = ix2 p k from idx2_ext rfl rfl,
      show ridx_main_v78 (ix2 p q) k = ix2 k q from idx2_ext rfl rfl, hid_82, w2_82]
  simp only [e]
  rfl

/-! ### The stacked message tables -/

/-- The stacked table of the first two networks: row r comes from the first below 400000, else from the second. -/
theorem cat36 (x1 : (⟨S400000x128, .f32⟩ : BufTy).Contents (Elt Ideal)) (x6 : (⟨S4x128x128, .f32⟩ : BufTy).Contents (Elt Ideal)) (x7 : (⟨S4x128, .f32⟩ : BufTy).Contents (Elt Ideal))
    (x8 : (⟨S4x128x128, .f32⟩ : BufTy).Contents (Elt Ideal)) (x9 : (⟨S4x128, .f32⟩ : BufTy).Contents (Elt Ideal)) (r : Fin 800000) (q : Fin 128) :
    val_main_v36 (F := Ideal) x1 x6 x7 x8 x9 (ix2 r q)
      = if h : r.val < 400000 then val_main_v17 (F := Ideal) x1 x6 x7 x8 x9 (ix2 (⟨r.val, h⟩ : Fin 400000) q)
        else val_main_v35 (F := Ideal) x1 x6 x7 x8 x9 (ix2 (⟨r.val - 400000, by have := r.isLt; omega⟩ : Fin 400000) q) := by
  unfold val_main_v36
  by_cases h : r.val < 400000
  · rw [dif_pos h]
    refine concatenate_pair_apply_left (t := S800000x128) (s₁ := S400000x128) (s₂ := S400000x128) _ _ _ _ _ rfl _ (fun b => ?_)
    match b with
    | ⟨0, _⟩ => rfl
    | ⟨1, _⟩ => rfl
  · rw [dif_neg h]
    refine concatenate_pair_apply_right (t := S800000x128) (s₁ := S400000x128) (s₂ := S400000x128) _ _ _ _ _ rfl rfl _ (fun b hb => ?_) ?_
    · match b, hb with
      | ⟨0, _⟩, hb => exact absurd rfl hb
      | ⟨1, _⟩, _ => rfl
    · show r.val - 400000 + 400000 = r.val
      omega

/-- The stacked table of the last two networks: row r comes from the third below 100000, else from the fourth. -/
theorem cat83 (x0 : (⟨S100000x128, .f32⟩ : BufTy).Contents (Elt Ideal)) (x6 : (⟨S4x128x128, .f32⟩ : BufTy).Contents (Elt Ideal)) (x7 : (⟨S4x128, .f32⟩ : BufTy).Contents (Elt Ideal))
    (x8 : (⟨S4x128x128, .f32⟩ : BufTy).Contents (Elt Ideal)) (x9 : (⟨S4x128, .f32⟩ : BufTy).Contents (Elt Ideal)) (r : Fin 200000) (q : Fin 128) :
    val_main_v83 (F := Ideal) x0 x6 x7 x8 x9 (ix2 r q)
      = if h : r.val < 100000 then val_main_v64 (F := Ideal) x0 x6 x7 x8 x9 (ix2 (⟨r.val, h⟩ : Fin 100000) q)
        else val_main_v82 (F := Ideal) x0 x6 x7 x8 x9 (ix2 (⟨r.val - 100000, by have := r.isLt; omega⟩ : Fin 100000) q) := by
  unfold val_main_v83
  by_cases h : r.val < 100000
  · rw [dif_pos h]
    refine concatenate_pair_apply_left (t := S200000x128) (s₁ := S100000x128) (s₂ := S100000x128) _ _ _ _ _ rfl _ (fun b => ?_)
    match b with
    | ⟨0, _⟩ => rfl
    | ⟨1, _⟩ => rfl
  · rw [dif_neg h]
    refine concatenate_pair_apply_right (t := S200000x128) (s₁ := S100000x128) (s₂ := S100000x128) _ _ _ _ _ rfl rfl _ (fun b hb => ?_) ?_
    · match b, hb with
      | ⟨0, _⟩, hb => exact absurd rfl hb
      | ⟨1, _⟩, _ => rfl
    · show r.val - 100000 + 100000 = r.val
      omega

/-! ### The update network of the variable rows: slice 0 of the update tables -/

/-- The joined table at row p: the row of the input followed by the row of the aggregated table. -/
theorem cat94 (x0 : (⟨S100000x128, .f32⟩ : BufTy).Contents (Elt Ideal)) (x1 : (⟨S400000x128, .f32⟩ : BufTy).Contents (Elt Ideal)) (x2 x3 : (⟨S1600000, .i32⟩ : BufTy).Contents (Elt Ideal))
    (x6 : (⟨S4x128x128, .f32⟩ : BufTy).Contents (Elt Ideal)) (x7 : (⟨S4x128, .f32⟩ : BufTy).Contents (Elt Ideal)) (x8 : (⟨S4x128x128, .f32⟩ : BufTy).Contents (Elt Ideal)) (x9 : (⟨S4x128, .f32⟩ : BufTy).Contents (Elt Ideal)) (p : Fin 100000) (j : Fin (128 + 128)) :
    val_main_v94 (F := Ideal) x0 x1 x2 x3 x6 x7 x8 x9 (ix2 p j)
      = Fin.append (fun j => x0 (ix2 p j)) (fun j => val_main_v46 (F := Ideal) x1 x2 x3 x6 x7 x8 x9 (ix2 p j)) j := by
  unfold val_main_v94
  induction j using Fin.addCases with
  | left j =>
    rw [Fin.append_left]
    refine concatenate_pair_apply_left (t := S100000x256) (s₁ := S100000x128) (s₂ := S100000x128) _ _ _ _ _ rfl (ix2 p j) (fun b => ?_)
    match b with
    | ⟨0, _⟩ => rfl
    | ⟨1, _⟩ => rfl
  | right j =>
    rw [Fin.append_right]
    refine concatenate_pair_apply_right (t := S100000x256) (s₁ := S100000x128) (s₂ := S100000x128) _ _ _ _ _ rfl rfl (ix2 p j) (fun b hb => ?_) ?_
    · match b, hb with
      | ⟨0, _⟩, _ => rfl
      | ⟨1, _⟩, hb => exact absurd rfl hb
    · show j.val + 128 = 128 + j.val
      omega

/-- Its first weight matrix, 256 rows, is slice 0 of the first update table. -/
theorem w1_112 (x10 : (⟨S2x256x128, .f32⟩ : BufTy).Contents (Elt Ideal)) (j : Fin (128 + 128)) (k : Fin 128) :
    val_main_v96 (F := Ideal) x10 (ix2 j k) = x10 (ix3 (0 : Fin 2) j k) := by
  rw [val_main_v96_apply, val_main_v95_apply]
  refine congrArg x10 (funext fun a => Fin.ext ?_)
  have hj : j.val < 256 := j.isLt
  have hk := k.isLt
  match a with
  | ⟨0, _⟩ => rfl
  | ⟨1, _⟩ => show (j.val * 128 + k.val) / 128 % 256 = j.val; omega
  | ⟨2, _⟩ => show (j.val * 128 + k.val) % 128 = k.val; omega

/-- Its first bias, spread over the rows, is row 0 of the first update bias table. -/
theorem b1_112 (x11 : (⟨S2x128, .f32⟩ : BufTy).Contents (Elt Ideal)) (p : Fin 100000) (k : Fin 128) :
    val_main_v105 (F := Ideal) x11 (ix2 p k) = x11 (ix2 (0 : Fin 2) k) := by
  rw [val_main_v105_apply, val_main_v104_apply, val_main_v98_apply, val_main_v97_apply]
  refine congrArg x11 (funext fun a => Fin.ext ?_)
  have hk := k.isLt
  match a with
  | ⟨0, _⟩ => rfl
  | ⟨1, _⟩ => show k.val % 128 = k.val; omega

/-- Its second weight matrix is slice 0 of the second update table. -/
theorem w2_112 (x12 : (⟨S2x128x128, .f32⟩ : BufTy).Contents (Elt Ideal)) (j k : Fin 128) :
    val_main_v100 (F := Ideal) x12 (ix2 j k) = x12 (ix3 (0 : Fin 2) j k) := by
  rw [val_main_v100_apply, val_main_v99_apply]
  refine congrArg x12 (funext fun a => Fin.ext ?_)
  have hj := j.isLt; have hk := k.isLt
  match a with
  | ⟨0, _⟩ => rfl
  | ⟨1, _⟩ => show (j.val * 128 + k.val) / 128 % 128 = j.val; omega
  | ⟨2, _⟩ => show (j.val * 128 + k.val) % 128 = k.val; omega

/-- Its second bias, spread over the rows, is row 0 of the second update bias table. -/
theorem b2_112 (x13 : (⟨S2x128, .f32⟩ : BufTy).Contents (Elt Ideal)) (p : Fin 100000) (k : Fin 128) :
    val_main_v110 (F := Ideal) x13 (ix2 p k) = x13 (ix2 (0 : Fin 2) k) := by
  rw [val_main_v110_apply, val_main_v109_apply, val_main_v102_apply, val_main_v101_apply]
  refine congrArg x13 (funext fun a => Fin.ext ?_)
  have hk := k.isLt
  match a with
  | ⟨0, _⟩ => rfl
  | ⟨1, _⟩ => show k.val % 128 = k.val; omega

/-- The zero its first rectifier compares with. -/
theorem zeroA_112 (i : S100000x128.Idx) : val_main_call8_v0 (F := Ideal) i = Cert.Spec.z0 := by
  rw [val_main_call8_v0_apply, val_main_call8_cst_apply]; rfl

/-- The zero its second rectifier compares with. -/
theorem zeroB_112 (i : S100000x128.Idx) : val_main_call9_v0 (F := Ideal) i = Cert.Spec.z0 := by
  rw [val_main_call9_v0_apply, val_main_call9_cst_apply]; rfl

/-- Its hidden row at row p: the first layer applied to the joined row. -/
theorem hid_112 (x0 : (⟨S100000x128, .f32⟩ : BufTy).Contents (Elt Ideal)) (x1 : (⟨S400000x128, .f32⟩ : BufTy).Contents (Elt Ideal)) (x2 x3 : (⟨S1600000, .i32⟩ : BufTy).Contents (Elt Ideal))
    (x6 : (⟨S4x128x128, .f32⟩ : BufTy).Contents (Elt Ideal)) (x7 : (⟨S4x128, .f32⟩ : BufTy).Contents (Elt Ideal)) (x8 : (⟨S4x128x128, .f32⟩ : BufTy).Contents (Elt Ideal)) (x9 : (⟨S4x128, .f32⟩ : BufTy).Contents (Elt Ideal))
    (x10 : (⟨S2x256x128, .f32⟩ : BufTy).Contents (Elt Ideal)) (x11 : (⟨S2x128, .f32⟩ : BufTy).Contents (Elt Ideal)) (p : Fin 100000) (k : Fin 128) :
    val_main_v107 (F := Ideal) x0 x1 x2 x3 x6 x7 x8 x9 x10 x11 (ix2 p k)
      = Cert.Spec.layer (Fin.append (fun j => x0 (ix2 p j)) (fun j => val_main_v46 (F := Ideal) x1 x2 x3 x6 x7 x8 x9 (ix2 p j)))
          (fun (j : Fin (128 + 128)) k => x10 (ix3 (0 : Fin 2) j k)) (fun k => x11 (ix2 (0 : Fin 2) k)) k := by
  rw [val_main_v107_apply, val_main_v106_apply, val_main_v103_apply, b1_112, zeroA_112]
  have e : ∀ j : Fin 256, val_main_v94 (F := Ideal) x0 x1 x2 x3 x6 x7 x8 x9 (lidx_main_v103 (ix2 p k) j) * val_main_v96 (F := Ideal) x10 (ridx_main_v103 (ix2 p k) j)
      = (Fin.append (fun j => x0 (ix2 p j)) (fun j => val_main_v46 (F := Ideal) x1 x2 x3 x6 x7 x8 x9 (ix2 p j))) j * x10 (ix3 (0 : Fin 2) j k) := fun j => by
    rw [show lidx_main_v103 (ix2 p k) j = ix2 p j from idx2_ext rfl rfl,
      show ridx_main_v103 (ix2 p k) j = ix2 j k from idx2_ext rfl rfl, cat94, w1_112]
  simp only [e]
  rfl

/-- The update network of the variable rows, with the aggregated table left as the stage that computes it. -/
theorem upd112 (x0 : (⟨S100000x128, .f32⟩ : BufTy).Contents (Elt Ideal)) (x1 : (⟨S400000x128, .f32⟩ : BufTy).Contents (Elt Ideal)) (x2 x3 : (⟨S1600000, .i32⟩ : BufTy).Contents (Elt Ideal))
    (x6 : (⟨S4x128x128, .f32⟩ : BufTy).Contents (Elt Ideal)) (x7 : (⟨S4x128, .f32⟩ : BufTy).Contents (Elt Ideal)) (x8 : (⟨S4x128x128, .f32⟩ : BufTy).Contents (Elt Ideal)) (x9 : (⟨S4x128, .f32⟩ : BufTy).Contents (Elt Ideal))
    (x10 : (⟨S2x256x128, .f32⟩ : BufTy).Contents (Elt Ideal)) (x11 : (⟨S2x128, .f32⟩ : BufTy).Contents (Elt Ideal)) (x12 : (⟨S2x128x128, .f32⟩ : BufTy).Contents (Elt Ideal)) (x13 : (⟨S2x128, .f32⟩ : BufTy).Contents (Elt Ideal))
    (p : Fin 100000) (q : Fin 128) :
    val_main_v112 (F := Ideal) x0 x1 x2 x3 x6 x7 x8 x9 x10 x11 x12 x13 (ix2 p q)
      = Cert.Spec.upd2 (fun j => x0 (ix2 p j)) (fun j => val_main_v46 (F := Ideal) x1 x2 x3 x6 x7 x8 x9 (ix2 p j))
          (fun j k => x10 (ix3 (0 : Fin 2) (Fin.castAdd 128 j : Fin (128 + 128)) k))
          (fun j k => x10 (ix3 (0 : Fin 2) (Fin.natAdd 128 j : Fin (128 + 128)) k))
          (fun k => x11 (ix2 (0 : Fin 2) k)) (fun j k => x12 (ix3 (0 : Fin 2) j k)) (fun k => x13 (ix2 (0 : Fin 2) k)) q := by
  rw [val_main_v112_apply, val_main_v111_apply, val_main_v108_apply, b2_112, zeroB_112]
  have e : ∀ k : Fin 128, val_main_v107 (F := Ideal) x0 x1 x2 x3 x6 x7 x8 x9 x10 x11 (lidx_main_v108 (ix2 p q) k) * val_main_v100 (F := Ideal) x12 (ridx_main_v108 (ix2 p q) k)
      = Cert.Spec.layer (Fin.append (fun j => x0 (ix2 p j)) (fun j => val_main_v46 (F := Ideal) x1 x2 x3 x6 x7 x8 x9 (ix2 p j)))
          (fun (j : Fin (128 + 128)) k => x10 (ix3 (0 : Fin 2) j k)) (fun k => x11 (ix2 (0 : Fin 2) k)) k * x12 (ix3 (0 : Fin 2) k q) := fun k => by
    rw [show lidx_main_v108 (ix2 p q) k = ix2 p k from idx2_ext rfl rfl,
      show ridx_main_v108 (ix2 p q) k = ix2 k q from idx2_ext rfl rfl, hid_112, w2_112]
  simp only [e]
  exact Cert.Spec.updCat_eq (fun j => x0 (ix2 p j)) (fun j => val_main_v46 (F := Ideal) x1 x2 x3 x6 x7 x8 x9 (ix2 p j))
    (fun (j : Fin (128 + 128)) k => x10 (ix3 (0 : Fin 2) j k)) (fun k => x11 (ix2 (0 : Fin 2) k)) (fun j k => x12 (ix3 (0 : Fin 2) j k)) (fun k => x13 (ix2 (0 : Fin 2) k)) q

/-! ### The update network of the clause rows: slice 1 of the update tables -/

/-- The joined table at row p: the row of the input followed by the row of the aggregated table. -/
theorem cat113 (x0 : (⟨S100000x128, .f32⟩ : BufTy).Contents (Elt Ideal)) (x1 : (⟨S400000x128, .f32⟩ : BufTy).Contents (Elt Ideal)) (x4 x5 : (⟨S1600000, .i32⟩ : BufTy).Contents (Elt Ideal))
    (x6 : (⟨S4x128x128, .f32⟩ : BufTy).Contents (Elt Ideal)) (x7 : (⟨S4x128, .f32⟩ : BufTy).Contents (Elt Ideal)) (x8 : (⟨S4x128x128, .f32⟩ : BufTy).Contents (Elt Ideal)) (x9 : (⟨S4x128, .f32⟩ : BufTy).Contents (Elt Ideal)) (p : Fin 400000) (j : Fin (128 + 128)) :
    val_main_v113 (F := Ideal) x0 x1 x4 x5 x6 x7 x8 x9 (ix2 p j)
      = Fin.append (fun j => x1 (ix2 p j)) (fun j => val_main_v93 (F := Ideal) x0 x4 x5 x6 x7 x8 x9 (ix2 p j)) j := by
  unfold val_main_v113
  induction j using Fin.addCases with
  | left j =>
    rw [Fin.append_left]
    refine concatenate_pair_apply_left (t := S400000x256) (s₁ := S400000x128) (s₂ := S400000x128) _ _ _ _ _ rfl (ix2 p j) (fun b => ?_)
    match b with
    | ⟨0, _⟩ => rfl
    | ⟨1, _⟩ => rfl
  | right j =>
    rw [Fin.append_right]
    refine concatenate_pair_apply_right (t := S400000x256) (s₁ := S400000x128) (s₂ := S400000x128) _ _ _ _ _ rfl rfl (ix2 p j) (fun b hb => ?_) ?_
    · match b, hb with
      | ⟨0, _⟩, _ => rfl
      | ⟨1, _⟩, hb => exact absurd rfl hb
    · show j.val + 128 = 128 + j.val
      omega

/-- Its first weight matrix, 256 rows, is slice 1 of the first update table. -/
theorem w1_131 (x10 : (⟨S2x256x128, .f32⟩ : BufTy).Contents (Elt Ideal)) (j : Fin (128 + 128)) (k : Fin 128) :
    val_main_v115 (F := Ideal) x10 (ix2 j k) = x10 (ix3 (1 : Fin 2) j k) := by
  rw [val_main_v115_apply, val_main_v114_apply]
  refine congrArg x10 (funext fun a => Fin.ext ?_)
  have hj : j.val < 256 := j.isLt
  have hk := k.isLt
  match a with
  | ⟨0, _⟩ => rfl
  | ⟨1, _⟩ => show (j.val * 128 + k.val) / 128 % 256 = j.val; omega
  | ⟨2, _⟩ => show (j.val * 128 + k.val) % 128 = k.val; omega

/-- Its first bias, spread over the rows, is row 1 of the first update bias table. -/
theorem b1_131 (x11 : (⟨S2x128, .f32⟩ : BufTy).Contents (Elt Ideal)) (p : Fin 400000) (k : Fin 128) :
    val_main_v124 (F := Ideal) x11 (ix2 p k) = x11 (ix2 (1 : Fin 2) k) := by
  rw [val_main_v124_apply, val_main_v123_apply, val_main_v117_apply, val_main_v116_apply]
  refine congrArg x11 (funext fun a => Fin.ext ?_)
  have hk := k.isLt
  match a with
  | ⟨0, _⟩ => rfl
  | ⟨1, _⟩ => show k.val % 128 = k.val; omega

/-- Its second weight matrix is slice 1 of the second update table. -/
theorem w2_131 (x12 : (⟨S2x128x128, .f32⟩ : BufTy).Contents (Elt Ideal)) (j k : Fin 128) :
    val_main_v119 (F := Ideal) x12 (ix2 j k) = x12 (ix3 (1 : Fin 2) j k) := by
  rw [val_main_v119_apply, val_main_v118_apply]
  refine congrArg x12 (funext fun a => Fin.ext ?_)
  have hj := j.isLt; have hk := k.isLt
  match a with
  | ⟨0, _⟩ => rfl
  | ⟨1, _⟩ => show (j.val * 128 + k.val) / 128 % 128 = j.val; omega
  | ⟨2, _⟩ => show (j.val * 128 + k.val) % 128 = k.val; omega

/-- Its second bias, spread over the rows, is row 1 of the second update bias table. -/
theorem b2_131 (x13 : (⟨S2x128, .f32⟩ : BufTy).Contents (Elt Ideal)) (p : Fin 400000) (k : Fin 128) :
    val_main_v129 (F := Ideal) x13 (ix2 p k) = x13 (ix2 (1 : Fin 2) k) := by
  rw [val_main_v129_apply, val_main_v128_apply, val_main_v121_apply, val_main_v120_apply]
  refine congrArg x13 (funext fun a => Fin.ext ?_)
  have hk := k.isLt
  match a with
  | ⟨0, _⟩ => rfl
  | ⟨1, _⟩ => show k.val % 128 = k.val; omega

/-- The zero its first rectifier compares with. -/
theorem zeroA_131 (i : S400000x128.Idx) : val_main_call10_v0 (F := Ideal) i = Cert.Spec.z0 := by
  rw [val_main_call10_v0_apply, val_main_call10_cst_apply]; rfl

/-- The zero its second rectifier compares with. -/
theorem zeroB_131 (i : S400000x128.Idx) : val_main_call11_v0 (F := Ideal) i = Cert.Spec.z0 := by
  rw [val_main_call11_v0_apply, val_main_call11_cst_apply]; rfl

/-- Its hidden row at row p: the first layer applied to the joined row. -/
theorem hid_131 (x0 : (⟨S100000x128, .f32⟩ : BufTy).Contents (Elt Ideal)) (x1 : (⟨S400000x128, .f32⟩ : BufTy).Contents (Elt Ideal)) (x4 x5 : (⟨S1600000, .i32⟩ : BufTy).Contents (Elt Ideal))
    (x6 : (⟨S4x128x128, .f32⟩ : BufTy).Contents (Elt Ideal)) (x7 : (⟨S4x128, .f32⟩ : BufTy).Contents (Elt Ideal)) (x8 : (⟨S4x128x128, .f32⟩ : BufTy).Contents (Elt Ideal)) (x9 : (⟨S4x128, .f32⟩ : BufTy).Contents (Elt Ideal))
    (x10 : (⟨S2x256x128, .f32⟩ : BufTy).Contents (Elt Ideal)) (x11 : (⟨S2x128, .f32⟩ : BufTy).Contents (Elt Ideal)) (p : Fin 400000) (k : Fin 128) :
    val_main_v126 (F := Ideal) x0 x1 x4 x5 x6 x7 x8 x9 x10 x11 (ix2 p k)
      = Cert.Spec.layer (Fin.append (fun j => x1 (ix2 p j)) (fun j => val_main_v93 (F := Ideal) x0 x4 x5 x6 x7 x8 x9 (ix2 p j)))
          (fun (j : Fin (128 + 128)) k => x10 (ix3 (1 : Fin 2) j k)) (fun k => x11 (ix2 (1 : Fin 2) k)) k := by
  rw [val_main_v126_apply, val_main_v125_apply, val_main_v122_apply, b1_131, zeroA_131]
  have e : ∀ j : Fin 256, val_main_v113 (F := Ideal) x0 x1 x4 x5 x6 x7 x8 x9 (lidx_main_v122 (ix2 p k) j) * val_main_v115 (F := Ideal) x10 (ridx_main_v122 (ix2 p k) j)
      = (Fin.append (fun j => x1 (ix2 p j)) (fun j => val_main_v93 (F := Ideal) x0 x4 x5 x6 x7 x8 x9 (ix2 p j))) j * x10 (ix3 (1 : Fin 2) j k) := fun j => by
    rw [show lidx_main_v122 (ix2 p k) j = ix2 p j from idx2_ext rfl rfl,
      show ridx_main_v122 (ix2 p k) j = ix2 j k from idx2_ext rfl rfl, cat113, w1_131]
  simp only [e]
  rfl

/-- The update network of the clause rows, with the aggregated table left as the stage that computes it. -/
theorem upd131 (x0 : (⟨S100000x128, .f32⟩ : BufTy).Contents (Elt Ideal)) (x1 : (⟨S400000x128, .f32⟩ : BufTy).Contents (Elt Ideal)) (x4 x5 : (⟨S1600000, .i32⟩ : BufTy).Contents (Elt Ideal))
    (x6 : (⟨S4x128x128, .f32⟩ : BufTy).Contents (Elt Ideal)) (x7 : (⟨S4x128, .f32⟩ : BufTy).Contents (Elt Ideal)) (x8 : (⟨S4x128x128, .f32⟩ : BufTy).Contents (Elt Ideal)) (x9 : (⟨S4x128, .f32⟩ : BufTy).Contents (Elt Ideal))
    (x10 : (⟨S2x256x128, .f32⟩ : BufTy).Contents (Elt Ideal)) (x11 : (⟨S2x128, .f32⟩ : BufTy).Contents (Elt Ideal)) (x12 : (⟨S2x128x128, .f32⟩ : BufTy).Contents (Elt Ideal)) (x13 : (⟨S2x128, .f32⟩ : BufTy).Contents (Elt Ideal))
    (p : Fin 400000) (q : Fin 128) :
    val_main_v131 (F := Ideal) x0 x1 x4 x5 x6 x7 x8 x9 x10 x11 x12 x13 (ix2 p q)
      = Cert.Spec.upd2 (fun j => x1 (ix2 p j)) (fun j => val_main_v93 (F := Ideal) x0 x4 x5 x6 x7 x8 x9 (ix2 p j))
          (fun j k => x10 (ix3 (1 : Fin 2) (Fin.castAdd 128 j : Fin (128 + 128)) k))
          (fun j k => x10 (ix3 (1 : Fin 2) (Fin.natAdd 128 j : Fin (128 + 128)) k))
          (fun k => x11 (ix2 (1 : Fin 2) k)) (fun j k => x12 (ix3 (1 : Fin 2) j k)) (fun k => x13 (ix2 (1 : Fin 2) k)) q := by
  rw [val_main_v131_apply, val_main_v130_apply, val_main_v127_apply, b2_131, zeroB_131]
  have e : ∀ k : Fin 128, val_main_v126 (F := Ideal) x0 x1 x4 x5 x6 x7 x8 x9 x10 x11 (lidx_main_v127 (ix2 p q) k) * val_main_v119 (F := Ideal) x12 (ridx_main_v127 (ix2 p q) k)
      = Cert.Spec.layer (Fin.append (fun j => x1 (ix2 p j)) (fun j => val_main_v93 (F := Ideal) x0 x4 x5 x6 x7 x8 x9 (ix2 p j)))
          (fun (j : Fin (128 + 128)) k => x10 (ix3 (1 : Fin 2) j k)) (fun k => x11 (ix2 (1 : Fin 2) k)) k * x12 (ix3 (1 : Fin 2) k q) := fun k => by
    rw [show lidx_main_v127 (ix2 p q) k = ix2 p k from idx2_ext rfl rfl,
      show ridx_main_v127 (ix2 p q) k = ix2 k q from idx2_ext rfl rfl, hid_131, w2_131]
  simp only [e]
  exact Cert.Spec.updCat_eq (fun j => x1 (ix2 p j)) (fun j => val_main_v93 (F := Ideal) x0 x4 x5 x6 x7 x8 x9 (ix2 p j))
    (fun (j : Fin (128 + 128)) k => x10 (ix3 (1 : Fin 2) j k)) (fun k => x11 (ix2 (1 : Fin 2) k)) (fun j k => x12 (ix3 (1 : Fin 2) j k)) (fun k => x13 (ix2 (1 : Fin 2) k)) q

end Cert.RefRows

end
-- ==== Proof.Bridge.lean ====
/-
  The tiled program's tables are the plain program's stages, as whole arrays, on the extended reals.

  The stacked message table of a launch, read at row r, is one of two message networks on row r modulo
  the height of one network's table; the plain program joins the same two networks' tables along the
  rows, so the two arrays agree row by row once each launch's weights and biases are the slots of the
  argument arrays the plain program cuts out.  The aggregated tables are the same composition of host
  operations on both sides (a widening to the longer format is the identity here).  The update tables
  agree row by row for the same reason as the message tables.
-/
import proofs.«148133_j15590731285087_2_alg».proof.Proof.KerArr
import proofs.«148133_j15590731285087_2_alg».proof.Proof.KerHost
import proofs.«148133_j15590731285087_2_alg».proof.Proof.RefRows
import proofs.«148133_j15590731285087_2_alg».proof.Proof.Spec

noncomputable section

open scoped BigOperators

namespace Cert.Bridge

open Idealize.ShloMosaic Idealize.ShloMosaic.ValueIdx Cert.ReferenceIdeal.Read

/-! ## The stacked message tables -/

/-- The stacked table over the clause rows is the join of the first two message networks' tables. -/
theorem zv_eq (x1 : (⟨Cert.ReferenceIdeal.S400000x128, .f32⟩ : BufTy).Contents (Elt Ideal)) (x6 : (⟨Cert.ReferenceIdeal.S4x128x128, .f32⟩ : BufTy).Contents (Elt Ideal)) (x7 : (⟨Cert.ReferenceIdeal.S4x128, .f32⟩ : BufTy).Contents (Elt Ideal))
    (x8 : (⟨Cert.ReferenceIdeal.S4x128x128, .f32⟩ : BufTy).Contents (Elt Ideal)) (x9 : (⟨Cert.ReferenceIdeal.S4x128, .f32⟩ : BufTy).Contents (Elt Ideal))
    (w1 : Vec Ideal Cert.KernelIdeal.S2x128x128 .f32) (b1 : Vec Ideal Cert.KernelIdeal.S2x1x128 .f32)
    (w2 : Vec Ideal Cert.KernelIdeal.S2x128x128 .f32) (b2 : Vec Ideal Cert.KernelIdeal.S2x1x128 .f32)
    (hw1 : ∀ (s : Fin 2) (j k : Fin 128), w1 (ix3 s j k) = x6 (ix3 (⟨s.val, by omega⟩ : Fin 4) j k))
    (hb1 : ∀ (s : Fin 2) (k : Fin 128), b1 (ix3 s (0 : Fin 1) k) = x7 (ix2 (⟨s.val, by omega⟩ : Fin 4) k))
    (hw2 : ∀ (s : Fin 2) (j k : Fin 128), w2 (ix3 s j k) = x8 (ix3 (⟨s.val, by omega⟩ : Fin 4) j k))
    (hb2 : ∀ (s : Fin 2) (k : Fin 128), b2 (ix3 s (0 : Fin 1) k) = x9 (ix2 (⟨s.val, by omega⟩ : Fin 4) k)) :
    Cert.KerArr.zvTab x1 w1 b1 w2 b2 = val_main_v36 (F := Ideal) x1 x6 x7 x8 x9 := by
  funext i
  obtain ⟨r, q, rfl⟩ : ∃ r q, i = ix2 r q := ⟨i 0, i 1, eq_ix2 i⟩
  have hr : r.val < 2 * 400000 := r.isLt
  refine Eq.trans ?_ (Cert.RefRows.cat36 x1 x6 x7 x8 x9 r q).symm
  unfold Cert.KerArr.zvTab
  by_cases h : r.val < 400000
  · rw [dif_pos h]
    refine Eq.trans ?_ (Cert.RefRows.msg17 x1 x6 x7 x8 x9 _ q).symm
    refine Cert.KerArr.mlp2_congr (fun j => ?_) (fun j k => ?_) (fun k => ?_) (fun j k => ?_) (fun k => ?_) rfl
    · exact congrArg x1 (Cert.RefRows.idx2_ext (by show r.val % 400000 = r.val; omega) rfl)
    · exact (hw1 _ j k).trans (congrArg (fun t => x6 (ix3 t j k)) (Fin.ext (by show r.val / 400000 = 0; omega)))
    · exact (hb1 _ k).trans (congrArg (fun t => x7 (ix2 t k)) (Fin.ext (by show r.val / 400000 = 0; omega)))
    · exact (hw2 _ j k).trans (congrArg (fun t => x8 (ix3 t j k)) (Fin.ext (by show r.val / 400000 = 0; omega)))
    · exact (hb2 _ k).trans (congrArg (fun t => x9 (ix2 t k)) (Fin.ext (by show r.val / 400000 = 0; omega)))
  · rw [dif_neg h]
    refine Eq.trans ?_ (Cert.RefRows.msg35 x1 x6 x7 x8 x9 _ q).symm
    refine Cert.KerArr.mlp2_congr (fun j => ?_) (fun j k => ?_) (fun k => ?_) (fun j k => ?_) (fun k => ?_) rfl
    · exact congrArg x1 (Cert.RefRows.idx2_ext (by show r.val % 400000 = r.val - 400000; omega) rfl)
    · exact (hw1 _ j k).trans (congrArg (fun t => x6 (ix3 t j k)) (Fin.ext (by show r.val / 400000 = 1; omega)))
    · exact (hb1 _ k).trans (congrArg (fun t => x7 (ix2 t k)) (Fin.ext (by show r.val / 400000 = 1; omega)))
    · exact (hw2 _ j k).trans (congrArg (fun t => x8 (ix3 t j k)) (Fin.ext (by show r.val / 400000 = 1; omega)))
    · exact (hb2 _ k).trans (congrArg (fun t => x9 (ix2 t k)) (Fin.ext (by show r.val / 400000 = 1; omega)))

/-- The stacked table over the variable rows is the join of the last two message networks' tables. -/
theorem zc_eq (x0 : (⟨Cert.ReferenceIdeal.S100000x128, .f32⟩ : BufTy).Contents (Elt Ideal)) (x6 : (⟨Cert.ReferenceIdeal.S4x128x128, .f32⟩ : BufTy).Contents (Elt Ideal)) (x7 : (⟨Cert.ReferenceIdeal.S4x128, .f32⟩ : BufTy).Contents (Elt Ideal))
    (x8 : (⟨Cert.ReferenceIdeal.S4x128x128, .f32⟩ : BufTy).Contents (Elt Ideal)) (x9 : (⟨Cert.ReferenceIdeal.S4x128, .f32⟩ : BufTy).Contents (Elt Ideal))
    (w1 : Vec Ideal Cert.KernelIdeal.S2x128x128 .f32) (b1 : Vec Ideal Cert.KernelIdeal.S2x1x128 .f32)
    (w2 : Vec Ideal Cert.KernelIdeal.S2x128x128 .f32) (b2 : Vec Ideal Cert.KernelIdeal.S2x1x128 .f32)
    (hw1 : ∀ (s : Fin 2) (j k : Fin 128), w1 (ix3 s j k) = x6 (ix3 (⟨2 + s.val, by omega⟩ : Fin 4) j k))
    (hb1 : ∀ (s : Fin 2) (k : Fin 128), b1 (ix3 s (0 : Fin 1) k) = x7 (ix2 (⟨2 + s.val, by omega⟩ : Fin 4) k))
    (hw2 : ∀ (s : Fin 2) (j k : Fin 128), w2 (ix3 s j k) = x8 (ix3 (⟨2 + s.val, by omega⟩ : Fin 4) j k))
    (hb2 : ∀ (s : Fin 2) (k : Fin 128), b2 (ix3 s (0 : Fin 1) k) = x9 (ix2 (⟨2 + s.val, by omega⟩ : Fin 4) k)) :
    Cert.KerArr.zcTab x0 w1 b1 w2 b2 = val_main_v83 (F := Ideal) x0 x6 x7 x8 x9 := by
  funext i
  obtain ⟨r, q, rfl⟩ : ∃ r q, i = ix2 r q := ⟨i 0, i 1, eq_ix2 i⟩
  have hr : r.val < 2 * 100000 := r.isLt
  refine Eq.trans ?_ (Cert.RefRows.cat83 x0 x6 x7 x8 x9 r q).symm
  unfold Cert.KerArr.zcTab
  by_cases h : r.val < 100000
  · rw [dif_pos h]
    refine Eq.trans ?_ (Cert.RefRows.msg64 x0 x6 x7 x8 x9 _ q).symm
    refine Cert.KerArr.mlp2_congr (fun j => ?_) (fun j k => ?_) (fun k => ?_) (fun j k => ?_) (fun k => ?_) rfl
    · exact congrArg x0 (Cert.RefRows.idx2_ext (by show r.val % 100000 = r.val; omega) rfl)
    · exact (hw1 _ j k).trans (congrArg (fun t => x6 (ix3 t j k)) (Fin.ext (by show 2 + r.val / 100000 = 2; omega)))
    · exact (hb1 _ k).trans (congrArg (fun t => x7 (ix2 t k)) (Fin.ext (by show 2 + r.val / 100000 = 2; omega)))
    · exact (hw2 _ j k).trans (congrArg (fun t => x8 (ix3 t j k)) (Fin.ext (by show 2 + r.val / 100000 = 2; omega)))
    · exact (hb2 _ k).trans (congrArg (fun t => x9 (ix2 t k)) (Fin.ext (by show 2 + r.val / 100000 = 2; omega)))
  · rw [dif_neg h]
    refine Eq.trans ?_ (Cert.RefRows.msg82 x0 x6 x7 x8 x9 _ q).symm
    refine Cert.KerArr.mlp2_congr (fun j => ?_) (fun j k => ?_) (fun k => ?_) (fun j k => ?_) (fun k => ?_) rfl
    · exact congrArg x0 (Cert.RefRows.idx2_ext (by show r.val % 100000 = r.val - 100000; omega) rfl)
    · exact (hw1 _ j k).trans (congrArg (fun t => x6 (ix3 t j k)) (Fin.ext (by show 2 + r.val / 100000 = 3; omega)))
    · exact (hb1 _ k).trans (congrArg (fun t => x7 (ix2 t k)) (Fin.ext (by show 2 + r.val / 100000 = 3; omega)))
    · exact (hw2 _ j k).trans (congrArg (fun t => x8 (ix3 t j k)) (Fin.ext (by show 2 + r.val / 100000 = 3; omega)))
    · exact (hb2 _ k).trans (congrArg (fun t => x9 (ix2 t k)) (Fin.ext (by show 2 + r.val / 100000 = 3; omega)))

/-! ## The aggregated tables -/

/-- Widening a table to the longer format is the identity on the extended reals. -/
theorem widen_id {s : Shape} (v : FVec Ideal s .bf16) (h : FTy.bits .bf16 < FTy.bits .f32) :
    (extf .f32 v h : FVec Ideal s .f32) = v := rfl

/-- The table aggregated over the variable nodes is the plain program's scatter of its gather. -/
theorem aggV_eq (z : Vec Ideal Cert.KernelIdeal.S800000x128 .bf16) (x1 : (⟨Cert.ReferenceIdeal.S400000x128, .f32⟩ : BufTy).Contents (Elt Ideal)) (x2 x3 : (⟨Cert.ReferenceIdeal.S1600000, .i32⟩ : BufTy).Contents (Elt Ideal)) (x6 : (⟨Cert.ReferenceIdeal.S4x128x128, .f32⟩ : BufTy).Contents (Elt Ideal)) (x7 : (⟨Cert.ReferenceIdeal.S4x128, .f32⟩ : BufTy).Contents (Elt Ideal))
    (x8 : (⟨Cert.ReferenceIdeal.S4x128x128, .f32⟩ : BufTy).Contents (Elt Ideal)) (x9 : (⟨Cert.ReferenceIdeal.S4x128, .f32⟩ : BufTy).Contents (Elt Ideal))
    (hz : z = val_main_v36 (F := Ideal) x1 x6 x7 x8 x9) :
    Cert.KerHost.aggV z x2 x3 = val_main_v46 (F := Ideal) x1 x2 x3 x6 x7 x8 x9 := by
  subst hz
  -- the two programs' dimension records have the same fields
  have hS : Cert.KernelIdeal.scatter_S100000x128_S1600000x1_S1600000x128_1_0_0_1 = Cert.ReferenceIdeal.scatter_S100000x128_S1600000x1_S1600000x128_1_0_0_1 := rfl
  have hG : Cert.KernelIdeal.gather_S800000x128_S1600000x1_S1600000x128_1_0_n_n_0_1_1128 = Cert.ReferenceIdeal.gather_S800000x128_S1600000x1_S1600000x128_1_0_n_n_0_1_1128 := rfl
  -- the zero table, the row indices and the wrapped column indices are the same arrays
  have hA : broadcastInDim Cert.KernelIdeal.S100000x128 ![] Cert.KernelIdeal.Gen.bcast_S_S100000x128 (constant (F := Ideal) Cert.KernelIdeal.S_ .f32 0x00000000#32)
      = val_main_v44 (F := Ideal) := rfl
  have hB : broadcastInDim Cert.KernelIdeal.S1600000x1 ![0] Cert.KernelIdeal.Gen.bcast_S1600000_S1600000x1_0 x2 = val_main_v45 (F := Ideal) x2 := rfl
  have hI : broadcastInDim Cert.KernelIdeal.S1600000x1 ![0] Cert.KernelIdeal.Gen.bcast_S1600000_S1600000x1_0
        (select (cmpi .slt x3 (broadcastInDim Cert.KernelIdeal.S1600000 ![] Cert.KernelIdeal.Gen.bcast_S_S1600000 (constantI Cert.KernelIdeal.S_ 32 0#32)))
          (addi x3 (broadcastInDim Cert.KernelIdeal.S1600000 ![] Cert.KernelIdeal.Gen.bcast_S_S1600000 (constantI Cert.KernelIdeal.S_ 32 800000#32))) x3)
      = val_main_v42 (F := Ideal) x3 := rfl
  unfold Cert.KerHost.aggV val_main_v46 val_main_v43
  rw [widen_id, hS, hG, hA, hB, hI]

/-- The table aggregated over the clause nodes is the plain program's scatter of its gather. -/
theorem aggC_eq (z : Vec Ideal Cert.KernelIdeal.S200000x128 .bf16) (x0 : (⟨Cert.ReferenceIdeal.S100000x128, .f32⟩ : BufTy).Contents (Elt Ideal)) (x4 x5 : (⟨Cert.ReferenceIdeal.S1600000, .i32⟩ : BufTy).Contents (Elt Ideal)) (x6 : (⟨Cert.ReferenceIdeal.S4x128x128, .f32⟩ : BufTy).Contents (Elt Ideal)) (x7 : (⟨Cert.ReferenceIdeal.S4x128, .f32⟩ : BufTy).Contents (Elt Ideal))
    (x8 : (⟨Cert.ReferenceIdeal.S4x128x128, .f32⟩ : BufTy).Contents (Elt Ideal)) (x9 : (⟨Cert.ReferenceIdeal.S4x128, .f32⟩ : BufTy).Contents (Elt Ideal))
    (hz : z = val_main_v83 (F := Ideal) x0 x6 x7 x8 x9) :
    Cert.KerHost.aggC z x4 x5 = val_main_v93 (F := Ideal) x0 x4 x5 x6 x7 x8 x9 := by
  subst hz
  -- the two programs' dimension records have the same fields
  have hS : Cert.KernelIdeal.scatter_S400000x128_S1600000x1_S1600000x128_1_0_0_1 = Cert.ReferenceIdeal.scatter_S400000x128_S1600000x1_S1600000x128_1_0_0_1 := rfl
  have hG : Cert.KernelIdeal.gather_S200000x128_S1600000x1_S1600000x128_1_0_n_n_0_1_1128 = Cert.ReferenceIdeal.gather_S200000x128_S1600000x1_S1600000x128_1_0_n_n_0_1_1128 := rfl
  -- the zero table, the row indices and the wrapped column indices are the same arrays
  have hA : broadcastInDim Cert.KernelIdeal.S400000x128 ![] Cert.KernelIdeal.Gen.bcast_S_S400000x128 (constant (F := Ideal) Cert.KernelIdeal.S_ .f32 0x00000000#32)
      = val_main_v91 (F := Ideal) := rfl
  have hB : broadcastInDim Cert.KernelIdeal.S1600000x1 ![0] Cert.KernelIdeal.Gen.bcast_S1600000_S1600000x1_0 x4 = val_main_v92 (F := Ideal) x4 := rfl
  have hI : broadcastInDim Cert.KernelIdeal.S1600000x1 ![0] Cert.KernelIdeal.Gen.bcast_S1600000_S1600000x1_0
        (select (cmpi .slt x5 (broadcastInDim Cert.KernelIdeal.S1600000 ![] Cert.KernelIdeal.Gen.bcast_S_S1600000 (constantI Cert.KernelIdeal.S_ 32 0#32)))
          (addi x5 (broadcastInDim Cert.KernelIdeal.S1600000 ![] Cert.KernelIdeal.Gen.bcast_S_S1600000 (constantI Cert.KernelIdeal.S_ 32 200000#32))) x5)
      = val_main_v89 (F := Ideal) x5 := rfl
  unfold Cert.KerHost.aggC val_main_v93 val_main_v90
  rw [widen_id, hS, hG, hA, hB, hI]

/-! ## The update tables -/

/-- The update table over the variable rows is the plain program's update network on those rows. -/
theorem updV_eq (x0 : (⟨Cert.ReferenceIdeal.S100000x128, .f32⟩ : BufTy).Contents (Elt Ideal)) (x1 : (⟨Cert.ReferenceIdeal.S400000x128, .f32⟩ : BufTy).Contents (Elt Ideal)) (x2 x3 : (⟨Cert.ReferenceIdeal.S1600000, .i32⟩ : BufTy).Contents (Elt Ideal)) (x6 : (⟨Cert.ReferenceIdeal.S4x128x128, .f32⟩ : BufTy).Contents (Elt Ideal)) (x7 : (⟨Cert.ReferenceIdeal.S4x128, .f32⟩ : BufTy).Contents (Elt Ideal))
    (x8 : (⟨Cert.ReferenceIdeal.S4x128x128, .f32⟩ : BufTy).Contents (Elt Ideal)) (x9 : (⟨Cert.ReferenceIdeal.S4x128, .f32⟩ : BufTy).Contents (Elt Ideal))
    (x10 : (⟨Cert.ReferenceIdeal.S2x256x128, .f32⟩ : BufTy).Contents (Elt Ideal)) (x11 : (⟨Cert.ReferenceIdeal.S2x128, .f32⟩ : BufTy).Contents (Elt Ideal)) (x12 : (⟨Cert.ReferenceIdeal.S2x128x128, .f32⟩ : BufTy).Contents (Elt Ideal)) (x13 : (⟨Cert.ReferenceIdeal.S2x128, .f32⟩ : BufTy).Contents (Elt Ideal))
    (mm : Vec Ideal Cert.KernelIdeal.S100000x128 .f32) (wa wb : Vec Ideal Cert.KernelIdeal.S128x128 .f32) (b1 : Vec Ideal Cert.KernelIdeal.S1x128 .f32)
    (w2 : Vec Ideal Cert.KernelIdeal.S128x128 .f32) (b2 : Vec Ideal Cert.KernelIdeal.S1x128 .f32)
    (hmm : mm = val_main_v46 (F := Ideal) x1 x2 x3 x6 x7 x8 x9)
    (hwa : ∀ j k : Fin 128, wa (ix2 j k) = x10 (ix3 (0 : Fin 2) (Fin.castAdd 128 j : Fin (128 + 128)) k))
    (hwb : ∀ j k : Fin 128, wb (ix2 j k) = x10 (ix3 (0 : Fin 2) (Fin.natAdd 128 j : Fin (128 + 128)) k))
    (hb1 : ∀ k : Fin 128, b1 (ix2 (0 : Fin 1) k) = x11 (ix2 (0 : Fin 2) k))
    (hw2 : ∀ j k : Fin 128, w2 (ix2 j k) = x12 (ix3 (0 : Fin 2) j k))
    (hb2 : ∀ k : Fin 128, b2 (ix2 (0 : Fin 1) k) = x13 (ix2 (0 : Fin 2) k)) :
    Cert.KerArr.updV x0 mm wa wb b1 w2 b2 = val_main_v112 (F := Ideal) x0 x1 x2 x3 x6 x7 x8 x9 x10 x11 x12 x13 := by
  subst hmm
  funext i
  obtain ⟨p, q, rfl⟩ : ∃ p q, i = ix2 p q := ⟨i 0, i 1, eq_ix2 i⟩
  refine Eq.trans ?_ (Cert.RefRows.upd112 x0 x1 x2 x3 x6 x7 x8 x9 x10 x11 x12 x13 p q).symm
  unfold Cert.KerArr.updV
  exact Cert.KerArr.upd2_congr (fun _ => rfl) (fun _ => rfl) hwa hwb hb1 hw2 hb2 rfl

/-- The update table over the clause rows is the plain program's update network on those rows. -/
theorem updC_eq (x0 : (⟨Cert.ReferenceIdeal.S100000x128, .f32⟩ : BufTy).Contents (Elt Ideal)) (x1 : (⟨Cert.ReferenceIdeal.S400000x128, .f32⟩ : BufTy).Contents (Elt Ideal)) (x4 x5 : (⟨Cert.ReferenceIdeal.S1600000, .i32⟩ : BufTy).Contents (Elt Ideal)) (x6 : (⟨Cert.ReferenceIdeal.S4x128x128, .f32⟩ : BufTy).Contents (Elt Ideal)) (x7 : (⟨Cert.ReferenceIdeal.S4x128, .f32⟩ : BufTy).Contents (Elt Ideal))
    (x8 : (⟨Cert.ReferenceIdeal.S4x128x128, .f32⟩ : BufTy).Contents (Elt Ideal)) (x9 : (⟨Cert.ReferenceIdeal.S4x128, .f32⟩ : BufTy).Contents (Elt Ideal))
    (x10 : (⟨Cert.ReferenceIdeal.S2x256x128, .f32⟩ : BufTy).Contents (Elt Ideal)) (x11 : (⟨Cert.ReferenceIdeal.S2x128, .f32⟩ : BufTy).Contents (Elt Ideal)) (x12 : (⟨Cert.ReferenceIdeal.S2x128x128, .f32⟩ : BufTy).Contents (Elt Ideal)) (x13 : (⟨Cert.ReferenceIdeal.S2x128, .f32⟩ : BufTy).Contents (Elt Ideal))
    (mm : Vec Ideal Cert.KernelIdeal.S400000x128 .f32) (wa wb : Vec Ideal Cert.KernelIdeal.S128x128 .f32) (b1 : Vec Ideal Cert.KernelIdeal.S1x128 .f32)
    (w2 : Vec Ideal Cert.KernelIdeal.S128x128 .f32) (b2 : Vec Ideal Cert.KernelIdeal.S1x128 .f32)
    (hmm : mm = val_main_v93 (F := Ideal) x0 x4 x5 x6 x7 x8 x9)
    (hwa : ∀ j k : Fin 128, wa (ix2 j k) = x10 (ix3 (1 : Fin 2) (Fin.castAdd 128 j : Fin (128 + 128)) k))
    (hwb : ∀ j k : Fin 128, wb (ix2 j k) = x10 (ix3 (1 : Fin 2) (Fin.natAdd 128 j : Fin (128 + 128)) k))
    (hb1 : ∀ k : Fin 128, b1 (ix2 (0 : Fin 1) k) = x11 (ix2 (1 : Fin 2) k))
    (hw2 : ∀ j k : Fin 128, w2 (ix2 j k) = x12 (ix3 (1 : Fin 2) j k))
    (hb2 : ∀ k : Fin 128, b2 (ix2 (0 : Fin 1) k) = x13 (ix2 (1 : Fin 2) k)) :
    Cert.KerArr.updC x1 mm wa wb b1 w2 b2 = val_main_v131 (F := Ideal) x0 x1 x4 x5 x6 x7 x8 x9 x10 x11 x12 x13 := by
  subst hmm
  funext i
  obtain ⟨p, q, rfl⟩ : ∃ p q, i = ix2 p q := ⟨i 0, i 1, eq_ix2 i⟩
  refine Eq.trans ?_ (Cert.RefRows.upd131 x0 x1 x4 x5 x6 x7 x8 x9 x10 x11 x12 x13 p q).symm
  unfold Cert.KerArr.updC
  exact Cert.KerArr.upd2_congr (fun _ => rfl) (fun _ => rfl) hwa hwb hb1 hw2 hb2 rfl

end Cert.Bridge

end
-- ==== Proof.Assemble.lean ====
/-
  The tiled program's two result arrays are the plain program's two results.

  Boundary by boundary: the first launch leaves the stacked message table of the clause rows, which is the plain
  program's stacked table; the aggregation lines are the same host operations on both sides, so the aggregated
  tables agree; the update launches leave the update networks of the rows joined with the aggregated rows, which
  are the plain program's results once the sum over the joined row is split in its two halves.
-/
import proofs.«148133_j15590731285087_2_alg».proof.Proof.FrameKeep
import proofs.«148133_j15590731285087_2_alg».proof.Proof.KerChain
import proofs.«148133_j15590731285087_2_alg».proof.Proof.KerArr
import proofs.«148133_j15590731285087_2_alg».proof.Proof.KerHost
import proofs.«148133_j15590731285087_2_alg».proof.Proof.Bridge

set_option maxRecDepth 16384

noncomputable section

namespace Cert.Assemble

open Idealize.ShloMosaic Idealize.ShloMosaic.TcCoe Idealize.SL.Sem Idealize.ShloMosaic.StableHlo Idealize.ShloMosaic.ValueIdx
open Cert.KernelIdeal Cert.KernelIdeal.Gen

variable (m : (ℓ : Loc nD τ sig) → Buf (Elt Ideal) ℓ) (ρ : Dev nD → PrngReg) (c : Dev nD)

/-- The first stacked message table, when the aggregation reads it, is the plain program's stacked table. -/
theorem zv_stage : W4 m ρ c (Proc.devRef .tc main_v6) = Cert.ReferenceIdeal.Read.val_main_v36 (F := Ideal) (m ((c : Thread nD τ).loc main_arg1)) (m ((c : Thread nD τ).loc main_arg6)) (m ((c : Thread nD τ).loc main_arg7)) (m ((c : Thread nD τ).loc main_arg8)) (m ((c : Thread nD τ).loc main_arg9)) := by
  rw [Cert.KerChain.W4_v6, Cert.KerArr.final0]
  rw [show V1 m ρ c main_arg1 = (m ((c : Thread nD τ).loc main_arg1)) from Cert.KerChain.W1_arg1 m ρ c]
  exact Cert.Bridge.zv_eq _ _ _ _ _ _ _ _ _
    (fun s j k => Cert.KerHost.h0_v0 (W0 m ρ c) s j k) (fun s k => Cert.KerHost.h0_v4 (W0 m ρ c) s k)
    (fun s j k => Cert.KerHost.h0_v2 (W0 m ρ c) s j k) (fun s k => Cert.KerHost.h0_v5 (W0 m ρ c) s k)

/-- The second stacked message table is the plain program's second stacked table. -/
theorem zc_stage : W4 m ρ c (Proc.devRef .tc main_v13) = Cert.ReferenceIdeal.Read.val_main_v83 (F := Ideal) (m ((c : Thread nD τ).loc main_arg0)) (m ((c : Thread nD τ).loc main_arg6)) (m ((c : Thread nD τ).loc main_arg7)) (m ((c : Thread nD τ).loc main_arg8)) (m ((c : Thread nD τ).loc main_arg9)) := by
  rw [Cert.KerChain.W4_v13, Cert.KerArr.final1]
  rw [show V3 m ρ c main_arg0 = (m ((c : Thread nD τ).loc main_arg0)) from Cert.KerChain.W3_arg0 m ρ c]
  exact Cert.Bridge.zc_eq _ _ _ _ _ _ _ _ _
    (fun s j k => (Cert.KerHost.h1_v7 (W2 m ρ c) s j k).trans (congrFun (Cert.KerChain.W2_arg6 m ρ c) _)) (fun s k => (Cert.KerHost.h1_v11 (W2 m ρ c) s k).trans (congrFun (Cert.KerChain.W2_arg7 m ρ c) _))
    (fun s j k => (Cert.KerHost.h1_v9 (W2 m ρ c) s j k).trans (congrFun (Cert.KerChain.W2_arg8 m ρ c) _)) (fun s k => (Cert.KerHost.h1_v12 (W2 m ρ c) s k).trans (congrFun (Cert.KerChain.W2_arg9 m ρ c) _))

/-- The first aggregated table is the plain program's. -/
theorem mv_stage : W5 m ρ c (Proc.devRef .tc main_v24) = Cert.ReferenceIdeal.Read.val_main_v46 (F := Ideal) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9)) := by
  show StableHlo.after hostOps2 (W4 m ρ c) (Proc.devRef .tc main_v24) = _
  rw [Cert.KerHost.h2_v24, Cert.KerChain.W4_arg2, Cert.KerChain.W4_arg3]
  exact Cert.Bridge.aggV_eq _ _ _ _ _ _ _ _ (zv_stage m ρ c)

/-- The second aggregated table, when the fourth launch reads it, is the plain program's. -/
theorem mc_stage : W7 m ρ c (Proc.devRef .tc main_v35) = Cert.ReferenceIdeal.Read.val_main_v93 (F := Ideal) (m ((c : Thread nD τ).loc main_arg0)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  rw [Cert.KerChain.W7_v35]
  show StableHlo.after hostOps2 (W4 m ρ c) (Proc.devRef .tc main_v35) = _
  rw [Cert.KerHost.h2_v35, Cert.KerChain.W4_arg4, Cert.KerChain.W4_arg5]
  exact Cert.Bridge.aggC_eq _ _ _ _ _ _ _ _ (zc_stage m ρ c)

/-- The first result array ends holding the plain program's first result. -/
theorem hv_new : W8 m ρ c (Proc.devRef .tc main_v48) = Cert.ReferenceIdeal.Read.val_main_v112 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  rw [Cert.KerChain.W8_v48, Cert.KerArr.final2]
  rw [show V5 m ρ c main_arg0 = (m ((c : Thread nD τ).loc main_arg0)) from Cert.KerChain.W5_arg0 m ρ c]
  exact Cert.Bridge.updV_eq _ _ _ _ _ _ _ _ _ _ _ _ _ _ _ _ _ _ (mv_stage m ρ c)
    (fun j k => (Cert.KerHost.h2_v44 (W4 m ρ c) j k).trans (congrFun (Cert.KerChain.W4_arg10 m ρ c) _)) (fun j k => (Cert.KerHost.h2_v45 (W4 m ρ c) j k).trans (congrFun (Cert.KerChain.W4_arg10 m ρ c) _))
    (fun k => (Cert.KerHost.h2_v46 (W4 m ρ c) k).trans (congrFun (Cert.KerChain.W4_arg11 m ρ c) _)) (fun j k => (Cert.KerHost.h2_v41 (W4 m ρ c) j k).trans (congrFun (Cert.KerChain.W4_arg12 m ρ c) _))
    (fun k => (Cert.KerHost.h2_v47 (W4 m ρ c) k).trans (congrFun (Cert.KerChain.W4_arg13 m ρ c) _))

/-- The second result array ends holding the plain program's second result. -/
theorem hc_new : W8 m ρ c (Proc.devRef .tc main_v61) = Cert.ReferenceIdeal.Read.val_main_v131 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  rw [Cert.KerChain.W8_v61, Cert.KerArr.final3]
  rw [show V7 m ρ c main_arg1 = (m ((c : Thread nD τ).loc main_arg1)) from Cert.KerChain.W7_arg1 m ρ c]
  exact Cert.Bridge.updC_eq _ _ _ _ _ _ _ _ _ _ _ _ _ _ _ _ _ _ (mc_stage m ρ c)
    (fun j k => (Cert.KerHost.h3_v57 (W6 m ρ c) j k).trans (congrFun (Cert.KerChain.W6_arg10 m ρ c) _)) (fun j k => (Cert.KerHost.h3_v58 (W6 m ρ c) j k).trans (congrFun (Cert.KerChain.W6_arg10 m ρ c) _))
    (fun k => (Cert.KerHost.h3_v59 (W6 m ρ c) k).trans (congrFun (Cert.KerChain.W6_arg11 m ρ c) _)) (fun j k => (Cert.KerHost.h3_v54 (W6 m ρ c) j k).trans (congrFun (Cert.KerChain.W6_arg12 m ρ c) _))
    (fun k => (Cert.KerHost.h3_v60 (W6 m ρ c) k).trans (congrFun (Cert.KerChain.W6_arg13 m ρ c) _))

end Cert.Assemble

end
-- ==== Proof.lean ====
/-
  The certificate's five claims.

  Both programs compute one layer of a bipartite message-passing network: four two-layer message networks
  relu (relu (x·W₁ + b₁)·W₂ + b₂), stacked in pairs into two tables; two gather / scatter-add aggregations over
  the edge lists; and two two-layer update networks on each row h joined with its aggregated row m.  The tiled
  program runs the message networks tile by tile (two launches, each over row tiles and the two weight sets),
  the aggregations as the same host operations, and the update networks tile by tile with the first layer written
  as h·W₁[:128] + m·W₁[128:] + b₁.  On the extended reals the changes of float format are the identity, a product
  accumulated into zero is the plain sum, and the sum over a joined row is the sum of the two halves' sums (by
  associativity and commutativity of + only, so no finiteness of the inputs is used): the two programs' results
  are equal entry by entry (Assemble.lean).  The three frames are the programs' runs with the results dropped;
  the idealization rewrote nothing, so its claim is trivial.
-/
import proofs.«148133_j15590731285087_2_alg».proof.Defs
import proofs.«148133_j15590731285087_2_alg».proof.Proof.Gen.Kernel
import proofs.«148133_j15590731285087_2_alg».proof.Proof.Gen.Kernel.Skeleton
import proofs.«148133_j15590731285087_2_alg».proof.Proof.Gen.Kernel.Points
import proofs.«148133_j15590731285087_2_alg».proof.Proof.FrameK
import proofs.«148133_j15590731285087_2_alg».proof.Proof.Gen.KernelIdeal
import proofs.«148133_j15590731285087_2_alg».proof.Proof.Gen.KernelIdeal.Skeleton
import proofs.«148133_j15590731285087_2_alg».proof.Proof.Gen.KernelIdeal.Points
import proofs.«148133_j15590731285087_2_alg».proof.Proof.FrameKI
import proofs.«148133_j15590731285087_2_alg».proof.Proof.Gen.ReferenceIdeal
import proofs.«148133_j15590731285087_2_alg».proof.Proof.Gen.Pre_finite_inputs
import proofs.«148133_j15590731285087_2_alg».proof.Proof.Assemble
import proofs.«148133_j15590731285087_2_alg».proof.Proof.RunP
import Idealize.ShloMosaic.Adequacy
import Idealize.ShloMosaic.Init

set_option maxRecDepth 16384

noncomputable section

namespace Cert.Proof

open Idealize.ShloMosaic Idealize.SL.Sem

/-- The tiled program runs, and its argument arrays end unchanged. -/
theorem frame_p : @Cert.frame_Kernel Cert.Kernel.Gen.facts Cert.Pre_finite_inputs.Gen.facts :=
  fun m ρ _ => Cert.Kernel.Gen.frame m ρ

/-- The idealized tiled program runs, and its argument arrays end unchanged. -/
theorem frame_pi : @Cert.frame_KernelIdeal Cert.KernelIdeal.Gen.facts Cert.Pre_finite_inputs.Gen.facts :=
  fun m ρ _ => Cert.KernelIdeal.Gen.frame m ρ

/-- The plain program runs, and its argument arrays end unchanged: its run with the two results dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2.2)
    (Cert.ReferenceIdeal.ValueP.run (F := Ideal) m ρ)

open Cert.KernelIdeal in
/-- The idealized tiled program's run with both result arrays at the plain program's stages of its own arguments. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v48) = Cert.ReferenceIdeal.Read.val_main_v112 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_v61) = Cert.ReferenceIdeal.Read.val_main_v131 (F := Ideal) (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run (defs (F := Ideal)) _ _).mono
    (fun r h c => ⟨(h c).1.trans (Cert.Assemble.hv_new m ρ c), (h c).2.1.trans (Cert.Assemble.hc_new m ρ c), (h c).2.2⟩)
    (Cert.KernelIdeal.GenP.frameKeep (F := Ideal) m ρ)

/-- From memories agreeing on the arguments both idealized programs run and end with equal results. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨_, _, kernel_run m ρ, ?_⟩
  refine (θ_run Cert.ReferenceIdeal.defs _ _).mono (fun r h c => ?_) (Cert.ReferenceIdeal.ValueP.run (F := Ideal) m' ρ')
  obtain ⟨h1, h2, hargs⟩ := h c
  obtain ⟨a0, a1, a2, a3, a4, a5, a6, a7, a8, a9, a10, a11, a12, a13⟩ := hagree c
  refine ⟨h1.trans ?_, h2.trans ?_, hargs⟩
  · rw [a0, a1, a2, a3, a6, a7, a8, a9, a10, a11, a12, a13]
  · rw [a0, a1, a4, a5, a6, a7, a8, a9, a10, a11, a12, a13]

theorem claim : Cert.Claim :=
  ⟨Cert.Kernel.Gen.facts, Cert.KernelIdeal.Gen.facts, Cert.ReferenceIdeal.Gen.facts, Cert.Pre_finite_inputs.Gen.facts,
    frame_p, frame_pi, frame_ri, trivial, algebraic⟩

end Cert.Proof

end
